-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3072 : Shape := ⟨2, ![2048, 3072]⟩
abbrev S4096 : Shape := ⟨1, ![4096]⟩
abbrev S4096x100 : Shape := ⟨2, ![4096, 100]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x100 : S_.BroadcastsInDim S4096x100 (![] : Fin 0 → Fin S4096x100.rank)
  reducesTo_S4096x100_S_d0_1 : S4096x100.ReducesTo [0, 1] S_

variable [Facts]

def fn_part1 {F : FTy → Type} [FloatOps F] (main_arg4 : FVec F S2048x3072 .f32) (main_arg5 : FVec F S4096 .f32) (main_arg6 : FVec F S4096x100 .f32) (main_v13 : IVec S_ 1) (main_v16 : IVec S2048x3072 1) : IVec S_ 1 :=
  let main_c_5 : IVec S_ 1 := constantI S_ 1 1#1
  let main_v17 : IVec S_ 1 := (fun x v => Host.reduce IntOp.andi x v reducesTo_S2048x3072_S_d0_1 h_S_) main_v16 main_c_5
  let main_v18 : IVec S_ 1 := andi main_v13 main_v17
  let main_v19 : FVec F S2048x3072 .f32 := Host.absf main_arg4
  let main_cst_6 : FVec F S_ .f32 := constant S_ .f32 0x7F800000#32
  let main_v20 : FVec F S2048x3072 .f32 := broadcastInDim S2048x3072 ![] bcast_S_S2048x3072 main_cst_6
  let main_v21 : IVec S2048x3072 1 := cmpf .olt main_v19 main_v20
  let main_c_7 : IVec S_ 1 := constantI S_ 1 1#1
  let main_v22 : IVec S_ 1 := (fun x v => Host.reduce IntOp.andi x v reducesTo_S2048x3072_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x100 .f32 := Host.absf main_arg6
  let main_cst_10 : FVec F S_ .f32 := constant S_ .f32 0x7F800000#32
  let main_v30 : FVec F S4096x100 .f32 := broadcastInDim S4096x100 ![] bcast_S_S4096x100 main_cst_10
  let main_v31 : IVec S4096x100 1 := cmpf .olt main_v29 main_v30
  let main_c_11 : IVec S_ 1 := constantI S_ 1 1#1
  let main_v32 : IVec S_ 1 := (fun x v => Host.reduce IntOp.andi x v reducesTo_S4096x100_S_d0_1 h_S_) main_v31 main_c_11
  let main_v33 : IVec S_ 1 := andi main_v28 main_v32
  main_v33

def fn {F : FTy → Type} [FloatOps F] (main_arg0 : FVec F S2048x3072 .f32) (main_arg1 : FVec F S2048x3072 .f32) (main_arg2 : FVec F S2048x3072 .f32) (main_arg3 : FVec F S2048x3072 .f32) (main_arg4 : FVec F S2048x3072 .f32) (main_arg5 : FVec F S4096 .f32) (main_arg6 : FVec F S4096x100 .f32) : IVec S_ 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S2048x3072 .f32 := Host.absf main_arg1
  let main_cst_0 : FVec F S_ .f32 := constant S_ .f32 0x7F800000#32
  let main_v5 : FVec F S2048x3072 .f32 := broadcastInDim S2048x3072 ![] bcast_S_S2048x3072 main_cst_0
  let main_v6 : IVec S2048x3072 1 := cmpf .olt main_v4 main_v5
  let main_c_1 : IVec S_ 1 := constantI S_ 1 1#1
  let main_v7 : IVec S_ 1 := (fun x v => Host.reduce IntOp.andi x v reducesTo_S2048x3072_S_d0_1 h_S_) main_v6 main_c_1
  let main_v8 : IVec S_ 1 := andi main_v3 main_v7
  let main_v9 : FVec F S2048x3072 .f32 := Host.absf main_arg2
  let main_cst_2 : FVec F S_ .f32 := constant S_ .f32 0x7F800000#32
  let main_v10 : FVec F S2048x3072 .f32 := broadcastInDim S2048x3072 ![] bcast_S_S2048x3072 main_cst_2
  let main_v11 : IVec S2048x3072 1 := cmpf .olt main_v9 main_v10
  let main_c_3 : IVec S_ 1 := constantI S_ 1 1#1
  let main_v12 : IVec S_ 1 := (fun x v => Host.reduce IntOp.andi x v reducesTo_S2048x3072_S_d0_1 h_S_) main_v11 main_c_3
  let main_v13 : IVec S_ 1 := andi main_v8 main_v12
  let main_v14 : FVec F S2048x3072 .f32 := Host.absf main_arg3
  let main_cst_4 : FVec F S_ .f32 := constant S_ .f32 0x7F800000#32
  let main_v15 : FVec F S2048x3072 .f32 := broadcastInDim S2048x3072 ![] bcast_S_S2048x3072 main_cst_4
  let main_v16 : IVec S2048x3072 1 := cmpf .olt main_v14 main_v15
  fn_part1 (F := F) main_arg4 main_arg5 main_arg6 main_v13 main_v16
-- ==== Kernel.lean ====
abbrev S2048x3072 : Shape := ⟨2, ![2048, 3072]⟩
abbrev S4096 : Shape := ⟨1, ![4096]⟩
abbrev S4096x100 : Shape := ⟨2, ![4096, 100]⟩
abbrev S2048 : Shape := ⟨1, ![2048]⟩
abbrev S1x2048 : Shape := ⟨2, ![1, 2048]⟩
abbrev S2048x100 : Shape := ⟨2, ![2048, 100]⟩
abbrev S_ : Shape := ⟨0, ![]⟩
abbrev S2048x128 : Shape := ⟨2, ![2048, 128]⟩
abbrev S2048x2048 : Shape := ⟨2, ![2048, 2048]⟩
abbrev S1024x3072 : Shape := ⟨2, ![1024, 3072]⟩
abbrev S128x3072 : Shape := ⟨2, ![128, 3072]⟩
abbrev S1x128 : Shape := ⟨2, ![1, 128]⟩
abbrev S128x128 : Shape := ⟨2, ![128, 128]⟩
abbrev S1024x128 : Shape := ⟨2, ![1024, 128]⟩
abbrev S3072x128 : Shape := ⟨2, ![3072, 128]⟩
abbrev S2048x4096 : Shape := ⟨2, ![2048, 4096]⟩

abbrev nBuf : Space → Nat
  | .hbm => 28
  | .vmem => 34
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S4096, .f32⟩
  | .hbm, ⟨6, _⟩ => ⟨S4096x100, .f32⟩
  | .hbm, ⟨7, _⟩ => ⟨S2048x3072, .bf16⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S2048x100, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S2048x100, .f32⟩
  | .hbm, ⟨17, _⟩ => ⟨S_, .i32⟩
  | .hbm, ⟨18, _⟩ => ⟨S_, .f32⟩
  | .hbm, ⟨19, _⟩ => ⟨S2048x128, .f32⟩
  | .hbm, ⟨20, _⟩ => ⟨S_, .f32⟩
  | .hbm, ⟨21, _⟩ => ⟨S2048x128, .f32⟩
  | .hbm, ⟨22, _⟩ => ⟨S2048x2048, .f32⟩
  | .hbm, ⟨23, _⟩ => ⟨S2048x128, .f32⟩
  | .hbm, ⟨24, _⟩ => ⟨S2048x2048, .f32⟩
  | .hbm, ⟨25, _⟩ => ⟨S2048x128, .f32⟩
  | .hbm, ⟨26, _⟩ => ⟨S2048x4096, .f32⟩
  | .hbm, ⟨27, _⟩ => ⟨S2048x100, .f32⟩
  | .local _ .vmem, ⟨0, _⟩ => ⟨S1024x3072, .bf16⟩
  | .local _ .vmem, ⟨1, _⟩ => ⟨S1024x3072, .bf16⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x3072, .bf16⟩
  | .local _ .vmem, ⟨18, _⟩ => ⟨S1024x3072, .bf16⟩
  | .local _ .vmem, ⟨19, _⟩ => ⟨S128x3072, .f32⟩
  | .local _ .vmem, ⟨20, _⟩ => ⟨S128x3072, .f32⟩
  | .local _ .vmem, ⟨21, _⟩ => ⟨S128x3072, .f32⟩
  | .local _ .vmem, ⟨22, _⟩ => ⟨S128x3072, .f32⟩
  | .local _ .vmem, ⟨23, _⟩ => ⟨S1x128, .f32⟩
  | .local _ .vmem, ⟨24, _⟩ => ⟨S1x128, .f32⟩
  | .local _ .vmem, ⟨25, _⟩ => ⟨S128x128, .f32⟩
  | .local _ .vmem, ⟨26, _⟩ => ⟨S128x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v11_0 : Ref sig .tc := ⟨.hbm, 24, rfl⟩
abbrev main_v11_1 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v50 : BitVec 1 := Scalar.cmpi .eq arg1 c15_i32
  let v51 : BitVec 32 := Scalar.extui v50
  let c0_i32_27 : BitVec 32 := 0#32
  let v52 : BitVec 1 := Scalar.cmpi .ne v51 c0_i32_27
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v50 : BitVec 1 := Scalar.cmpi .eq arg1 c15_i32
  let v51 : BitVec 32 := Scalar.extui v50
  let c0_i32_27 : BitVec 32 := 0#32
  let v52 : BitVec 1 := Scalar.cmpi .ne v51 c0_i32_27
  v52

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x3072 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  bitsLt_bf16_f32 : FTy.bits .bf16 < FTy.bits .f32
  slices_S4096_S2048_0 : S4096.Slices ![0] S2048
  shapeCasts_S2048_S1x2048 : S2048.ShapeCasts S1x2048
  slices_S4096_S2048_2048 : S4096.Slices ![2048] S2048
  slices_S4096x100_S2048x100_0_0 : S4096x100.Slices ![0, 0] S2048x100
  pads_S2048x100_S2048x128_000_0280 : S2048x100.Pads (![0, 0] : Fin 2 → Nat) ![0, 28] ![0, 0] S2048x128
  h_S_ : 0 < S_.numel
  slices_S4096x100_S2048x100_2048_0 : S4096x100.Slices ![2048, 0] S2048x100
  bcast_S_S2048x128 : S_.BroadcastsInDim S2048x128 (![] : Fin 0 → Fin S2048x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S128x3072_S128x3072_0_0 : ∀ a, (![0, 0] : Fin 2 → Nat) a + S128x3072.size a ≤ S128x3072.size a
  h_S128x3072 : 0 < S128x3072.numel
  transposes_S128x3072_p1_0_S3072x128 : S128x3072.Transposes [1, 0] S3072x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S2048x2048_S2048x2048_S2048x4096_d1 : Shape.Concatenates [S2048x2048, S2048x2048] S2048x4096 1
  slices_S2048x128_S2048x100_0_0 : S2048x128.Slices ![0, 0] S2048x100
  dot_S1024x3072_S3072x128_S1024x128_1_0_0_1_n_n_wf : DotDims.WF S1024x3072 S3072x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3072.size a ≤ S2048x3072.size a
  hwx0_0 : ∀ i : grid0.Coords, EltTy.bits .bf16 = 32 ∨ (Rect.block (s := S2048x3072) S1024x3072.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x3072.size a ≤ S2048x3072.size a
  hwx0_1 : ∀ i : grid0.Coords, EltTy.bits .f32 = 32 ∨ (Rect.block (s := S2048x3072) S128x3072.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x3072.size a ≤ S2048x3072.size a
  hwx0_2 : ∀ i : grid0.Coords, EltTy.bits .f32 = 32 ∨ (Rect.block (s := S2048x3072) S128x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x2048.size a
  hwx0_3 : ∀ i : grid0.Coords, EltTy.bits .f32 = 32 ∨ (Rect.block (s := S1x2048) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S2048x128.size a
  hwx0_4 : ∀ i : grid0.Coords, EltTy.bits .f32 = 32 ∨ (Rect.block (s := S2048x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S2048x128.size a
  hwx0_5 : ∀ i : grid0.Coords, EltTy.bits .f32 = 32 ∨ (Rect.block (s := S2048x128) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S2048x2048.size a
  hwx0_6 : ∀ i : grid0.Coords, EltTy.bits .f32 = 32 ∨ (Rect.block (s := S2048x2048) S1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S2048x128.size a
  hwx0_7 : ∀ i : grid0.Coords, EltTy.bits .f32 = 32 ∨ (Rect.block (s := S2048x128) S1024x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3072.size a ≤ S2048x3072.size a
  hwx1_0 : ∀ i : grid1.Coords, EltTy.bits .bf16 = 32 ∨ (Rect.block (s := S2048x3072) S1024x3072.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x3072.size a ≤ S2048x3072.size a
  hwx1_1 : ∀ i : grid1.Coords, EltTy.bits .f32 = 32 ∨ (Rect.block (s := S2048x3072) S128x3072.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x3072.size a ≤ S2048x3072.size a
  hwx1_2 : ∀ i : grid1.Coords, EltTy.bits .f32 = 32 ∨ (Rect.block (s := S2048x3072) S128x3072.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x2048.size a
  hwx1_3 : ∀ i : grid1.Coords, EltTy.bits .f32 = 32 ∨ (Rect.block (s := S1x2048) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S2048x128.size a
  hwx1_4 : ∀ i : grid1.Coords, EltTy.bits .f32 = 32 ∨ (Rect.block (s := S2048x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S2048x128.size a
  hwx1_5 : ∀ i : grid1.Coords, EltTy.bits .f32 = 32 ∨ (Rect.block (s := S2048x128) S1024x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S2048x2048.size a
  hwx1_6 : ∀ i : grid1.Coords, EltTy.bits .f32 = 32 ∨ (Rect.block (s := S2048x2048) S1024x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S2048x128.size a
  hwx1_7 : ∀ i : grid1.Coords, EltTy.bits .f32 = 32 ∨ (Rect.block (s := S2048x128) S1024x128.size (cc1_transform_7 i) (hinb1_7 i)).WholeWords (EltTy.packing .f32)

variable [Facts₀]

def dot_S1024x3072_S3072x128_S1024x128_1_0_0_1_n_n : DotDims S1024x3072 S3072x128 S1024x128 where
  lhsContracting := [1]
  rhsContracting := [0]
  lhsNonContracting := [0]
  rhsNonContracting := [1]
  lhsBatch := []
  rhsBatch := []
  wf := dot_S1024x3072_S3072x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v0) S1024x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x3072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x3072.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S1024x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v0) S1024x3072.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x3072.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x3072.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S128x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v10_1) S1024x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11_0) S1024x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11_1) S1024x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S2048x3072 : Shape := ⟨2, ![2048, 3072]⟩
abbrev S4096 : Shape := ⟨1, ![4096]⟩
abbrev S4096x100 : Shape := ⟨2, ![4096, 100]⟩
abbrev S_ : Shape := ⟨0, ![]⟩
abbrev S2048x6144 : Shape := ⟨2, ![2048, 6144]⟩
abbrev S4096x6144 : Shape := ⟨2, ![4096, 6144]⟩
abbrev S6144x4096 : Shape := ⟨2, ![6144, 4096]⟩
abbrev S2048x4096 : Shape := ⟨2, ![2048, 4096]⟩
abbrev S1x4096 : Shape := ⟨2, ![1, 4096]⟩
abbrev S2048x100 : Shape := ⟨2, ![2048, 100]⟩

abbrev nBuf : Space → Nat
  | .hbm => 97
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S4096, .f32⟩
  | .hbm, ⟨6, _⟩ => ⟨S4096x100, .f32⟩
  | .hbm, ⟨7, _⟩ => ⟨S2048x3072, .f32⟩
  | .hbm, ⟨8, _⟩ => ⟨S2048x3072, .f32⟩
  | .hbm, ⟨9, _⟩ => ⟨S_, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2048x3072, .f32⟩
  | .hbm, ⟨19, _⟩ => ⟨S2048x3072, .f32⟩
  | .hbm, ⟨20, _⟩ => ⟨S_, .f32⟩
  | .hbm, ⟨21, _⟩ => ⟨S2048x3072, .f32⟩
  | .hbm, ⟨22, _⟩ => ⟨S2048x3072, .f32⟩
  | .hbm, ⟨23, _⟩ => ⟨S2048x3072, .f32⟩
  | .hbm, ⟨24, _⟩ => ⟨S2048x3072, .f32⟩
  | .hbm, ⟨25, _⟩ => ⟨S_, .f32⟩
  | .hbm, ⟨26, _⟩ => ⟨S2048x3072, .f32⟩
  | .hbm, ⟨27, _⟩ => ⟨S2048x3072, .f32⟩
  | .hbm, ⟨28, _⟩ => ⟨S_, .f32⟩
  | .hbm, ⟨29, _⟩ => ⟨S2048x3072, .f32⟩
  | .hbm, ⟨30, _⟩ => ⟨S2048x3072, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2048x3072, .f32⟩
  | .hbm, ⟨35, _⟩ => ⟨S2048x3072, .f32⟩
  | .hbm, ⟨36, _⟩ => ⟨S_, .f32⟩
  | .hbm, ⟨37, _⟩ => ⟨S2048x3072, .f32⟩
  | .hbm, ⟨38, _⟩ => ⟨S2048x3072, .f32⟩
  | .hbm, ⟨39, _⟩ => ⟨S2048x3072, .f32⟩
  | .hbm, ⟨40, _⟩ => ⟨S2048x3072, .f32⟩
  | .hbm, ⟨41, _⟩ => ⟨S_, .f32⟩
  | .hbm, ⟨42, _⟩ => ⟨S2048x3072, .f32⟩
  | .hbm, ⟨43, _⟩ => ⟨S2048x3072, .f32⟩
  | .hbm, ⟨44, _⟩ => ⟨S_, .f32⟩
  | .hbm, ⟨45, _⟩ => ⟨S2048x3072, .f32⟩
  | .hbm, ⟨46, _⟩ => ⟨S2048x3072, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2048x3072, .f32⟩
  | .hbm, ⟨51, _⟩ => ⟨S2048x3072, .f32⟩
  | .hbm, ⟨52, _⟩ => ⟨S_, .f32⟩
  | .hbm, ⟨53, _⟩ => ⟨S2048x3072, .f32⟩
  | .hbm, ⟨54, _⟩ => ⟨S2048x3072, .f32⟩
  | .hbm, ⟨55, _⟩ => ⟨S2048x3072, .f32⟩
  | .hbm, ⟨56, _⟩ => ⟨S2048x3072, .f32⟩
  | .hbm, ⟨57, _⟩ => ⟨S_, .f32⟩
  | .hbm, ⟨58, _⟩ => ⟨S2048x3072, .f32⟩
  | .hbm, ⟨59, _⟩ => ⟨S2048x3072, .f32⟩
  | .hbm, ⟨60, _⟩ => ⟨S_, .f32⟩
  | .hbm, ⟨61, _⟩ => ⟨S2048x3072, .f32⟩
  | .hbm, ⟨62, _⟩ => ⟨S2048x3072, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S2048x3072, .f32⟩
  | .hbm, ⟨67, _⟩ => ⟨S2048x3072, .f32⟩
  | .hbm, ⟨68, _⟩ => ⟨S_, .f32⟩
  | .hbm, ⟨69, _⟩ => ⟨S2048x3072, .f32⟩
  | .hbm, ⟨70, _⟩ => ⟨S2048x3072, .f32⟩
  | .hbm, ⟨71, _⟩ => ⟨S_, .f32⟩
  | .hbm, ⟨72, _⟩ => ⟨S2048x3072, .f32⟩
  | .hbm, ⟨73, _⟩ => ⟨S2048x3072, .f32⟩
  | .hbm, ⟨74, _⟩ => ⟨S2048x6144, .f32⟩
  | .hbm, ⟨75, _⟩ => ⟨S2048x6144, .f32⟩
  | .hbm, ⟨76, _⟩ => ⟨S2048x6144, .f32⟩
  | .hbm, ⟨77, _⟩ => ⟨S4096x6144, .f32⟩
  | .hbm, ⟨78, _⟩ => ⟨S6144x4096, .f32⟩
  | .hbm, ⟨79, _⟩ => ⟨S2048x4096, .f32⟩
  | .hbm, ⟨80, _⟩ => ⟨S_, .f32⟩
  | .hbm, ⟨81, _⟩ => ⟨S2048x4096, .f32⟩
  | .hbm, ⟨82, _⟩ => ⟨S2048x4096, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S2048x4096, .f32⟩
  | .hbm, ⟨87, _⟩ => ⟨S2048x4096, .f32⟩
  | .hbm, ⟨88, _⟩ => ⟨S_, .f32⟩
  | .hbm, ⟨89, _⟩ => ⟨S2048x4096, .f32⟩
  | .hbm, ⟨90, _⟩ => ⟨S2048x4096, .f32⟩
  | .hbm, ⟨91, _⟩ => ⟨S2048x4096, .f32⟩
  | .hbm, ⟨92, _⟩ => ⟨S2048x4096, .f32⟩
  | .hbm, ⟨93, _⟩ => ⟨S1x4096, .f32⟩
  | .hbm, ⟨94, _⟩ => ⟨S2048x4096, .f32⟩
  | .hbm, ⟨95, _⟩ => ⟨S2048x4096, .f32⟩
  | .hbm, ⟨96, _⟩ => ⟨S2048x100, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_cst_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_cst_4 : Ref sig .tc := ⟨.hbm, 28, rfl⟩
abbrev main_v11 : Ref sig .tc := ⟨.hbm, 29, rfl⟩
abbrev main_v12 : Ref sig .tc := ⟨.hbm, 30, rfl⟩
abbrev main_cst_5 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_7 : Ref sig .tc := ⟨.hbm, 41, rfl⟩
abbrev main_v16 : Ref sig .tc := ⟨.hbm, 42, rfl⟩
abbrev main_v17 : Ref sig .tc := ⟨.hbm, 43, rfl⟩
abbrev main_cst_8 : Ref sig .tc := ⟨.hbm, 44, rfl⟩
abbrev main_v18 : Ref sig .tc := ⟨.hbm, 45, rfl⟩
abbrev main_v19 : Ref sig .tc := ⟨.hbm, 46, rfl⟩
abbrev main_cst_9 : Ref sig .tc := ⟨.hbm, 47, rfl⟩
abbrev main_cst_10 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_cst_11 : Ref sig .tc := ⟨.hbm, 57, rfl⟩
abbrev main_v23 : Ref sig .tc := ⟨.hbm, 58, rfl⟩
abbrev main_v24 : Ref sig .tc := ⟨.hbm, 59, rfl⟩
abbrev main_cst_12 : Ref sig .tc := ⟨.hbm, 60, rfl⟩
abbrev main_v25 : Ref sig .tc := ⟨.hbm, 61, rfl⟩
abbrev main_v26 : Ref sig .tc := ⟨.hbm, 62, rfl⟩
abbrev main_cst_13 : Ref sig .tc := ⟨.hbm, 63, rfl⟩
abbrev main_cst_14 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_v27 : Ref sig .tc := ⟨.hbm, 70, rfl⟩
abbrev main_cst_15 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_cst_16 : Ref sig .tc := ⟨.hbm, 80, rfl⟩
abbrev main_v36 : Ref sig .tc := ⟨.hbm, 81, rfl⟩
abbrev main_v37 : Ref sig .tc := ⟨.hbm, 82, rfl⟩
abbrev main_cst_17 : Ref sig .tc := ⟨.hbm, 83, rfl⟩
abbrev main_cst_18 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩

abbrev nD : Nat := 1
abbrev τ : Topo := Topo.v7x

variable {F : FTy → Type} [FloatOps F]

class Facts₀ : Prop where
  bcast_S_S2048x3072 : S_.BroadcastsInDim S2048x3072 (![] : Fin 0 → Fin S2048x3072.rank)
  concatenates_S2048x3072_S2048x3072_S2048x6144_d1 : Shape.Concatenates [S2048x3072, S2048x3072] S2048x6144 1
  concatenates_S2048x6144_S2048x6144_S4096x6144_d0 : Shape.Concatenates [S2048x6144, S2048x6144] S4096x6144 0
  transposes_S4096x6144_S6144x4096_1_0 : S4096x6144.Transposes [1, 0] S6144x4096
  bcast_S_S2048x4096 : S_.BroadcastsInDim S2048x4096 (![] : Fin 0 → Fin S2048x4096.rank)
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  dot_S2048x6144_S6144x4096_S2048x4096_1_0_0_1_n_n_wf : DotDims.WF S2048x6144 S6144x4096 S2048x4096 [1] [0] [0] [1] [] []
  dot_S2048x4096_S4096x100_S2048x100_1_0_0_1_n_n_wf : DotDims.WF S2048x4096 S4096x100 S2048x100 [1] [0] [0] [1] [] []

variable [Facts₀]

def dot_S2048x6144_S6144x4096_S2048x4096_1_0_0_1_n_n : DotDims S2048x6144 S6144x4096 S2048x4096 where
  lhsContracting := [1]
  rhsContracting := [0]
  lhsNonContracting := [0]
  rhsNonContracting := [1]
  lhsBatch := []
  rhsBatch := []
  wf := dot_S2048x6144_S6144x4096_S2048x4096_1_0_0_1_n_n_wf
def dot_S2048x4096_S4096x100_S2048x100_1_0_0_1_n_n : DotDims S2048x4096 S4096x100 S2048x100 where
  lhsContracting := [1]
  rhsContracting := [0]
  lhsNonContracting := [0]
  rhsNonContracting := [1]
  lhsBatch := []
  rhsBatch := []
  wf := dot_S2048x4096_S4096x100_S2048x100_1_0_0_1_n_n_wf

class Facts : Prop extends Facts₀ where

variable [Facts]
-- ==== Proof.KbR0Kit.lean ====
/-
  Region 0 of the program (one bank of 2048 clauses): the facts its body's run and its proof data are stated over.
  The grid has 32 points t = 16 * i + j: i in {0,1} is the half of the batch (1024 samples), j in 0..15 the group of
  128 clauses. A window's block at a point is read off the array the region finds. The body's two branches are
  decided by j alone: the accumulator is seeded when j = 0 and the class scores are stored when j = 15.
-/
import proofs.«152184_j30227979829789_2_alg».proof.Proof.Gen.Kernel.Launch
import proofs.«152184_j30227979829789_2_alg».proof.Proof.Gen.Kernel.Skeleton
import proofs.«152184_j30227979829789_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not fetched its
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not: where it is not fetched its
    block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not: where it is not fetched its
    block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not: where it is not fetched its
    block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not: where it is not fetched its
    block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not: where it is not fetched its
    block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branches, decided over the grid -/

/-- The accumulator is seeded: the group index j is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The class scores are stored: the group index j is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from j = 15 the class-score window is idle and is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/
abbrev ms0_0 (t : Fin cfg0.N) : Memref sig .tc .vmem S1024x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
/-- The accumulator: a whole scoped buffer of the kernel's own, carried from point to point. -/
abbrev scM0 : Memref sig .tc .vmem S1024x128 .f32 := Memref.whole cc0_scratch0
abbrev VS0 : View sig .tc .vmem S1024x128 .f32 := (scM0).view
abbrev VO0_6 : View sig .tc .vmem S1024x128 .f32 := (Memref.whole cc0_stg6_0 : Memref sig .tc .vmem S1024x128 .f32).view
abbrev VO0_7 : View sig .tc .vmem S1024x128 .f32 := (Memref.whole cc0_stg7_0 : Memref sig .tc .vmem S1024x128 .f32).view

/-- The scoped buffers this region never touches (the other region's staging buffers and accumulator). -/
abbrev others0 : List (Ref sig .tc) := [cc1_stg0_0, cc1_stg0_1, cc1_stg1_0, cc1_stg1_1, cc1_stg2_0, cc1_stg2_1, cc1_stg3_0, cc1_stg3_1, cc1_stg4_0, cc1_stg4_1, cc1_stg5_0, cc1_stg5_1, cc1_stg6_0, cc1_stg6_1, cc1_stg7_0, cc1_stg7_1, cc1_scratch0]
/-- Those buffers, each whole at some contents. -/
def rest0 (c : Dev nD) : sProp 𝕄 :=
  bigSepL others0 fun b => iprop(∃ f : Buf (Elt F) ((c : Thread nD τ).loc b), ((c : Thread nD τ).loc b) ↦{fullShare} f)

/-- What a region of this class may use and need not describe: the accumulator at some contents, the buffers it never
    touches, and the generator register at some state. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA rest0
  rw [Pipeline.scopedRest_eq_of_list spec0 c (cc0_scratch0 :: others0) (by decide) (by decide), bigSepL_cons]
  simp only [scM0, owns_whole]
  rfl

end Cert.Kernel.Hand

end
-- ==== Proof.KbR0RunA.lean ====
/-
  The body's run when the group index is 0 (the accumulator is seeded from the seed block, whatever it held) and not 15: on whole staging memrefs with the six input blocks at their contents, it runs to the end
  with the inputs as they were, the clause-output buffer and the accumulator (and at j = 15 the class-score buffer) with
  the stores' pieces written; a buffer it does not store into is handed back untouched.
-/
import proofs.«152184_j30227979829789_2_alg».proof.Proof.KbR0Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) :
    Σ' (L6 : List (View.Piece (Elt F) S1024x128 .f32)), { LS : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__half_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc0__half_kernel_eq_skeleton]; unfold cc0__half_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; isplitr; · ipureintro; exact harg9.read_unread _
      iexact H7
    iexists _; iexact HS

end Cert.Kernel.Hand

end
-- ==== Proof.KbR0RunB.lean ====
/-
  The body's run when the group index is neither 0 nor 15 (the accumulator goes on from what the point before left): on whole staging memrefs with the six input blocks at their contents, it runs to the end
  with the inputs as they were, the clause-output buffer and the accumulator (and at j = 15 the class-score buffer) with
  the stores' pieces written; a buffer it does not store into is handed back untouched.
-/
import proofs.«152184_j30227979829789_2_alg».proof.Proof.KbR0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    Σ' (L6 : List (View.Piece (Elt F) S1024x128 .f32)), { LS : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__half_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc0__half_kernel_eq_skeleton]; unfold cc0__half_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; isplitr; · ipureintro; exact harg9.read_unread _
      iexact H7
    iexists _; iexact HS

end Cert.Kernel.Hand

end
-- ==== Proof.KbR0RunC.lean ====
/-
  The body's run when the group index is 15 (the accumulator goes on, and is stored as the class scores): on whole staging memrefs with the six input blocks at their contents, it runs to the end
  with the inputs as they were, the clause-output buffer and the accumulator (and at j = 15 the class-score buffer) with
  the stores' pieces written; a buffer it does not store into is handed back untouched.
-/
import proofs.«152184_j30227979829789_2_alg».proof.Proof.KbR0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    Σ' (L6 : List (View.Piece (Elt F) S1024x128 .f32)) (L7 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0__half_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__half_kernel_eq_skeleton]; unfold cc0__half_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    iexists _; iexact HS

end Cert.Kernel.Hand

end
-- ==== Proof.KbR0Dat.lean ====
/-
  Region 0: what the clause-output buffer, the class-score buffer and the accumulator hold after each grid point, by
  recursion on the point (the accumulator after a point with j > 0 is computed from what the point before left); the
  region's proof data over those contents; and the body's obligation at every point, by cases on j = 0, 0 < j < 15, j = 15.
  Before the first point the accumulator holds anything; after each point it holds that point's contents by name.
-/
import proofs.«152184_j30227979829789_2_alg».proof.Proof.KbR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store into the clause-output buffer covers it (j = 0). -/
theorem cover0_6_A (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (y : S1024x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).1 S1024x128.size (by sl_kernel_rfl) y

/-- The stores into the accumulator cover it (j = 0). -/
theorem scover0_A (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (y : S1024x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S1024x128.size (by sl_kernel_rfl) y

/-- The one store into the clause-output buffer covers it (0 < j < 15). -/
theorem cover0_6_B (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs).1 S1024x128.size (by sl_kernel_rfl) y

/-- The store into the accumulator covers it (0 < j < 15). -/
theorem scover0_B (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs).2.1 S1024x128.size (by sl_kernel_rfl) y

/-- The one store into the clause-output buffer covers it (j = 15). -/
theorem cover0_6_C (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs).1 S1024x128.size (by sl_kernel_rfl) y

/-- The one store into the class-score buffer covers it (j = 15). -/
theorem cover0_7_C (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs).2.1 S1024x128.size (by sl_kernel_rfl) y

/-- The store into the accumulator covers it (j = 15). -/
theorem scover0_C (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs).2.2.1 S1024x128.size (by sl_kernel_rfl) y

/-- What the clause-output buffer holds after a point with j = 0. -/
def out0_6_A (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) : Vec F S1024x128 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)

/-- What the accumulator holds after a point with j = 0. -/
def sout0_A (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) : Vec F S1024x128 .f32 :=
  VS0.read (Elt F) (VS0.writes (Elt F) VS0.junk (kernelRun0_A c i arg2 harg2 arg3 harg3 arg4 harg4 arg5 harg5 arg6 harg6 arg7 harg7 arg8 harg8 arg9 harg9 arg10 harg10 hc0 hc1 x0 x1 x2 x3 x4 x5).2.1)

/-- What the clause-output buffer holds after a point with 0 < j < 15. -/
def out0_6_B (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs).1)

/-- What the accumulator holds after a point with 0 < j < 15. -/
def sout0_B (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VS0.read (Elt F) (VS0.writes (Elt F) VS0.junk (kernelRun0_B c i arg2 harg2 arg3 harg3 arg4 harg4 arg5 harg5 arg6 harg6 arg7 harg7 arg8 harg8 arg9 harg9 arg10 harg10 hc0 hc1 x0 x1 x2 x3 x4 x5 xs).2.1)

/-- What the clause-output buffer holds after a point with j = 15. -/
def out0_6_C (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs).1)

/-- What the class-score buffer holds after a point with j = 15. -/
def out0_7_C (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 xs).2.1)

/-- What the accumulator holds after a point with j = 15. -/
def sout0_C (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VS0.read (Elt F) (VS0.writes (Elt F) VS0.junk (kernelRun0_C c i arg2 harg2 arg3 harg3 arg4 harg4 arg5 harg5 arg6 harg6 arg7 harg7 arg8 harg8 arg9 harg9 arg10 harg10 hc0 hc1 x0 x1 x2 x3 x4 x5 xs).2.2.1)

/-- A placeholder for the class-score buffer where nothing is stored into it: it is neither written back nor read there. -/
def junk0_7 : Vec F S1024x128 .f32 := VO0_7.read (Elt F) VO0_7.junk

section
variable (V : (c : Dev nD) → (b : Ref sig .tc) → Buf (Elt F) ((c : Thread nD τ).loc b))

/-! ## What the buffers hold after each point -/

/-- After position `n`: (the clause-output buffer, the class-score buffer, the accumulator). -/
def outsAt0 (c : Dev nD) : (n : ℕ) → n < cfg0.N → Vec F S1024x128 .f32 × Vec F S1024x128 .f32 × Vec F S1024x128 .f32
  | 0, hn =>
    (out0_6_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
     junk0_7,
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 16 = 0 then
      if h1 : (n + 1) % 16 = 15 then
        False.elim (by omega)
      else
        (out0_6_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
         junk0_7,
         sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 16 = 15 then
        (out0_6_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2,
         out0_7_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)
      else
        (out0_6_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2,
         junk0_7,
         sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)

/-- At a point with j = 0. -/
theorem outsAt0_A (c : Dev nD) (t : Fin cfg0.N) (h0 : t.val % 16 = 0) (h1 : ¬t.val % 16 = 15) :
    outsAt0 V c t.val t.isLt =
      (out0_6_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
       junk0_7,
       sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- At a point with 0 < j < 15: over what the point before left in the accumulator. -/
theorem outsAt0_B (c : Dev nD) (t : Fin cfg0.N) (h0 : ¬t.val % 16 = 0) (h1 : ¬t.val % 16 = 15) :
    outsAt0 V c t.val t.isLt =
      (out0_6_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2,
       junk0_7,
       sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point with j = 15: over what the point before left in the accumulator. -/
theorem outsAt0_C (c : Dev nD) (t : Fin cfg0.N) (h0 : ¬t.val % 16 = 0) (h1 : t.val % 16 = 15) :
    outsAt0 V c t.val t.isLt =
      (out0_6_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2,
       out0_7_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2,
       sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the class's invariant (the accumulator at anything); afterwards the
    accumulator at what the point before left, the untouched buffers, the generator register at some state. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2.2) ∗ rest0 c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2.2) ∗ rest0 c) ∗ (∃ r, prngReg c r)) := by
  cases n with
  | zero => exact absurd rfl hz
  | succ n => rfl

/-! ## The proof data -/

/-- The region's proof data on core `c`: the arrays as the region finds them; after the body each input's buffer at its
    block, the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' buffers hold their blocks; the group index says which case the point is in; the
    accumulator comes in at what the point before left (at anything at the very first point) and goes back at this
    point's contents; where the class scores are not stored their buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 16 = 0
  · have h1 : ¬t.val % 16 = 15 := by omega
    rw [Dat.leavesExact_idle (dat0 V c) 7 t (idleAt0_7 t (fun h => h1 ((hcond0_1 t).mp h))) (noFlush0_7 t (fun h => h1 ((hcond0_1 t).mp h)))]
    rw [outsAt0_A V c t h0 h1]
    unfold out0_6_A sout0_A; (try dsimp only)
    by_cases hz : t.val = 0
    · rw [PhiS0_castSucc V c t, PhiS0_zero V c _ _ hz, PhiA0_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_6_A _ _ _ _ _ _ _ _ _ _ _ _ _ _ _ _ _ _ _ _ _ _ _ _ _ _ _ _)
      iexists _; iexact H7
    · rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexists _; iexact HS
      iintro ⟨H0, H1, H2, H3, H4, H5, ⟨%e6, H6⟩, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_6_A _ _ _ _ _ _ _ _ _ _ _ _ _ _ _ _ _ _ _ _ _ _ _ _ _ _ _ _)
      iexists _; iexact H7
  · have hz : t.val ≠ 0 := by intro e; rw [e] at h0; exact h0 (Nat.zero_mod _)
    by_cases h1 : t.val % 16 = 15
    · rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold out0_6_C out0_7_C sout0_C; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, ⟨%e6, H6⟩, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_C _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_6_C _ _ _ _ _ _ _ _ _ _ _ _ _ _ _ _ _ _ _ _ _ _ _ _ _ _ _ _ _)
      unfold owns; iexists _; isplitr
      swap; · iexact H7
      ipureintro; exact View.read_writes_of_cover _ _ _ _ _ (cover0_7_C _ _ _ _ _ _ _ _ _ _ _ _ _ _ _ _ _ _ _ _ _ _ _ _ _ _ _ _ _)
    · rw [Dat.leavesExact_idle (dat0 V c) 7 t (idleAt0_7 t (fun h => h1 ((hcond0_1 t).mp h))) (noFlush0_7 t (fun h => h1 ((hcond0_1 t).mp h)))]
      rw [outsAt0_B V c t h0 h1]
      unfold out0_6_B sout0_B; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_6_B _ _ _ _ _ _ _ _ _ _ _ _ _ _ _ _ _ _ _ _ _ _ _ _ _ _ _ _ _)
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class's invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]
    · iexists _; iexact HS
    iexact Hrest
  iexact Hg

theorem Phi_last0 (c : Dev nD) : (dat0 V c).Φ (Fin.last cfg0.N) ⊢ Pipeline.ΦA spec0 c :=
  Phi_out0 V c _ (by rw [Fin.val_last]; have : cfg0.N = 32 := N_0; omega)

end

end Cert.Kernel.Hand

end
-- ==== Proof.KbR1Kit.lean ====
/-
  Region 1 of the program (one bank of 2048 clauses): the facts its body's run and its proof data are stated over.
  The grid has 32 points t = 16 * i + j: i in {0,1} is the half of the batch (1024 samples), j in 0..15 the group of
  128 clauses. A window's block at a point is read off the array the region finds. The body's two branches are
  decided by j alone: the accumulator is seeded when j = 0 and the class scores are stored when j = 15.
-/
import proofs.«152184_j30227979829789_2_alg».proof.Proof.Gen.Kernel.Launch
import proofs.«152184_j30227979829789_2_alg».proof.Proof.Gen.Kernel.Skeleton
import proofs.«152184_j30227979829789_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: where it is not fetched its
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not: where it is not fetched its
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not: where it is not fetched its
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not: where it is not fetched its
    block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not: where it is not fetched its
    block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not: where it is not fetched its
    block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branches, decided over the grid -/

/-- The accumulator is seeded: the group index j is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The class scores are stored: the group index j is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Away from j = 15 the class-score window is idle and is not written back. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The memrefs the body is called with -/
abbrev ms1_0 (t : Fin cfg1.N) : Memref sig .tc .vmem S1024x3072 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x3072 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x3072 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x128 .f32 := win1_7.stage (cfg1.slots t 7)
abbrev hs1_7 (t : Fin cfg1.N) : (ms1_7 t).IsWhole := hstage1_7 ((cfg1.slots t 7).cast nbuf1_7)
/-- The accumulator: a whole scoped buffer of the kernel's own, carried from point to point. -/
abbrev scM1 : Memref sig .tc .vmem S1024x128 .f32 := Memref.whole cc1_scratch0
abbrev VS1 : View sig .tc .vmem S1024x128 .f32 := (scM1).view
abbrev VO1_6 : View sig .tc .vmem S1024x128 .f32 := (Memref.whole cc1_stg6_0 : Memref sig .tc .vmem S1024x128 .f32).view
abbrev VO1_7 : View sig .tc .vmem S1024x128 .f32 := (Memref.whole cc1_stg7_0 : Memref sig .tc .vmem S1024x128 .f32).view

/-- The scoped buffers this region never touches (the other region's staging buffers and accumulator). -/
abbrev others1 : List (Ref sig .tc) := [cc0_stg0_0, cc0_stg0_1, cc0_stg1_0, cc0_stg1_1, cc0_stg2_0, cc0_stg2_1, cc0_stg3_0, cc0_stg3_1, cc0_stg4_0, cc0_stg4_1, cc0_stg5_0, cc0_stg5_1, cc0_stg6_0, cc0_stg6_1, cc0_stg7_0, cc0_stg7_1, cc0_scratch0]
/-- Those buffers, each whole at some contents. -/
def rest1 (c : Dev nD) : sProp 𝕄 :=
  bigSepL others1 fun b => iprop(∃ f : Buf (Elt F) ((c : Thread nD τ).loc b), ((c : Thread nD τ).loc b) ↦{fullShare} f)

/-- What a region of this class may use and need not describe: the accumulator at some contents, the buffers it never
    touches, and the generator register at some state. -/
theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA rest1
  rw [Pipeline.scopedRest_eq_of_list spec1 c (cc1_scratch0 :: others1) (by decide) (by decide), bigSepL_cons]
  simp only [scM1, owns_whole]
  rfl

end Cert.Kernel.Hand

end
-- ==== Proof.KbR1RunA.lean ====
/-
  The body's run when the group index is 0 (the accumulator is seeded from the seed block, whatever it held) and not 15: on whole staging memrefs with the six input blocks at their contents, it runs to the end
  with the inputs as they were, the clause-output buffer and the accumulator (and at j = 15 the class-score buffer) with
  the stores' pieces written; a buffer it does not store into is handed back untouched.
-/
import proofs.«152184_j30227979829789_2_alg».proof.Proof.KbR1Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) :
    Σ' (L6 : List (View.Piece (Elt F) S1024x128 .f32)), { LS : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__half_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc1__half_kernel_eq_skeleton]; unfold cc1__half_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; isplitr; · ipureintro; exact harg9.read_unread _
      iexact H7
    iexists _; iexact HS

end Cert.Kernel.Hand

end
-- ==== Proof.KbR1RunB.lean ====
/-
  The body's run when the group index is neither 0 nor 15 (the accumulator goes on from what the point before left): on whole staging memrefs with the six input blocks at their contents, it runs to the end
  with the inputs as they were, the clause-output buffer and the accumulator (and at j = 15 the class-score buffer) with
  the stores' pieces written; a buffer it does not store into is handed back untouched.
-/
import proofs.«152184_j30227979829789_2_alg».proof.Proof.KbR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    Σ' (L6 : List (View.Piece (Elt F) S1024x128 .f32)), { LS : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__half_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc1__half_kernel_eq_skeleton]; unfold cc1__half_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; isplitr; · ipureintro; exact harg9.read_unread _
      iexact H7
    iexists _; iexact HS

end Cert.Kernel.Hand

end
-- ==== Proof.KbR1RunC.lean ====
/-
  The body's run when the group index is 15 (the accumulator goes on, and is stored as the class scores): on whole staging memrefs with the six input blocks at their contents, it runs to the end
  with the inputs as they were, the clause-output buffer and the accumulator (and at j = 15 the class-score buffer) with
  the stores' pieces written; a buffer it does not store into is handed back untouched.
-/
import proofs.«152184_j30227979829789_2_alg».proof.Proof.KbR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    Σ' (L6 : List (View.Piece (Elt F) S1024x128 .f32)) (L7 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc1__half_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__half_kernel_eq_skeleton]; unfold cc1__half_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    iexists _; iexact HS

end Cert.Kernel.Hand

end
-- ==== Proof.KbR1Dat.lean ====
/-
  Region 1: what the clause-output buffer, the class-score buffer and the accumulator hold after each grid point, by
  recursion on the point (the accumulator after a point with j > 0 is computed from what the point before left); the
  region's proof data over those contents; and the body's obligation at every point, by cases on j = 0, 0 < j < 15, j = 15.
  Before the first point the accumulator holds anything; after each point it holds that point's contents by name.
-/
import proofs.«152184_j30227979829789_2_alg».proof.Proof.KbR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store into the clause-output buffer covers it (j = 0). -/
theorem cover1_6_A (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (y : S1024x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).1 S1024x128.size (by sl_kernel_rfl) y

/-- The stores into the accumulator cover it (j = 0). -/
theorem scover1_A (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (y : S1024x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).2.1 S1024x128.size (by sl_kernel_rfl) y

/-- The one store into the clause-output buffer covers it (0 < j < 15). -/
theorem cover1_6_B (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xs).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs).1 S1024x128.size (by sl_kernel_rfl) y

/-- The store into the accumulator covers it (0 < j < 15). -/
theorem scover1_B (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xs).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs).2.1 S1024x128.size (by sl_kernel_rfl) y

/-- The one store into the clause-output buffer covers it (j = 15). -/
theorem cover1_6_C (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs).1 S1024x128.size (by sl_kernel_rfl) y

/-- The one store into the class-score buffer covers it (j = 15). -/
theorem cover1_7_C (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs).2.1 S1024x128.size (by sl_kernel_rfl) y

/-- The store into the accumulator covers it (j = 15). -/
theorem scover1_C (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs).2.2.1 S1024x128.size (by sl_kernel_rfl) y

/-- What the clause-output buffer holds after a point with j = 0. -/
def out1_6_A (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) : Vec F S1024x128 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 x0 x1 x2 x3 x4 x5).1)

/-- What the accumulator holds after a point with j = 0. -/
def sout1_A (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) : Vec F S1024x128 .f32 :=
  VS1.read (Elt F) (VS1.writes (Elt F) VS1.junk (kernelRun1_A c i arg2 harg2 arg3 harg3 arg4 harg4 arg5 harg5 arg6 harg6 arg7 harg7 arg8 harg8 arg9 harg9 arg10 harg10 hc0 hc1 x0 x1 x2 x3 x4 x5).2.1)

/-- What the clause-output buffer holds after a point with 0 < j < 15. -/
def out1_6_B (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 x0 x1 x2 x3 x4 x5 xs).1)

/-- What the accumulator holds after a point with 0 < j < 15. -/
def sout1_B (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VS1.read (Elt F) (VS1.writes (Elt F) VS1.junk (kernelRun1_B c i arg2 harg2 arg3 harg3 arg4 harg4 arg5 harg5 arg6 harg6 arg7 harg7 arg8 harg8 arg9 harg9 arg10 harg10 hc0 hc1 x0 x1 x2 x3 x4 x5 xs).2.1)

/-- What the clause-output buffer holds after a point with j = 15. -/
def out1_6_C (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 x5 xs).1)

/-- What the class-score buffer holds after a point with j = 15. -/
def out1_7_C (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 x5 xs).2.1)

/-- What the accumulator holds after a point with j = 15. -/
def sout1_C (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VS1.read (Elt F) (VS1.writes (Elt F) VS1.junk (kernelRun1_C c i arg2 harg2 arg3 harg3 arg4 harg4 arg5 harg5 arg6 harg6 arg7 harg7 arg8 harg8 arg9 harg9 arg10 harg10 hc0 hc1 x0 x1 x2 x3 x4 x5 xs).2.2.1)

/-- A placeholder for the class-score buffer where nothing is stored into it: it is neither written back nor read there. -/
def junk1_7 : Vec F S1024x128 .f32 := VO1_7.read (Elt F) VO1_7.junk

section
variable (V : (c : Dev nD) → (b : Ref sig .tc) → Buf (Elt F) ((c : Thread nD τ).loc b))

/-! ## What the buffers hold after each point -/

/-- After position `n`: (the clause-output buffer, the class-score buffer, the accumulator). -/
def outsAt1 (c : Dev nD) : (n : ℕ) → n < cfg1.N → Vec F S1024x128 .f32 × Vec F S1024x128 .f32 × Vec F S1024x128 .f32
  | 0, hn =>
    (out1_6_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
     junk1_7,
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by omega)
      else
        (out1_6_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
         junk1_7,
         sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (out1_6_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
         out1_7_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)
      else
        (out1_6_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
         junk1_7,
         sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)

/-- At a point with j = 0. -/
theorem outsAt1_A (c : Dev nD) (t : Fin cfg1.N) (h0 : t.val % 16 = 0) (h1 : ¬t.val % 16 = 15) :
    outsAt1 V c t.val t.isLt =
      (out1_6_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
       junk1_7,
       sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- At a point with 0 < j < 15: over what the point before left in the accumulator. -/
theorem outsAt1_B (c : Dev nD) (t : Fin cfg1.N) (h0 : ¬t.val % 16 = 0) (h1 : ¬t.val % 16 = 15) :
    outsAt1 V c t.val t.isLt =
      (out1_6_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2,
       junk1_7,
       sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point with j = 15: over what the point before left in the accumulator. -/
theorem outsAt1_C (c : Dev nD) (t : Fin cfg1.N) (h0 : ¬t.val % 16 = 0) (h1 : t.val % 16 = 15) :
    outsAt1 V c t.val t.isLt =
      (out1_6_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2,
       out1_7_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2,
       sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the class's invariant (the accumulator at anything); afterwards the
    accumulator at what the point before left, the untouched buffers, the generator register at some state. -/
def PhiS1 (c : Dev nD) : (n : ℕ) → n ≤ cfg1.N → sProp 𝕄
  | 0, _ => Pipeline.ΦA spec1 c
  | n + 1, hn => iprop((owns (c : Thread nD τ) scM1 fullShare ((outsAt1 V c n hn).2.2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2.2) ∗ rest1 c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2.2) ∗ rest1 c) ∗ (∃ r, prngReg c r)) := by
  cases n with
  | zero => exact absurd rfl hz
  | succ n => rfl

/-! ## The proof data -/

/-- The region's proof data on core `c`: the arrays as the region finds them; after the body each input's buffer at its
    block, the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' buffers hold their blocks; the group index says which case the point is in; the
    accumulator comes in at what the point before left (at anything at the very first point) and goes back at this
    point's contents; where the class scores are not stored their buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 16 = 0
  · have h1 : ¬t.val % 16 = 15 := by omega
    rw [Dat.leavesExact_idle (dat1 V c) 7 t (idleAt1_7 t (fun h => h1 ((hcond1_1 t).mp h))) (noFlush1_7 t (fun h => h1 ((hcond1_1 t).mp h)))]
    rw [outsAt1_A V c t h0 h1]
    unfold out1_6_A sout1_A; (try dsimp only)
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_6_A _ _ _ _ _ _ _ _ _ _ _ _ _ _ _ _ _ _ _ _ _ _ _ _ _ _ _ _)
      iexists _; iexact H7
    · rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexists _; iexact HS
      iintro ⟨H0, H1, H2, H3, H4, H5, ⟨%e6, H6⟩, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_6_A _ _ _ _ _ _ _ _ _ _ _ _ _ _ _ _ _ _ _ _ _ _ _ _ _ _ _ _)
      iexists _; iexact H7
  · have hz : t.val ≠ 0 := by intro e; rw [e] at h0; exact h0 (Nat.zero_mod _)
    by_cases h1 : t.val % 16 = 15
    · rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold out1_6_C out1_7_C sout1_C; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, ⟨%e6, H6⟩, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_6_C _ _ _ _ _ _ _ _ _ _ _ _ _ _ _ _ _ _ _ _ _ _ _ _ _ _ _ _ _)
      unfold owns; iexists _; isplitr
      swap; · iexact H7
      ipureintro; exact View.read_writes_of_cover _ _ _ _ _ (cover1_7_C _ _ _ _ _ _ _ _ _ _ _ _ _ _ _ _ _ _ _ _ _ _ _ _ _ _ _ _ _)
    · rw [Dat.leavesExact_idle (dat1 V c) 7 t (idleAt1_7 t (fun h => h1 ((hcond1_1 t).mp h))) (noFlush1_7 t (fun h => h1 ((hcond1_1 t).mp h)))]
      rw [outsAt1_B V c t h0 h1]
      unfold out1_6_B sout1_B; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_6_B _ _ _ _ _ _ _ _ _ _ _ _ _ _ _ _ _ _ _ _ _ _ _ _ _ _ _ _ _)
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hrest⟩, Hg⟩
  isplitl [HS Hrest]
  · isplitl [HS]
    · iexists _; iexact HS
    iexact Hrest
  iexact Hg

theorem Phi_last1 (c : Dev nD) : (dat1 V c).Φ (Fin.last cfg1.N) ⊢ Pipeline.ΦA spec1 c :=
  Phi_out1 V c _ (by rw [Fin.val_last]; have : cfg1.N = 32 := N_1; omega)

end

end Cert.Kernel.Hand

end
-- ==== Proof.KbAsm.lean ====
/-
  The whole run of the program: the buffers' contents at each boundary between two items of the entry function, as a
  fold from the launch memory (five stretches of host operations, the first bank's region, the second bank's region,
  the closing stretch); each region entered from what the item before it left and left at its arrays' final contents;
  and the launch, whose every final memory holds each unscoped buffer at the last boundary's contents. No item writes
  an argument array, so each argument reads back through the fold to its launch contents.
-/
import proofs.«152184_j30227979829789_2_alg».proof.Proof.KbR0Dat
import proofs.«152184_j30227979829789_2_alg».proof.Proof.KbR1Dat
import proofs.«152184_j30227979829789_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
/-- What the first region finds, read at the TensorCore's references. -/
abbrev E5 : (c : Dev nD) → (b : Ref sig .tc) → Buf (Elt F) ((c : Thread nD τ).loc b) := fun c b => W5 m c b
/-- After the first region: its arrays at what its write-backs leave, every other buffer as entered. -/
def W6 (c : Dev nD) : Valuation τ sig (Elt F) :=
  Pipeline.withArrays spec0 c (W5 m c) fun w => (dat0 (E5 m) c).arrAt w cfg0.N
theorem W6_arr (c : Dev nD) (w : Fin cfg0.W) :
    W6 m c (Proc.devRef .tc (Pipeline.arrRef spec0 w)) = (dat0 (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev E6 : (c : Dev nD) → (b : Ref sig .tc) → Buf (Elt F) ((c : Thread nD τ).loc b) := fun c b => W6 m c b
theorem hF0 (c : Dev nD) (w : Fin cfg0.W) : (dat0 (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)
/-- After the second region. -/
def W7 (c : Dev nD) : Valuation τ sig (Elt F) :=
  Pipeline.withArrays spec1 c (W6 m c) fun w => (dat1 (E6 m) c).arrAt w cfg1.N
theorem W7_arr (c : Dev nD) (w : Fin cfg1.W) :
    W7 m c (Proc.devRef .tc (Pipeline.arrRef spec1 w)) = (dat1 (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev E7 : (c : Dev nD) → (b : Ref sig .tc) → Buf (Elt F) ((c : Thread nD τ).loc b) := fun c b => W7 m c b
theorem hF1 (c : Dev nD) (w : Fin cfg1.W) : (dat1 (E6 m) c).arrAt w cfg1.N = E7 m c (Pipeline.arrRef spec1 w) :=
  (W7_arr m c w).symm
theorem hrest1 (c : Dev nD) : ∀ b, b ∉ Finset.univ.image (Pipeline.arrRef spec1) → E7 m c b = E6 m c b :=
  fun b hb => W7_of_ne m c b fun w e => hb (Finset.mem_image.mpr ⟨w, Finset.mem_univ _, e⟩)
/-- After the closing stretch: the program's end. -/
abbrev W8 : Dev nD → Valuation τ sig (Elt F) := fun c => StableHlo.after hostOps2 (W7 m c)

/-- A reference no host stretch before the regions writes holds its launch contents when the first region is entered. -/
theorem W5_keep (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m c r = m ((c : Thread nD τ).loc r) :=
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl
theorem W8_keep (c : Dev nD) (r : Ref sig .tc) (h : r ∉ hostOps2_W) : W8 m c r = W7 m c r :=
  StableHlo.after_of_writes_sub hostOps2 _ hostOps2_writes h

/-! ## Each argument ends as launched -/
theorem W8_main_arg0 (c : Dev nD) : W8 m c main_arg0 = m ((c : Thread nD τ).loc main_arg0) :=
  (W8_keep m c main_arg0 (by decide)).trans <| (W7_of_ne m c main_arg0 (by decide)).trans <| (W6_of_ne m c main_arg0 (by decide)).trans <|
    W5_keep m c main_arg0 (by decide) (by decide) (by decide) (by decide) (by decide)
theorem W8_main_arg5 (c : Dev nD) : W8 m c main_arg5 = m ((c : Thread nD τ).loc main_arg5) :=
  (W8_keep m c main_arg5 (by decide)).trans <| (W7_of_ne m c main_arg5 (by decide)).trans <| (W6_of_ne m c main_arg5 (by decide)).trans <|
    W5_keep m c main_arg5 (by decide) (by decide) (by decide) (by decide) (by decide)
theorem W8_main_arg6 (c : Dev nD) : W8 m c main_arg6 = m ((c : Thread nD τ).loc main_arg6) :=
  (W8_keep m c main_arg6 (by decide)).trans <| (W7_of_ne m c main_arg6 (by decide)).trans <| (W6_of_ne m c main_arg6 (by decide)).trans <|
    W5_keep m c main_arg6 (by decide) (by decide) (by decide) (by decide) (by decide)
theorem W8_main_arg1 (c : Dev nD) : W8 m c main_arg1 = m ((c : Thread nD τ).loc main_arg1) :=
  (W8_keep m c main_arg1 (by decide)).trans <| (W7_of_ne m c main_arg1 (by decide)).trans <|
    ((W6_arr m c 1).trans (((dat0 (E5 m) c).arrAt_in 1 rfl _).trans (A_eq0 (E5 m) c 1))).trans <|
    W5_keep m c main_arg1 (by decide) (by decide) (by decide) (by decide) (by decide)
theorem W8_main_arg3 (c : Dev nD) : W8 m c main_arg3 = m ((c : Thread nD τ).loc main_arg3) :=
  (W8_keep m c main_arg3 (by decide)).trans <| (W7_of_ne m c main_arg3 (by decide)).trans <|
    ((W6_arr m c 2).trans (((dat0 (E5 m) c).arrAt_in 2 rfl _).trans (A_eq0 (E5 m) c 2))).trans <|
    W5_keep m c main_arg3 (by decide) (by decide) (by decide) (by decide) (by decide)
theorem W8_main_arg2 (c : Dev nD) : W8 m c main_arg2 = m ((c : Thread nD τ).loc main_arg2) :=
  (W8_keep m c main_arg2 (by decide)).trans <|
    ((W7_arr m c 1).trans (((dat1 (E6 m) c).arrAt_in 1 rfl _).trans (A_eq1 (E6 m) c 1))).trans <|
    (W6_of_ne m c main_arg2 (by decide)).trans <|
    W5_keep m c main_arg2 (by decide) (by decide) (by decide) (by decide) (by decide)
theorem W8_main_arg4 (c : Dev nD) : W8 m c main_arg4 = m ((c : Thread nD τ).loc main_arg4) :=
  (W8_keep m c main_arg4 (by decide)).trans <|
    ((W7_arr m c 2).trans (((dat1 (E6 m) c).arrAt_in 2 rfl _).trans (A_eq1 (E6 m) c 2))).trans <|
    (W6_of_ne m c main_arg4 (by decide)).trans <|
    W5_keep m c main_arg4 (by decide) (by decide) (by decide) (by decide) (by decide)

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E5 m) c
  | ⟨1, _⟩ => fun c => dat1 (E6 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at the boundary before it, left at the one
    after it. Its arrays are split out of the unscoped buffers and put back at their final contents; the generator
    register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (E5 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it. Its arrays are split out of the unscoped buffers and put back at their final contents; the generator
    register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (E6 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .region (reg1 m),
    .host (hseg hostOps2 hostOps2_sub hostOps2_fresh (W7 m)) ]
theorem main_run (c : Dev nD) : main (F := F) c = Pipeline.Seg.run (segs m) := (main_chain c).trans (by chain_rfl)

/-- The last thread state without what is owed: every unscoped buffer at the end's contents, the register at some state. -/
abbrev Tₙ (c : Dev nD) : sProp 𝕄 := iprop(StableHlo.held (c : Thread nD τ) (Pipeline.ucRefs τ sig) (W8 m c) ∗ ∃ r, prngReg c r)

set_option backward.isDefEq.respectTransparency.types false in
/-- From any memory with zero counters every weakly fair execution of the entry function terminates, nothing faulting,
    and every final memory holds every unscoped buffer at the end's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c)
          ⊢ iprop(Tₙ m c ∗ ∃ W, owes (c : Thread nD τ) (0 : CellTallies nD τ sig Unit) W)
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c)⟩) (run_all m ρ)

end Cert.Kernel.Hand

end
-- ==== Proof.KiR0Kit.lean ====
/-
  Region 0 of the program (one bank of 2048 clauses): the facts its body's run and its proof data are stated over.
  The grid has 32 points t = 16 * i + j: i in {0,1} is the half of the batch (1024 samples), j in 0..15 the group of
  128 clauses. A window's block at a point is read off the array the region finds. The body's two branches are
  decided by j alone: the accumulator is seeded when j = 0 and the class scores are stored when j = 15.
-/
import proofs.«152184_j30227979829789_2_alg».proof.Proof.Gen.KernelIdeal.Launch
import proofs.«152184_j30227979829789_2_alg».proof.Proof.Gen.KernelIdeal.Skeleton
import proofs.«152184_j30227979829789_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not: where it is not fetched its
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not: where it is not fetched its
    block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not: where it is not fetched its
    block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not: where it is not fetched its
    block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not: where it is not fetched its
    block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not: where it is not fetched its
    block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branches, decided over the grid -/

/-- The accumulator is seeded: the group index j is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The class scores are stored: the group index j is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from j = 15 the class-score window is idle and is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/
abbrev ms0_0 (t : Fin cfg0.N) : Memref sig .tc .vmem S1024x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x3072 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
/-- The accumulator: a whole scoped buffer of the kernel's own, carried from point to point. -/
abbrev scM0 : Memref sig .tc .vmem S1024x128 .f32 := Memref.whole cc0_scratch0
abbrev VS0 : View sig .tc .vmem S1024x128 .f32 := (scM0).view
abbrev VO0_6 : View sig .tc .vmem S1024x128 .f32 := (Memref.whole cc0_stg6_0 : Memref sig .tc .vmem S1024x128 .f32).view
abbrev VO0_7 : View sig .tc .vmem S1024x128 .f32 := (Memref.whole cc0_stg7_0 : Memref sig .tc .vmem S1024x128 .f32).view

/-- The scoped buffers this region never touches (the other region's staging buffers and accumulator). -/
abbrev others0 : List (Ref sig .tc) := [cc1_stg0_0, cc1_stg0_1, cc1_stg1_0, cc1_stg1_1, cc1_stg2_0, cc1_stg2_1, cc1_stg3_0, cc1_stg3_1, cc1_stg4_0, cc1_stg4_1, cc1_stg5_0, cc1_stg5_1, cc1_stg6_0, cc1_stg6_1, cc1_stg7_0, cc1_stg7_1, cc1_scratch0]
/-- Those buffers, each whole at some contents. -/
def rest0 (c : Dev nD) : sProp 𝕄 :=
  bigSepL others0 fun b => iprop(∃ f : Buf (Elt F) ((c : Thread nD τ).loc b), ((c : Thread nD τ).loc b) ↦{fullShare} f)

/-- What a region of this class may use and need not describe: the accumulator at some contents, the buffers it never
    touches, and the generator register at some state. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA rest0
  rw [Pipeline.scopedRest_eq_of_list spec0 c (cc0_scratch0 :: others0) (by decide) (by decide), bigSepL_cons]
  simp only [scM0, owns_whole]
  rfl

end Cert.KernelIdeal.Hand

end
-- ==== Proof.KiR0RunA.lean ====
/-
  The body's run when the group index is 0 (the accumulator is seeded from the seed block, whatever it held) and not 15: on whole staging memrefs with the six input blocks at their contents, it runs to the end
  with the inputs as they were, the clause-output buffer and the accumulator (and at j = 15 the class-score buffer) with
  the stores' pieces written; a buffer it does not store into is handed back untouched.
-/
import proofs.«152184_j30227979829789_2_alg».proof.Proof.KiR0Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) :
    Σ' (L6 : List (View.Piece (Elt F) S1024x128 .f32)), { LS : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__half_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc0__half_kernel_eq_skeleton]; unfold cc0__half_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; isplitr; · ipureintro; exact harg9.read_unread _
      iexact H7
    iexists _; iexact HS

end Cert.KernelIdeal.Hand

end
-- ==== Proof.KiR0RunB.lean ====
/-
  The body's run when the group index is neither 0 nor 15 (the accumulator goes on from what the point before left): on whole staging memrefs with the six input blocks at their contents, it runs to the end
  with the inputs as they were, the clause-output buffer and the accumulator (and at j = 15 the class-score buffer) with
  the stores' pieces written; a buffer it does not store into is handed back untouched.
-/
import proofs.«152184_j30227979829789_2_alg».proof.Proof.KiR0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    Σ' (L6 : List (View.Piece (Elt F) S1024x128 .f32)), { LS : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc0__half_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc0__half_kernel_eq_skeleton]; unfold cc0__half_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; isplitr; · ipureintro; exact harg9.read_unread _
      iexact H7
    iexists _; iexact HS

end Cert.KernelIdeal.Hand

end
-- ==== Proof.KiR0RunC.lean ====
/-
  The body's run when the group index is 15 (the accumulator goes on, and is stored as the class scores): on whole staging memrefs with the six input blocks at their contents, it runs to the end
  with the inputs as they were, the clause-output buffer and the accumulator (and at j = 15 the class-score buffer) with
  the stores' pieces written; a buffer it does not store into is handed back untouched.
-/
import proofs.«152184_j30227979829789_2_alg».proof.Proof.KiR0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    Σ' (L6 : List (View.Piece (Elt F) S1024x128 .f32)) (L7 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc0__half_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__half_kernel_eq_skeleton]; unfold cc0__half_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    iexists _; iexact HS

end Cert.KernelIdeal.Hand

end
-- ==== Proof.KiR0Dat.lean ====
/-
  Region 0: what the clause-output buffer, the class-score buffer and the accumulator hold after each grid point, by
  recursion on the point (the accumulator after a point with j > 0 is computed from what the point before left); the
  region's proof data over those contents; and the body's obligation at every point, by cases on j = 0, 0 < j < 15, j = 15.
  Before the first point the accumulator holds anything; after each point it holds that point's contents by name.
-/
import proofs.«152184_j30227979829789_2_alg».proof.Proof.KiR0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store into the clause-output buffer covers it (j = 0). -/
theorem cover0_6_A (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (y : S1024x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).1 S1024x128.size (by sl_kernel_rfl) y

/-- The stores into the accumulator cover it (j = 0). -/
theorem scover0_A (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (y : S1024x128.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S1024x128.size (by sl_kernel_rfl) y

/-- The one store into the clause-output buffer covers it (0 < j < 15). -/
theorem cover0_6_B (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs).1 S1024x128.size (by sl_kernel_rfl) y

/-- The store into the accumulator covers it (0 < j < 15). -/
theorem scover0_B (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs).2.1 S1024x128.size (by sl_kernel_rfl) y

/-- The one store into the clause-output buffer covers it (j = 15). -/
theorem cover0_6_C (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs).1 S1024x128.size (by sl_kernel_rfl) y

/-- The one store into the class-score buffer covers it (j = 15). -/
theorem cover0_7_C (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs).2.1 S1024x128.size (by sl_kernel_rfl) y

/-- The store into the accumulator covers it (j = 15). -/
theorem scover0_C (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs).2.2.1 S1024x128.size (by sl_kernel_rfl) y

/-- What the clause-output buffer holds after a point with j = 0. -/
def out0_6_A (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) : Vec F S1024x128 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)

/-- What the accumulator holds after a point with j = 0. -/
def sout0_A (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) : Vec F S1024x128 .f32 :=
  VS0.read (Elt F) (VS0.writes (Elt F) VS0.junk (kernelRun0_A c i arg2 harg2 arg3 harg3 arg4 harg4 arg5 harg5 arg6 harg6 arg7 harg7 arg8 harg8 arg9 harg9 arg10 harg10 hc0 hc1 x0 x1 x2 x3 x4 x5).2.1)

/-- What the clause-output buffer holds after a point with 0 < j < 15. -/
def out0_6_B (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs).1)

/-- What the accumulator holds after a point with 0 < j < 15. -/
def sout0_B (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VS0.read (Elt F) (VS0.writes (Elt F) VS0.junk (kernelRun0_B c i arg2 harg2 arg3 harg3 arg4 harg4 arg5 harg5 arg6 harg6 arg7 harg7 arg8 harg8 arg9 harg9 arg10 harg10 hc0 hc1 x0 x1 x2 x3 x4 x5 xs).2.1)

/-- What the clause-output buffer holds after a point with j = 15. -/
def out0_6_C (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs).1)

/-- What the class-score buffer holds after a point with j = 15. -/
def out0_7_C (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 xs).2.1)

/-- What the accumulator holds after a point with j = 15. -/
def sout0_C (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VS0.read (Elt F) (VS0.writes (Elt F) VS0.junk (kernelRun0_C c i arg2 harg2 arg3 harg3 arg4 harg4 arg5 harg5 arg6 harg6 arg7 harg7 arg8 harg8 arg9 harg9 arg10 harg10 hc0 hc1 x0 x1 x2 x3 x4 x5 xs).2.2.1)

/-- A placeholder for the class-score buffer where nothing is stored into it: it is neither written back nor read there. -/
def junk0_7 : Vec F S1024x128 .f32 := VO0_7.read (Elt F) VO0_7.junk

section
variable (V : (c : Dev nD) → (b : Ref sig .tc) → Buf (Elt F) ((c : Thread nD τ).loc b))

/-! ## What the buffers hold after each point -/

/-- After position `n`: (the clause-output buffer, the class-score buffer, the accumulator). -/
def outsAt0 (c : Dev nD) : (n : ℕ) → n < cfg0.N → Vec F S1024x128 .f32 × Vec F S1024x128 .f32 × Vec F S1024x128 .f32
  | 0, hn =>
    (out0_6_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
     junk0_7,
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 16 = 0 then
      if h1 : (n + 1) % 16 = 15 then
        False.elim (by omega)
      else
        (out0_6_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
         junk0_7,
         sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 16 = 15 then
        (out0_6_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2,
         out0_7_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)
      else
        (out0_6_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2,
         junk0_7,
         sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)

/-- At a point with j = 0. -/
theorem outsAt0_A (c : Dev nD) (t : Fin cfg0.N) (h0 : t.val % 16 = 0) (h1 : ¬t.val % 16 = 15) :
    outsAt0 V c t.val t.isLt =
      (out0_6_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
       junk0_7,
       sout0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- At a point with 0 < j < 15: over what the point before left in the accumulator. -/
theorem outsAt0_B (c : Dev nD) (t : Fin cfg0.N) (h0 : ¬t.val % 16 = 0) (h1 : ¬t.val % 16 = 15) :
    outsAt0 V c t.val t.isLt =
      (out0_6_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2,
       junk0_7,
       sout0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point with j = 15: over what the point before left in the accumulator. -/
theorem outsAt0_C (c : Dev nD) (t : Fin cfg0.N) (h0 : ¬t.val % 16 = 0) (h1 : t.val % 16 = 15) :
    outsAt0 V c t.val t.isLt =
      (out0_6_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2,
       out0_7_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2,
       sout0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the class's invariant (the accumulator at anything); afterwards the
    accumulator at what the point before left, the untouched buffers, the generator register at some state. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2.2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2.2) ∗ rest0 c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2.2) ∗ rest0 c) ∗ (∃ r, prngReg c r)) := by
  cases n with
  | zero => exact absurd rfl hz
  | succ n => rfl

/-! ## The proof data -/

/-- The region's proof data on core `c`: the arrays as the region finds them; after the body each input's buffer at its
    block, the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' buffers hold their blocks; the group index says which case the point is in; the
    accumulator comes in at what the point before left (at anything at the very first point) and goes back at this
    point's contents; where the class scores are not stored their buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 16 = 0
  · have h1 : ¬t.val % 16 = 15 := by omega
    rw [Dat.leavesExact_idle (dat0 V c) 7 t (idleAt0_7 t (fun h => h1 ((hcond0_1 t).mp h))) (noFlush0_7 t (fun h => h1 ((hcond0_1 t).mp h)))]
    rw [outsAt0_A V c t h0 h1]
    unfold out0_6_A sout0_A; (try dsimp only)
    by_cases hz : t.val = 0
    · rw [PhiS0_castSucc V c t, PhiS0_zero V c _ _ hz, PhiA0_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_6_A _ _ _ _ _ _ _ _ _ _ _ _ _ _ _ _ _ _ _ _ _ _ _ _ _ _ _ _)
      iexists _; iexact H7
    · rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexists _; iexact HS
      iintro ⟨H0, H1, H2, H3, H4, H5, ⟨%e6, H6⟩, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_6_A _ _ _ _ _ _ _ _ _ _ _ _ _ _ _ _ _ _ _ _ _ _ _ _ _ _ _ _)
      iexists _; iexact H7
  · have hz : t.val ≠ 0 := by intro e; rw [e] at h0; exact h0 (Nat.zero_mod _)
    by_cases h1 : t.val % 16 = 15
    · rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold out0_6_C out0_7_C sout0_C; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, ⟨%e6, H6⟩, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_C _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_6_C _ _ _ _ _ _ _ _ _ _ _ _ _ _ _ _ _ _ _ _ _ _ _ _ _ _ _ _ _)
      unfold owns; iexists _; isplitr
      swap; · iexact H7
      ipureintro; exact View.read_writes_of_cover _ _ _ _ _ (cover0_7_C _ _ _ _ _ _ _ _ _ _ _ _ _ _ _ _ _ _ _ _ _ _ _ _ _ _ _ _ _)
    · rw [Dat.leavesExact_idle (dat0 V c) 7 t (idleAt0_7 t (fun h => h1 ((hcond0_1 t).mp h))) (noFlush0_7 t (fun h => h1 ((hcond0_1 t).mp h)))]
      rw [outsAt0_B V c t h0 h1]
      unfold out0_6_B sout0_B; (try dsimp only)
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_6_B _ _ _ _ _ _ _ _ _ _ _ _ _ _ _ _ _ _ _ _ _ _ _ _ _ _ _ _ _)
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class's invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]
    · iexists _; iexact HS
    iexact Hrest
  iexact Hg

theorem Phi_last0 (c : Dev nD) : (dat0 V c).Φ (Fin.last cfg0.N) ⊢ Pipeline.ΦA spec0 c :=
  Phi_out0 V c _ (by rw [Fin.val_last]; have : cfg0.N = 32 := N_0; omega)

end

end Cert.KernelIdeal.Hand

end
-- ==== Proof.KiR1Kit.lean ====
/-
  Region 1 of the program (one bank of 2048 clauses): the facts its body's run and its proof data are stated over.
  The grid has 32 points t = 16 * i + j: i in {0,1} is the half of the batch (1024 samples), j in 0..15 the group of
  128 clauses. A window's block at a point is read off the array the region finds. The body's two branches are
  decided by j alone: the accumulator is seeded when j = 0 and the class scores are stored when j = 15.
-/
import proofs.«152184_j30227979829789_2_alg».proof.Proof.Gen.KernelIdeal.Launch
import proofs.«152184_j30227979829789_2_alg».proof.Proof.Gen.KernelIdeal.Skeleton
import proofs.«152184_j30227979829789_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: where it is not fetched its
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not: where it is not fetched its
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not: where it is not fetched its
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not: where it is not fetched its
    block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not: where it is not fetched its
    block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not: where it is not fetched its
    block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branches, decided over the grid -/

/-- The accumulator is seeded: the group index j is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- The class scores are stored: the group index j is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Away from j = 15 the class-score window is idle and is not written back. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The memrefs the body is called with -/
abbrev ms1_0 (t : Fin cfg1.N) : Memref sig .tc .vmem S1024x3072 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x3072 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x3072 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x128 .f32 := win1_7.stage (cfg1.slots t 7)
abbrev hs1_7 (t : Fin cfg1.N) : (ms1_7 t).IsWhole := hstage1_7 ((cfg1.slots t 7).cast nbuf1_7)
/-- The accumulator: a whole scoped buffer of the kernel's own, carried from point to point. -/
abbrev scM1 : Memref sig .tc .vmem S1024x128 .f32 := Memref.whole cc1_scratch0
abbrev VS1 : View sig .tc .vmem S1024x128 .f32 := (scM1).view
abbrev VO1_6 : View sig .tc .vmem S1024x128 .f32 := (Memref.whole cc1_stg6_0 : Memref sig .tc .vmem S1024x128 .f32).view
abbrev VO1_7 : View sig .tc .vmem S1024x128 .f32 := (Memref.whole cc1_stg7_0 : Memref sig .tc .vmem S1024x128 .f32).view

/-- The scoped buffers this region never touches (the other region's staging buffers and accumulator). -/
abbrev others1 : List (Ref sig .tc) := [cc0_stg0_0, cc0_stg0_1, cc0_stg1_0, cc0_stg1_1, cc0_stg2_0, cc0_stg2_1, cc0_stg3_0, cc0_stg3_1, cc0_stg4_0, cc0_stg4_1, cc0_stg5_0, cc0_stg5_1, cc0_stg6_0, cc0_stg6_1, cc0_stg7_0, cc0_stg7_1, cc0_scratch0]
/-- Those buffers, each whole at some contents. -/
def rest1 (c : Dev nD) : sProp 𝕄 :=
  bigSepL others1 fun b => iprop(∃ f : Buf (Elt F) ((c : Thread nD τ).loc b), ((c : Thread nD τ).loc b) ↦{fullShare} f)

/-- What a region of this class may use and need not describe: the accumulator at some contents, the buffers it never
    touches, and the generator register at some state. -/
theorem PhiA1_eq (c : Dev nD) :
    (Pipeline.ΦA spec1 c : sProp 𝕄)
      = iprop(((∃ d, owns (c : Thread nD τ) scM1 fullShare d) ∗ rest1 c) ∗ (∃ r, prngReg c r)) := by
  unfold Pipeline.ΦA rest1
  rw [Pipeline.scopedRest_eq_of_list spec1 c (cc1_scratch0 :: others1) (by decide) (by decide), bigSepL_cons]
  simp only [scM1, owns_whole]
  rfl

end Cert.KernelIdeal.Hand

end
-- ==== Proof.KiR1RunA.lean ====
/-
  The body's run when the group index is 0 (the accumulator is seeded from the seed block, whatever it held) and not 15: on whole staging memrefs with the six input blocks at their contents, it runs to the end
  with the inputs as they were, the clause-output buffer and the accumulator (and at j = 15 the class-score buffer) with
  the stores' pieces written; a buffer it does not store into is handed back untouched.
-/
import proofs.«152184_j30227979829789_2_alg».proof.Proof.KiR1Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) :
    Σ' (L6 : List (View.Piece (Elt F) S1024x128 .f32)), { LS : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__half_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc1__half_kernel_eq_skeleton]; unfold cc1__half_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; isplitr; · ipureintro; exact harg9.read_unread _
      iexact H7
    iexists _; iexact HS

end Cert.KernelIdeal.Hand

end
-- ==== Proof.KiR1RunB.lean ====
/-
  The body's run when the group index is neither 0 nor 15 (the accumulator goes on from what the point before left): on whole staging memrefs with the six input blocks at their contents, it runs to the end
  with the inputs as they were, the clause-output buffer and the accumulator (and at j = 15 the class-score buffer) with
  the stores' pieces written; a buffer it does not store into is handed back untouched.
-/
import proofs.«152184_j30227979829789_2_alg».proof.Proof.KiR1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    Σ' (L6 : List (View.Piece (Elt F) S1024x128 .f32)), { LS : List (View.Piece (Elt F) S1024x128 .f32) //
      ∀ (xi7 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS)) -∗ K ⟨⟩))
          ⊢ wp frame (wpE (defs₀ (F := F)) Variants.none c none) E (cc1__half_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc1__half_kernel_eq_skeleton]; unfold cc1__half_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; isplitr; · ipureintro; exact harg9.read_unread _
      iexact H7
    iexists _; iexact HS

end Cert.KernelIdeal.Hand

end
-- ==== Proof.KiR1RunC.lean ====
/-
  The body's run when the group index is 15 (the accumulator goes on, and is stored as the class scores): on whole staging memrefs with the six input blocks at their contents, it runs to the end
  with the inputs as they were, the clause-output buffer and the accumulator (and at j = 15 the class-score buffer) with
  the stores' pieces written; a buffer it does not store into is handed back untouched.
-/
import proofs.«152184_j30227979829789_2_alg».proof.Proof.KiR1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    Σ' (L6 : List (View.Piece (Elt F) S1024x128 .f32)) (L7 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS)) -∗ K ⟨⟩))
          ⊢ wp frame (wpE (defs₀ (F := F)) Variants.none c none) E (cc1__half_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc1__half_kernel_eq_skeleton]; unfold cc1__half_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    iexists _; iexact HS

end Cert.KernelIdeal.Hand

end
-- ==== Proof.KiR1Dat.lean ====
/-
  Region 1: what the clause-output buffer, the class-score buffer and the accumulator hold after each grid point, by
  recursion on the point (the accumulator after a point with j > 0 is computed from what the point before left); the
  region's proof data over those contents; and the body's obligation at every point, by cases on j = 0, 0 < j < 15, j = 15.
  Before the first point the accumulator holds anything; after each point it holds that point's contents by name.
-/
import proofs.«152184_j30227979829789_2_alg».proof.Proof.KiR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one store into the clause-output buffer covers it (j = 0). -/
theorem cover1_6_A (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (y : S1024x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).1 S1024x128.size (by sl_kernel_rfl) y

/-- The stores into the accumulator cover it (j = 0). -/
theorem scover1_A (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (y : S1024x128.Idx) :
    ∃ pc ∈ (kernelRun1_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4 x5).2.1 S1024x128.size (by sl_kernel_rfl) y

/-- The one store into the clause-output buffer covers it (0 < j < 15). -/
theorem cover1_6_B (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xs).1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs).1 S1024x128.size (by sl_kernel_rfl) y

/-- The store into the accumulator covers it (0 < j < 15). -/
theorem scover1_B (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun1_B c i arg2 harg2 arg3 harg3 arg4 harg4 arg5 harg5 arg6 harg6 arg7 harg7 arg8 harg8 arg9 harg9 arg10 harg10 hc0 hc1 x0 x1 x2 x3 x4 x5 xs).2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 x5 xs).2.1 S1024x128.size (by sl_kernel_rfl) y

/-- The one store into the clause-output buffer covers it (j = 15). -/
theorem cover1_6_C (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs).1 S1024x128.size (by sl_kernel_rfl) y

/-- The one store into the class-score buffer covers it (j = 15). -/
theorem cover1_7_C (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs).2.1 S1024x128.size (by sl_kernel_rfl) y

/-- The store into the accumulator covers it (j = 15). -/
theorem scover1_C (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) (y : S1024x128.Idx) :
    ∃ pc ∈ (kernelRun1_C c i arg2 harg2 arg3 harg3 arg4 harg4 arg5 harg5 arg6 harg6 arg7 harg7 arg8 harg8 arg9 harg9 arg10 harg10 hc0 hc1 x0 x1 x2 x3 x4 x5 xs).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 x5 xs).2.2.1 S1024x128.size (by sl_kernel_rfl) y

/-- What the clause-output buffer holds after a point with j = 0. -/
def out1_6_A (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) : Vec F S1024x128 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 x0 x1 x2 x3 x4 x5).1)

/-- What the accumulator holds after a point with j = 0. -/
def sout1_A (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) : Vec F S1024x128 .f32 :=
  VS1.read (Elt F) (VS1.writes (Elt F) VS1.junk (kernelRun1_A c i arg2 harg2 arg3 harg3 arg4 harg4 arg5 harg5 arg6 harg6 arg7 harg7 arg8 harg8 arg9 harg9 arg10 harg10 hc0 hc1 x0 x1 x2 x3 x4 x5).2.1)

/-- What the clause-output buffer holds after a point with 0 < j < 15. -/
def out1_6_B (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 x0 x1 x2 x3 x4 x5 xs).1)

/-- What the accumulator holds after a point with 0 < j < 15. -/
def sout1_B (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VS1.read (Elt F) (VS1.writes (Elt F) VS1.junk (kernelRun1_B c i arg2 harg2 arg3 harg3 arg4 harg4 arg5 harg5 arg6 harg6 arg7 harg7 arg8 harg8 arg9 harg9 arg10 harg10 hc0 hc1 x0 x1 x2 x3 x4 x5 xs).2.1)

/-- What the clause-output buffer holds after a point with j = 15. -/
def out1_6_C (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 x5 xs).1)

/-- What the class-score buffer holds after a point with j = 15. -/
def out1_7_C (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 hc0 hc1 x0 x1 x2 x3 x4 x5 xs).2.1)

/-- What the accumulator holds after a point with j = 15. -/
def sout1_C (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) : Vec F S1024x128 .f32 :=
  VS1.read (Elt F) (VS1.writes (Elt F) VS1.junk (kernelRun1_C c i arg2 harg2 arg3 harg3 arg4 harg4 arg5 harg5 arg6 harg6 arg7 harg7 arg8 harg8 arg9 harg9 arg10 harg10 hc0 hc1 x0 x1 x2 x3 x4 x5 xs).2.2.1)

/-- A placeholder for the class-score buffer where nothing is stored into it: it is neither written back nor read there. -/
def junk1_7 : Vec F S1024x128 .f32 := VO1_7.read (Elt F) VO1_7.junk

section
variable (V : (c : Dev nD) → (b : Ref sig .tc) → Buf (Elt F) ((c : Thread nD τ).loc b))

/-! ## What the buffers hold after each point -/

/-- After position `n`: (the clause-output buffer, the class-score buffer, the accumulator). -/
def outsAt1 (c : Dev nD) : (n : ℕ) → n < cfg1.N → Vec F S1024x128 .f32 × Vec F S1024x128 .f32 × Vec F S1024x128 .f32
  | 0, hn =>
    (out1_6_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩),
     junk1_7,
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by omega)
      else
        (out1_6_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩),
         junk1_7,
         sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (out1_6_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
         out1_7_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)
      else
        (out1_6_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2,
         junk1_7,
         sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2)

/-- At a point with j = 0. -/
theorem outsAt1_A (c : Dev nD) (t : Fin cfg1.N) (h0 : t.val % 16 = 0) (h1 : ¬t.val % 16 = 15) :
    outsAt1 V c t.val t.isLt =
      (out1_6_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t),
       junk1_7,
       sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- At a point with 0 < j < 15: over what the point before left in the accumulator. -/
theorem outsAt1_B (c : Dev nD) (t : Fin cfg1.N) (h0 : ¬t.val % 16 = 0) (h1 : ¬t.val % 16 = 15) :
    outsAt1 V c t.val t.isLt =
      (out1_6_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2,
       junk1_7,
       sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a point with j = 15: over what the point before left in the accumulator. -/
theorem outsAt1_C (c : Dev nD) (t : Fin cfg1.N) (h0 : ¬t.val % 16 = 0) (h1 : t.val % 16 = 15) :
    outsAt1 V c t.val t.isLt =
      (out1_6_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2,
       out1_7_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2,
       sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point the class's invariant (the accumulator at anything); afterwards the
    accumulator at what the point before left, the untouched buffers, the generator register at some state. -/
def PhiS1 (c : Dev nD) : (n : ℕ) → n ≤ cfg1.N → sProp 𝕄
  | 0, _ => Pipeline.ΦA spec1 c
  | n + 1, hn => iprop((owns (c : Thread nD τ) scM1 fullShare ((outsAt1 V c n hn).2.2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2.2) ∗ rest1 c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2.2) ∗ rest1 c) ∗ (∃ r, prngReg c r)) := by
  cases n with
  | zero => exact absurd rfl hz
  | succ n => rfl

/-! ## The proof data -/

/-- The region's proof data on core `c`: the arrays as the region finds them; after the body each input's buffer at its
    block, the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' buffers hold their blocks; the group index says which case the point is in; the
    accumulator comes in at what the point before left (at anything at the very first point) and goes back at this
    point's contents; where the class scores are not stored their buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 16 = 0
  · have h1 : ¬t.val % 16 = 15 := by omega
    rw [Dat.leavesExact_idle (dat1 V c) 7 t (idleAt1_7 t (fun h => h1 ((hcond1_1 t).mp h))) (noFlush1_7 t (fun h => h1 ((hcond1_1 t).mp h)))]
    rw [outsAt1_A V c t h0 h1]
    unfold out1_6_A sout1_A; (try dsimp only)
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_6_A _ _ _ _ _ _ _ _ _ _ _ _ _ _ _ _ _ _ _ _ _ _ _ _ _ _ _ _)
      iexists _; iexact H7
    · rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexists _; iexact HS
      iintro ⟨H0, H1, H2, H3, H4, H5, ⟨%e6, H6⟩, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_6_A _ _ _ _ _ _ _ _ _ _ _ _ _ _ _ _ _ _ _ _ _ _ _ _ _ _ _ _)
      iexists _; iexact H7
  · have hz : t.val ≠ 0 := by intro e; rw [e] at h0; exact h0 (Nat.zero_mod _)
    by_cases h1 : t.val % 16 = 15
    · rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold out1_6_C out1_7_C sout1_C; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, ⟨%e6, H6⟩, ⟨%e7, H7⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_6_C _ _ _ _ _ _ _ _ _ _ _ _ _ _ _ _ _ _ _ _ _ _ _ _ _ _ _ _ _)
      unfold owns; iexists _; isplitr
      swap; · iexact H7
      ipureintro; exact View.read_writes_of_cover _ _ _ _ _ (cover1_7_C _ _ _ _ _ _ _ _ _ _ _ _ _ _ _ _ _ _ _ _ _ _ _ _ _ _ _ _ _)
    · rw [Dat.leavesExact_idle (dat1 V c) 7 t (idleAt1_7 t (fun h => h1 ((hcond1_1 t).mp h))) (noFlush1_7 t (fun h => h1 ((hcond1_1 t).mp h)))]
      rw [outsAt1_B V c t h0 h1]
      unfold out1_6_B sout1_B; (try dsimp only)
      rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, ⟨%e6, H6⟩, H7, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B _ _ _ _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_6_B _ _ _ _ _ _ _ _ _ _ _ _ _ _ _ _ _ _ _ _ _ _ _ _ _ _ _ _ _)
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hrest⟩, Hg⟩
  isplitl [HS Hrest]
  · isplitl [HS]
    · iexists _; iexact HS
    iexact Hrest
  iexact Hg

theorem Phi_last1 (c : Dev nD) : (dat1 V c).Φ (Fin.last cfg1.N) ⊢ Pipeline.ΦA spec1 c :=
  Phi_out1 V c _ (by rw [Fin.val_last]; have : cfg1.N = 32 := N_1; omega)

end

end Cert.KernelIdeal.Hand

end
-- ==== Proof.KiAsm.lean ====
/-
  The whole run of the program: the buffers' contents at each boundary between two items of the entry function, as a
  fold from the launch memory (five stretches of host operations, the first bank's region, the second bank's region,
  the closing stretch); each region entered from what the item before it left and left at its arrays' final contents;
  and the launch, whose every final memory holds each unscoped buffer at the last boundary's contents. No item writes
  an argument array, so each argument reads back through the fold to its launch contents.
-/
import proofs.«152184_j30227979829789_2_alg».proof.Proof.KiR0Dat
import proofs.«152184_j30227979829789_2_alg».proof.Proof.KiR1Dat
import proofs.«152184_j30227979829789_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
/-- What the first region finds, read at the TensorCore's references. -/
abbrev E5 : (c : Dev nD) → (b : Ref sig .tc) → Buf (Elt F) ((c : Thread nD τ).loc b) := fun c b => W5 m c b
/-- After the first region: its arrays at what its write-backs leave, every other buffer as entered. -/
def W6 (c : Dev nD) : Valuation τ sig (Elt F) :=
  Pipeline.withArrays spec0 c (W5 m c) fun w => (dat0 (E5 m) c).arrAt w cfg0.N
theorem W6_arr (c : Dev nD) (w : Fin cfg0.W) :
    W6 m c (Proc.devRef .tc (Pipeline.arrRef spec0 w)) = (dat0 (E5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev E6 : (c : Dev nD) → (b : Ref sig .tc) → Buf (Elt F) ((c : Thread nD τ).loc b) := fun c b => W6 m c b
theorem hF0 (c : Dev nD) (w : Fin cfg0.W) : (dat0 (E5 m) c).arrAt w cfg0.N = E6 m c (Pipeline.arrRef spec0 w) :=
  (W6_arr m c w).symm
theorem hrest0 (c : Dev nD) : ∀ b, b ∉ Finset.univ.image (Pipeline.arrRef spec0) → E6 m c b = E5 m c b :=
  fun b hb => W6_of_ne m c b fun w e => hb (Finset.mem_image.mpr ⟨w, Finset.mem_univ _, e⟩)
/-- After the second region. -/
def W7 (c : Dev nD) : Valuation τ sig (Elt F) :=
  Pipeline.withArrays spec1 c (W6 m c) fun w => (dat1 (E6 m) c).arrAt w cfg1.N
theorem W7_arr (c : Dev nD) (w : Fin cfg1.W) :
    W7 m c (Proc.devRef .tc (Pipeline.arrRef spec1 w)) = (dat1 (E6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
abbrev E7 : (c : Dev nD) → (b : Ref sig .tc) → Buf (Elt F) ((c : Thread nD τ).loc b) := fun c b => W7 m c b
theorem hF1 (c : Dev nD) (w : Fin cfg1.W) : (dat1 (E6 m) c).arrAt w cfg1.N = E7 m c (Pipeline.arrRef spec1 w) :=
  (W7_arr m c w).symm
theorem hrest1 (c : Dev nD) : ∀ b, b ∉ Finset.univ.image (Pipeline.arrRef spec1) → E7 m c b = E6 m c b :=
  fun b hb => W7_of_ne m c b fun w e => hb (Finset.mem_image.mpr ⟨w, Finset.mem_univ _, e⟩)
/-- After the closing stretch: the program's end. -/
abbrev W8 : Dev nD → Valuation τ sig (Elt F) := fun c => StableHlo.after hostOps2 (W7 m c)

/-- A reference no host stretch before the regions writes holds its launch contents when the first region is entered. -/
theorem W5_keep (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m c r = m ((c : Thread nD τ).loc r) :=
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl
theorem W8_keep (c : Dev nD) (r : Ref sig .tc) (h : r ∉ hostOps2_W) : W8 m c r = W7 m c r :=
  StableHlo.after_of_writes_sub hostOps2 _ hostOps2_writes h

/-! ## Each argument ends as launched -/
theorem W8_main_arg0 (c : Dev nD) : W8 m c main_arg0 = m ((c : Thread nD τ).loc main_arg0) :=
  (W8_keep m c main_arg0 (by decide)).trans <| (W7_of_ne m c main_arg0 (by decide)).trans <| (W6_of_ne m c main_arg0 (by decide)).trans <|
    W5_keep m c main_arg0 (by decide) (by decide) (by decide) (by decide) (by decide)
theorem W8_main_arg5 (c : Dev nD) : W8 m c main_arg5 = m ((c : Thread nD τ).loc main_arg5) :=
  (W8_keep m c main_arg5 (by decide)).trans <| (W7_of_ne m c main_arg5 (by decide)).trans <| (W6_of_ne m c main_arg5 (by decide)).trans <|
    W5_keep m c main_arg5 (by decide) (by decide) (by decide) (by decide) (by decide)
theorem W8_main_arg6 (c : Dev nD) : W8 m c main_arg6 = m ((c : Thread nD τ).loc main_arg6) :=
  (W8_keep m c main_arg6 (by decide)).trans <| (W7_of_ne m c main_arg6 (by decide)).trans <| (W6_of_ne m c main_arg6 (by decide)).trans <|
    W5_keep m c main_arg6 (by decide) (by decide) (by decide) (by decide) (by decide)
theorem W8_main_arg1 (c : Dev nD) : W8 m c main_arg1 = m ((c : Thread nD τ).loc main_arg1) :=
  (W8_keep m c main_arg1 (by decide)).trans <| (W7_of_ne m c main_arg1 (by decide)).trans <|
    ((W6_arr m c 1).trans (((dat0 (E5 m) c).arrAt_in 1 rfl _).trans (A_eq0 (E5 m) c 1))).trans <|
    W5_keep m c main_arg1 (by decide) (by decide) (by decide) (by decide) (by decide)
theorem W8_main_arg3 (c : Dev nD) : W8 m c main_arg3 = m ((c : Thread nD τ).loc main_arg3) :=
  (W8_keep m c main_arg3 (by decide)).trans <| (W7_of_ne m c main_arg3 (by decide)).trans <|
    ((W6_arr m c 2).trans (((dat0 (E5 m) c).arrAt_in 2 rfl _).trans (A_eq0 (E5 m) c 2))).trans <|
    W5_keep m c main_arg3 (by decide) (by decide) (by decide) (by decide) (by decide)
theorem W8_main_arg2 (c : Dev nD) : W8 m c main_arg2 = m ((c : Thread nD τ).loc main_arg2) :=
  (W8_keep m c main_arg2 (by decide)).trans <|
    ((W7_arr m c 1).trans (((dat1 (E6 m) c).arrAt_in 1 rfl _).trans (A_eq1 (E6 m) c 1))).trans <|
    (W6_of_ne m c main_arg2 (by decide)).trans <|
    W5_keep m c main_arg2 (by decide) (by decide) (by decide) (by decide) (by decide)
theorem W8_main_arg4 (c : Dev nD) : W8 m c main_arg4 = m ((c : Thread nD τ).loc main_arg4) :=
  (W8_keep m c main_arg4 (by decide)).trans <|
    ((W7_arr m c 2).trans (((dat1 (E6 m) c).arrAt_in 2 rfl _).trans (A_eq1 (E6 m) c 2))).trans <|
    (W6_of_ne m c main_arg4 (by decide)).trans <|
    W5_keep m c main_arg4 (by decide) (by decide) (by decide) (by decide) (by decide)

/-! ## The proof data family and the thread state -/

/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E5 m) c
  | ⟨1, _⟩ => fun c => dat1 (E6 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at the boundary before it, left at the one
    after it. Its arrays are split out of the unscoped buffers and put back at their final contents; the generator
    register goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E5 m) c).loose
  hwaits := Pipeline.hwaits_of_owed_zero _ _ _ _ L lv 0 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (E5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (E5 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E5 m c) (E6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it. Its arrays are split out of the unscoped buffers and put back at their final contents; the generator
    register goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (E6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (E6 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E6 m c) (E7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .region (reg1 m),
    .host (hseg hostOps2 hostOps2_sub hostOps2_fresh (W7 m)) ]
theorem main_run (c : Dev nD) : main (F := F) c = Pipeline.Seg.run (segs m) := (main_chain c).trans (by chain_rfl)

/-- The last thread state without what is owed: every unscoped buffer at the end's contents, the register at some state. -/
abbrev Tₙ (c : Dev nD) : sProp 𝕄 := iprop(StableHlo.held (c : Thread nD τ) (Pipeline.ucRefs τ sig) (W8 m c) ∗ ∃ r, prngReg c r)

set_option backward.isDefEq.respectTransparency.types false in
/-- From any memory with zero counters every weakly fair execution of the entry function terminates, nothing faulting,
    and every final memory holds every unscoped buffer at the end's contents `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c)
          ⊢ iprop(Tₙ m c ∗ ∃ W, owes (c : Thread nD τ) (0 : CellTallies nD τ sig Unit) W)
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c)⟩) (run_all m ρ)

end Cert.KernelIdeal.Hand

end
-- ==== Proof.KiR0Pieces.lean ====
/-
  Region 0: the buffers' contents after each point, as the body's arithmetic of the blocks. The clause-output buffer
  holds the clause tile of the point's three input blocks; the accumulator holds, at j = 0, the update of the seed block
  by the point's tile, and at j > 0 the update of what the point before left; at j = 15 the class-score buffer holds the
  accumulator. By induction on the point the accumulator is the chain of updates since the last point with j = 0.
-/
import proofs.«152184_j30227979829789_2_alg».proof.Proof.KiR0Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz0 : (![0, 0] : Fin 2 → Nat) = fun _ => 0 := funext fun a => by fin_cases a <;> rfl

theorem out0_6_A_eq (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) :
    out0_6_A c i arg2 harg2 arg3 harg3 arg4 harg4 arg5 harg5 arg6 harg6 arg7 harg7 arg8 harg8 arg9 harg9 arg10 harg10 hc0 hc1 x0 x1 x2 x3 x4 x5 = k0_pay3 x0 x1 x2 := by
  unfold out0_6_A
  rw [View.read_writes_eq_canon _ _ _ (cover0_6_A c i arg2 harg2 arg3 harg3 arg4 harg4 arg5 harg5 arg6 harg6 arg7 harg7 arg8 harg8 arg9 harg9 arg10 harg10 hc0 hc1 x0 x1 x2 x3 x4 x5)]
  unfold kernelRun0_A
  dsimp only
  rw [View.canon_unit_zero hz0]
  simp only [View.readAt_eq_ld, harg2.read_unread, harg3.read_unread, harg4.read_unread, harg5.read_unread, harg6.read_unread, harg7.read_unread, harg10.read_unread, View.ld_unit_zero (S := S1024x3072) hz0, View.ld_unit_zero (S := S128x3072) hz0, View.ld_unit_zero (S := S1x128) hz0, View.ld_unit_zero (S := S128x128) hz0, View.ld_unit_zero (S := S1024x128) hz0]

theorem sout0_A_eq (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) :
    sout0_A c i arg2 harg2 arg3 harg3 arg4 harg4 arg5 harg5 arg6 harg6 arg7 harg7 arg8 harg8 arg9 harg9 arg10 harg10 hc0 hc1 x0 x1 x2 x3 x4 x5 = k0_pay1 (k0_pay3 x0 x1 x2) x3 x4 (k0_pay2 x5) := by
  unfold sout0_A
  rw [View.read_writes_eq_canon _ _ _ (scover0_A c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x128) hz0, View.readCov_unit_zero (S := S1024x128) _ hz0]
  simp only [View.readAt_eq_ld, harg2.read_unread, harg3.read_unread, harg4.read_unread, harg5.read_unread, harg6.read_unread, harg7.read_unread, harg10.read_unread, View.ld_unit_zero (S := S1024x3072) hz0, View.ld_unit_zero (S := S128x3072) hz0, View.ld_unit_zero (S := S1x128) hz0, View.ld_unit_zero (S := S128x128) hz0, View.ld_unit_zero (S := S1024x128) hz0]

theorem out0_6_B_eq (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    out0_6_B c i arg2 harg2 arg3 harg3 arg4 harg4 arg5 harg5 arg6 harg6 arg7 harg7 arg8 harg8 arg9 harg9 arg10 harg10 hc0 hc1 x0 x1 x2 x3 x4 x5 xs = k0_pay3 x0 x1 x2 := by
  unfold out0_6_B
  rw [View.read_writes_eq_canon _ _ _ (cover0_6_B c i arg2 harg2 arg3 harg3 arg4 harg4 arg5 harg5 arg6 harg6 arg7 harg7 arg8 harg8 arg9 harg9 arg10 harg10 hc0 hc1 x0 x1 x2 x3 x4 x5 xs)]
  unfold kernelRun0_B
  dsimp only
  rw [View.canon_unit_zero hz0]
  simp only [View.readAt_eq_ld, harg2.read_unread, harg3.read_unread, harg4.read_unread, harg5.read_unread, harg6.read_unread, harg7.read_unread, harg10.read_unread, View.ld_unit_zero (S := S1024x3072) hz0, View.ld_unit_zero (S := S128x3072) hz0, View.ld_unit_zero (S := S1x128) hz0, View.ld_unit_zero (S := S128x128) hz0, View.ld_unit_zero (S := S1024x128) hz0]

theorem sout0_B_eq (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : ¬cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    sout0_B c i arg2 harg2 arg3 harg3 arg4 harg4 arg5 harg5 arg6 harg6 arg7 harg7 arg8 harg8 arg9 harg9 arg10 harg10 hc0 hc1 x0 x1 x2 x3 x4 x5 xs = k0_pay1 (k0_pay3 x0 x1 x2) x3 x4 xs := by
  unfold sout0_B
  rw [View.read_writes_eq_canon _ _ _ (scover0_B c i arg2 harg2 arg3 harg3 arg4 harg4 arg5 harg5 arg6 harg6 arg7 harg7 arg8 harg8 arg9 harg9 arg10 harg10 hc0 hc1 x0 x1 x2 x3 x4 x5 xs)]
  unfold kernelRun0_B
  dsimp only
  rw [View.canon_unit_zero hz0]
  simp only [View.readAt_eq_ld, harg2.read_unread, harg3.read_unread, harg4.read_unread, harg5.read_unread, harg6.read_unread, harg7.read_unread, harg10.read_unread, View.ld_unit_zero (S := S1024x3072) hz0, View.ld_unit_zero (S := S128x3072) hz0, View.ld_unit_zero (S := S1x128) hz0, View.ld_unit_zero (S := S128x128) hz0, View.ld_unit_zero (S := S1024x128) hz0]

theorem out0_6_C_eq (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    out0_6_C c i arg2 harg2 arg3 harg3 arg4 harg4 arg5 harg5 arg6 harg6 arg7 harg7 arg8 harg8 arg9 harg9 arg10 harg10 hc0 hc1 x0 x1 x2 x3 x4 x5 xs = k0_pay3 x0 x1 x2 := by
  unfold out0_6_C
  rw [View.read_writes_eq_canon _ _ _ (cover0_6_C c i arg2 harg2 arg3 harg3 arg4 harg4 arg5 harg5 arg6 harg6 arg7 harg7 arg8 harg8 arg9 harg9 arg10 harg10 hc0 hc1 x0 x1 x2 x3 x4 x5 xs)]
  unfold kernelRun0_C
  dsimp only
  rw [View.canon_unit_zero hz0]
  simp only [View.readAt_eq_ld, harg2.read_unread, harg3.read_unread, harg4.read_unread, harg5.read_unread, harg6.read_unread, harg7.read_unread, harg10.read_unread, View.ld_unit_zero (S := S1024x3072) hz0, View.ld_unit_zero (S := S128x3072) hz0, View.ld_unit_zero (S := S1x128) hz0, View.ld_unit_zero (S := S128x128) hz0, View.ld_unit_zero (S := S1024x128) hz0]

theorem sout0_C_eq (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    sout0_C c i arg2 harg2 arg3 harg3 arg4 harg4 arg5 harg5 arg6 harg6 arg7 harg7 arg8 harg8 arg9 harg9 arg10 harg10 hc0 hc1 x0 x1 x2 x3 x4 x5 xs = k0_pay1 (k0_pay3 x0 x1 x2) x3 x4 xs := by
  unfold sout0_C
  rw [View.read_writes_eq_canon _ _ _ (scover0_C c i arg2 harg2 arg3 harg3 arg4 harg4 arg5 harg5 arg6 harg6 arg7 harg7 arg8 harg8 arg9 harg9 arg10 harg10 hc0 hc1 x0 x1 x2 x3 x4 x5 xs)]
  unfold kernelRun0_C
  dsimp only
  sl_unfold_words
  rw [View.canon_unit_zero hz0]
  simp only [View.readAt_eq_ld, harg2.read_unread, harg3.read_unread, harg4.read_unread, harg5.read_unread, harg6.read_unread, harg7.read_unread, harg10.read_unread, View.ld_unit_zero (S := S1024x3072) hz0, View.ld_unit_zero (S := S128x3072) hz0, View.ld_unit_zero (S := S1x128) hz0, View.ld_unit_zero (S := S128x128) hz0, View.ld_unit_zero (S := S1024x128) hz0]

theorem out0_7_C_eq (c : Dev nD) (i : grid0.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond0_0 i) (hc1 : cond0_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    out0_7_C c i arg2 harg2 arg3 harg3 arg4 harg4 arg5 harg5 arg6 harg6 arg7 harg7 arg8 harg8 arg9 harg9 arg10 harg10 hc0 hc1 x0 x1 x2 x3 x4 x5 xs = k0_pay1 (k0_pay3 x0 x1 x2) x3 x4 xs := by
  unfold out0_7_C
  rw [View.read_writes_eq_canon _ _ _ (cover0_7_C c i arg2 harg2 arg3 harg3 arg4 harg4 arg5 harg5 arg6 harg6 arg7 harg7 arg8 harg8 arg9 harg9 arg10 harg10 hc0 hc1 x0 x1 x2 x3 x4 x5 xs)]
  unfold kernelRun0_C
  dsimp only
  sl_unfold_words
  rw [View.canon_unit_zero hz0, View.readCov_unit_zero (S := S1024x128) _ hz0]
  simp only [View.readAt_eq_ld, harg2.read_unread, harg3.read_unread, harg4.read_unread, harg5.read_unread, harg6.read_unread, harg7.read_unread, harg10.read_unread, View.ld_unit_zero (S := S1024x3072) hz0, View.ld_unit_zero (S := S128x3072) hz0, View.ld_unit_zero (S := S1x128) hz0, View.ld_unit_zero (S := S128x128) hz0, View.ld_unit_zero (S := S1024x128) hz0]

section
variable (V : (c : Dev nD) → (b : Ref sig .tc) → Buf (Elt F) ((c : Thread nD τ).loc b))

/-- At j = 0 the accumulator is the seed block updated by the point's tile. -/
theorem step0_A (c : Dev nD) (t : Fin cfg0.N) (h0 : t.val % 16 = 0) (h1 : ¬t.val % 16 = 15) :
    (outsAt0 V c t.val t.isLt).2.2 = k0_pay1 (k0_pay3 (iblk0 V c 0 t) (iblk0 V c 1 t) (iblk0 V c 2 t)) (iblk0 V c 3 t) (iblk0 V c 4 t) (k0_pay2 (iblk0 V c 5 t)) := by
  rw [outsAt0_A V c t h0 h1, sout0_A_eq]

/-- At 0 < j < 15 it is what the point before left, updated by the point's tile. -/
theorem step0_B (c : Dev nD) (t : Fin cfg0.N) (h0 : ¬t.val % 16 = 0) (h1 : ¬t.val % 16 = 15) :
    (outsAt0 V c t.val t.isLt).2.2 = k0_pay1 (k0_pay3 (iblk0 V c 0 t) (iblk0 V c 1 t) (iblk0 V c 2 t)) (iblk0 V c 3 t) (iblk0 V c 4 t) (outsAt0 V c (t.val - 1) (Nat.lt_of_le_of_lt (Nat.sub_le _ _) t.isLt)).2.2 := by
  rw [outsAt0_B V c t h0 h1, sout0_B_eq]

/-- And at j = 15. -/
theorem step0_C (c : Dev nD) (t : Fin cfg0.N) (h0 : ¬t.val % 16 = 0) (h1 : t.val % 16 = 15) :
    (outsAt0 V c t.val t.isLt).2.2 = k0_pay1 (k0_pay3 (iblk0 V c 0 t) (iblk0 V c 1 t) (iblk0 V c 2 t)) (iblk0 V c 3 t) (iblk0 V c 4 t) (outsAt0 V c (t.val - 1) (Nat.lt_of_le_of_lt (Nat.sub_le _ _) t.isLt)).2.2 := by
  rw [outsAt0_C V c t h0 h1, sout0_C_eq]

/-- The clause-output buffer after any point: the clause tile of the point's blocks. -/
theorem outsAt0_clause (c : Dev nD) (t : Fin cfg0.N) :
    (outsAt0 V c t.val t.isLt).1 = k0_pay3 (iblk0 V c 0 t) (iblk0 V c 1 t) (iblk0 V c 2 t) := by
  by_cases h0 : t.val % 16 = 0
  · have h1 : ¬t.val % 16 = 15 := by omega
    rw [outsAt0_A V c t h0 h1, out0_6_A_eq]
  · by_cases h1 : t.val % 16 = 15
    · rw [outsAt0_C V c t h0 h1, out0_6_C_eq]
    · rw [outsAt0_B V c t h0 h1, out0_6_B_eq]

/-- At j = 15 the class-score buffer holds the accumulator. -/
theorem outsAt0_scores (c : Dev nD) (t : Fin cfg0.N) (h1 : t.val % 16 = 15) :
    (outsAt0 V c t.val t.isLt).2.1 = (outsAt0 V c t.val t.isLt).2.2 := by
  have h0 : ¬t.val % 16 = 0 := by omega
  rw [outsAt0_C V c t h0 h1, out0_7_C_eq, sout0_C_eq]

end

end Cert.KernelIdeal.Hand

end
-- ==== Proof.Spec.lean ====
/-
  What both programs compute, as one function of the seven argument arrays on the extended reals.

  Write x for the batch of feature vectors (2048 x 3072), and for each of the two banks of clauses (2048 clauses
  each) a table of literals `ta` and a table of negated literals `tai` (2048 x 3072 each). A table entry passes
  through the clipped logistic `gate t = min 1 (max 0 (1 / (1 + e^(-t))))`. A clause's score on a sample is

      score b c = (sum_f (1 - x[b,f]) * gate ta[c,f]  +  sum_f x[b,f] * gate tai[c,f]) * s

  with s the single-precision word nearest 1/768, and its output is `exp (-(min 10 (max 0 (score b c))))`.
  The clause outputs of the first bank fill columns 0..2047 of the result, those of the second columns 2048..4095.
  The class scores are the clause outputs, each plus its bias, weighted by the voting matrix and summed over all
  4096 clauses; the sum is taken bank by bank and, inside a bank, in sixteen groups of 128 consecutive clauses.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An array of extended reals over a literal two-axis shape. -/
abbrev Arr2 (a b : Nat) : Type := (⟨2, ![a, b]⟩ : Shape).Idx → EReal
/-- An array of extended reals over a literal one-axis shape. -/
abbrev Arr1 (a : Nat) : Type := (⟨1, ![a]⟩ : Shape).Idx → EReal

/-- The single-precision word of 1.0 denotes 1. -/
theorem one_f32 : Ideal.ofBits .f32 0x3F800000#32 = 1 := by
  simp [Ideal.ofBits, Ideal.ieee, -EReal.coe_mul]; norm_num

/-- The bfloat16 word of 1.0 denotes 1. -/
theorem one_bf16 : Ideal.ofBits .bf16 0x3F80#16 = 1 := by
  simp [Ideal.ofBits, Ideal.ieee, -EReal.coe_mul]; norm_num

/-- The scale: the single-precision word nearest 1/768, the same word in both programs (never evaluated). -/
abbrev scaleW : EReal := Ideal.ofBits .f32 0x3AAAAAAB#32
/-- The upper clip bound 10.0 of a score, the same word in both programs (never evaluated). -/
abbrev tenW : EReal := Ideal.ofBits .f32 0x41200000#32

/-- The clipped logistic of a table entry. -/
def gate (t : EReal) : EReal := min 1 (max 0 (Ideal.logistic t))

/-- A clause's score on a sample: the literal part against `1 - x`, the negated part against `x`, scaled. -/
def score (x : Arr2 2048 3072) (ta tai : Arr2 2048 3072) (b : Fin 2048) (c : Fin 2048) : EReal :=
  ((∑ f : Fin 3072, (1 - x (ix2 b f)) * gate (ta (ix2 c f)))
    + ∑ f : Fin 3072, x (ix2 b f) * gate (tai (ix2 c f))) * scaleW

/-- A clause's output on a sample, within one bank. -/
def clauseHalf (x : Arr2 2048 3072) (ta tai : Arr2 2048 3072) (b : Fin 2048) (c : Fin 2048) : EReal :=
  Ideal.exp (-(min tenW (max 0 (score x ta tai b c))))

/-- Clause `c'` of group `j` within a bank. -/
def cidx (j : Fin 16) (c' : Fin 128) : Fin 2048 := ⟨128 * j.val + c'.val, by omega⟩

/-- Clause `c` of the first bank among all 4096. -/
def lo (c : Fin 2048) : Fin 4096 := ⟨c.val, by omega⟩
/-- Clause `c` of the second bank among all 4096. -/
def hi (c : Fin 2048) : Fin 4096 := ⟨2048 + c.val, by omega⟩

/-- One group's contribution to a class score: 128 clauses of a bank, each output plus its bias, weighted.
    `pos` places the bank's clause among all 4096 (`lo` or `hi`). -/
def group (x : Arr2 2048 3072) (ta tai : Arr2 2048 3072) (bias : Arr1 4096) (vot : Arr2 4096 100)
    (pos : Fin 2048 → Fin 4096) (b : Fin 2048) (k : Fin 100) (j : Fin 16) : EReal :=
  ∑ c' : Fin 128, (clauseHalf x ta tai b (cidx j c') + bias (ix1 (pos (cidx j c')))) * vot (ix2 (pos (cidx j c')) k)

/-- The clause outputs, all 4096 columns. -/
def clause (x tap tan tapi tani : Arr2 2048 3072) : Arr2 2048 4096 := fun i =>
  if h : (i 1).val < 2048 then clauseHalf x tap tapi ⟨(i 0).val, (i 0).isLt⟩ ⟨(i 1).val, h⟩
  else clauseHalf x tan tani ⟨(i 0).val, (i 0).isLt⟩ ⟨(i 1).val - 2048, by have := (i 1).isLt; simp only [Matrix.cons_val_one, Matrix.cons_val_zero] at this; omega⟩

/-- The class scores: first bank's sixteen groups, then the second bank's. -/
def logits (x tap tan tapi tani : Arr2 2048 3072) (bias : Arr1 4096) (vot : Arr2 4096 100) : Arr2 2048 100 := fun i =>
  (∑ j : Fin 16, group x tap tapi bias vot lo ⟨(i 0).val, (i 0).isLt⟩ ⟨(i 1).val, (i 1).isLt⟩ j)
    + ∑ j : Fin 16, group x tan tani bias vot hi ⟨(i 0).val, (i 0).isLt⟩ ⟨(i 1).val, (i 1).isLt⟩ j

end Cert.Spec

end
-- ==== Proof.GridIdx.lean ====
/-
  Where a block's entry sits in its array: grid point n = 16 * i + j (n < 32) reads the batch half i and the group j of
  128 clauses; local row r of half i is sample 1024 * i + r, local clause q of group j is clause 128 * j + q of its bank.
-/
import proofs.«152184_j30227979829789_2_alg».proof.Proof.Spec

noncomputable section

namespace Cert.Spec

/-- Sample `r` of the batch half that grid point `n` works on. -/
def rowOf (n : ℕ) (hn : n < 32) (r : Fin 1024) : Fin 2048 := ⟨1024 * (n / 16) + r.val, by omega⟩
/-- The group of clauses grid point `n` works on. -/
def grp (n : ℕ) : Fin 16 := ⟨n % 16, Nat.mod_lt _ (by decide)⟩
/-- Clause `q` of that group, within its bank. -/
def colOf (n : ℕ) (q : Fin 128) : Fin 2048 := cidx (grp n) q

theorem rowOf_val (n : ℕ) (hn : n < 32) (r : Fin 1024) : (rowOf n hn r).val = 1024 * (n / 16) + r.val := rfl
theorem colOf_val (n : ℕ) (q : Fin 128) : (colOf n q).val = 128 * (n % 16) + q.val := rfl

end Cert.Spec

end
-- ==== Proof.KiR0Blk.lean ====
/-
  Region 0: a window's block at a grid point, read at a local index, is its array read at the global index — the
  block index times the block size plus the local coordinate, along each axis. The block indices are decided over the grid.
-/
import proofs.«152184_j30227979829789_2_alg».proof.Proof.KiR0Kit
import proofs.«152184_j30227979829789_2_alg».proof.Proof.GridIdx
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Spec

theorem hN0 (t : Fin cfg0.N) : t.val < 32 := lt_of_lt_of_eq t.isLt (show cfg0.N = 32 from N_0)
theorem idx0_0 : ∀ t : Fin cfg0.N, win0_0.index t 0 = t.val / 16 ∧ win0_0.index t 1 = 0 :=
  (by decide +kernel : ∀ t : Fin grid0.N, win0_0.index t 0 = t.val / 16 ∧ win0_0.index t 1 = 0)
theorem idx0_1 : ∀ t : Fin cfg0.N, win0_1.index t 0 = t.val % 16 ∧ win0_1.index t 1 = 0 :=
  (by decide +kernel : ∀ t : Fin grid0.N, win0_1.index t 0 = t.val % 16 ∧ win0_1.index t 1 = 0)
theorem idx0_2 : ∀ t : Fin cfg0.N, win0_2.index t 0 = t.val % 16 ∧ win0_2.index t 1 = 0 :=
  (by decide +kernel : ∀ t : Fin grid0.N, win0_2.index t 0 = t.val % 16 ∧ win0_2.index t 1 = 0)
theorem idx0_3 : ∀ t : Fin cfg0.N, win0_3.index t 0 = 0 ∧ win0_3.index t 1 = t.val % 16 :=
  (by decide +kernel : ∀ t : Fin grid0.N, win0_3.index t 0 = 0 ∧ win0_3.index t 1 = t.val % 16)
theorem idx0_4 : ∀ t : Fin cfg0.N, win0_4.index t 0 = t.val % 16 ∧ win0_4.index t 1 = 0 :=
  (by decide +kernel : ∀ t : Fin grid0.N, win0_4.index t 0 = t.val % 16 ∧ win0_4.index t 1 = 0)
theorem idx0_5 : ∀ t : Fin cfg0.N, win0_5.index t 0 = t.val / 16 ∧ win0_5.index t 1 = 0 :=
  (by decide +kernel : ∀ t : Fin grid0.N, win0_5.index t 0 = t.val / 16 ∧ win0_5.index t 1 = 0)
theorem idx0_6 : ∀ t : Fin cfg0.N, win0_6.index t 0 = t.val / 16 ∧ win0_6.index t 1 = t.val % 16 :=
  (by decide +kernel : ∀ t : Fin grid0.N, win0_6.index t 0 = t.val / 16 ∧ win0_6.index t 1 = t.val % 16)
theorem idx0_7 : ∀ t : Fin cfg0.N, win0_7.index t 0 = t.val / 16 ∧ win0_7.index t 1 = 0 :=
  (by decide +kernel : ∀ t : Fin grid0.N, win0_7.index t 0 = t.val / 16 ∧ win0_7.index t 1 = 0)

section
variable (V : (c : Dev nD) → (b : Ref sig .tc) → Buf (Elt F) ((c : Thread nD τ).loc b))

theorem iblk0_0_apply (c : Dev nD) (t : Fin cfg0.N) (a : Fin 1024) (b : Fin 3072) :
    iblk0 V c 0 t (ix2 a b) = V c main_v0 (ix2 (rowOf t.val (hN0 t) a) b) := by
  unfold iblk0
  rw [View.read_apply]
  show V c main_v0 _ = V c main_v0 _
  refine congrArg _ ?_
  funext d
  apply Fin.ext
  match d with
  | ⟨0, _⟩ => show win0_0.index t 0 * 1024 + 1 * a.val = 1024 * (t.val / 16) + a.val; rw [(idx0_0 t).1]; omega
  | ⟨1, _⟩ => show win0_0.index t 1 * 3072 + 1 * b.val = b.val; rw [(idx0_0 t).2]; omega

theorem iblk0_1_apply (c : Dev nD) (t : Fin cfg0.N) (a : Fin 128) (b : Fin 3072) :
    iblk0 V c 1 t (ix2 a b) = V c main_arg1 (ix2 (colOf t.val a) b) := by
  unfold iblk0
  rw [View.read_apply]
  show V c main_arg1 _ = V c main_arg1 _
  refine congrArg _ ?_
  funext d
  apply Fin.ext
  match d with
  | ⟨0, _⟩ => show win0_1.index t 0 * 128 + 1 * a.val = 128 * (t.val % 16) + a.val; rw [(idx0_1 t).1]; omega
  | ⟨1, _⟩ => show win0_1.index t 1 * 3072 + 1 * b.val = b.val; rw [(idx0_1 t).2]; omega

theorem iblk0_2_apply (c : Dev nD) (t : Fin cfg0.N) (a : Fin 128) (b : Fin 3072) :
    iblk0 V c 2 t (ix2 a b) = V c main_arg3 (ix2 (colOf t.val a) b) := by
  unfold iblk0
  rw [View.read_apply]
  show V c main_arg3 _ = V c main_arg3 _
  refine congrArg _ ?_
  funext d
  apply Fin.ext
  match d with
  | ⟨0, _⟩ => show win0_2.index t 0 * 128 + 1 * a.val = 128 * (t.val % 16) + a.val; rw [(idx0_2 t).1]; omega
  | ⟨1, _⟩ => show win0_2.index t 1 * 3072 + 1 * b.val = b.val; rw [(idx0_2 t).2]; omega

theorem iblk0_3_apply (c : Dev nD) (t : Fin cfg0.N) (a : Fin 1) (b : Fin 128) :
    iblk0 V c 3 t (ix2 a b) = V c main_v2 (ix2 a (colOf t.val b)) := by
  unfold iblk0
  rw [View.read_apply]
  show V c main_v2 _ = V c main_v2 _
  refine congrArg _ ?_
  funext d
  apply Fin.ext
  match d with
  | ⟨0, _⟩ => show win0_3.index t 0 * 1 + 1 * a.val = a.val; rw [(idx0_3 t).1]; omega
  | ⟨1, _⟩ => show win0_3.index t 1 * 128 + 1 * b.val = 128 * (t.val % 16) + b.val; rw [(idx0_3 t).2]; omega

theorem iblk0_4_apply (c : Dev nD) (t : Fin cfg0.N) (a : Fin 128) (b : Fin 128) :
    iblk0 V c 4 t (ix2 a b) = V c main_v6 (ix2 (colOf t.val a) b) := by
  unfold iblk0
  rw [View.read_apply]
  show V c main_v6 _ = V c main_v6 _
  refine congrArg _ ?_
  funext d
  apply Fin.ext
  match d with
  | ⟨0, _⟩ => show win0_4.index t 0 * 128 + 1 * a.val = 128 * (t.val % 16) + a.val; rw [(idx0_4 t).1]; omega
  | ⟨1, _⟩ => show win0_4.index t 1 * 128 + 1 * b.val = b.val; rw [(idx0_4 t).2]; omega

theorem iblk0_5_apply (c : Dev nD) (t : Fin cfg0.N) (a : Fin 1024) (b : Fin 128) :
    iblk0 V c 5 t (ix2 a b) = V c main_v9 (ix2 (rowOf t.val (hN0 t) a) b) := by
  unfold iblk0
  rw [View.read_apply]
  show V c main_v9 _ = V c main_v9 _
  refine congrArg _ ?_
  funext d
  apply Fin.ext
  match d with
  | ⟨0, _⟩ => show win0_5.index t 0 * 1024 + 1 * a.val = 1024 * (t.val / 16) + a.val; rw [(idx0_5 t).1]; omega
  | ⟨1, _⟩ => show win0_5.index t 1 * 128 + 1 * b.val = b.val; rw [(idx0_5 t).2]; omega

end

end Cert.KernelIdeal.Hand

end
-- ==== Proof.PayValue.lean ====
/-
  The body's payloads read at an entry, over the extended reals.

  Each payload of the two launches is a tile computed from the tiles read before it. Read at an entry (r, q) it is a
  closed expression in the operands' entries: a matrix product into the zero accumulator is the sum over the inner
  position of the products of a row's and a column's entries; a transpose swaps the two coordinates; a one-row array
  repeated over the rows reads its one row; a format change and a cast of a tile to its own shape change nothing;
  every other operation acts entry by entry.
-/
import proofs.«152184_j30227979829789_2_alg».proof.Proof.Gen.KernelIdeal.Skeleton
import proofs.«152184_j30227979829789_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Idealize.ShloMosaic Idealize.ShloMosaic.ValueIdx Cert.KernelIdeal Cert.KernelIdeal.Gen Cert.Spec

/-! ## A product of matrices into the zero accumulator, read at an entry -/

/-- On the rows' axis the left operand's index of a product's entry is the entry's row. -/
theorem matmul_wide_lhs0 (i : S1024x128.Idx) (c : dot_S1024x3072_S3072x128_S1024x128_1_0_0_1_n_n.contr.Idx) :
    (dot_S1024x3072_S3072x128_S1024x128_1_0_0_1_n_n.lhsIdx i c 0).val = (i 0).val := by
  unfold DotDims.lhsIdx
  rw [dif_neg (show ¬(0 : Fin S1024x3072.rank) ∈ dot_S1024x3072_S3072x128_S1024x128_1_0_0_1_n_n.lhsBatch by decide),
    dif_pos (show (0 : Fin S1024x3072.rank) ∈ dot_S1024x3072_S3072x128_S1024x128_1_0_0_1_n_n.lhsNonContracting by decide)]
  rfl
/-- On its inner axis it is the inner position. -/
theorem matmul_wide_lhs1 (i : S1024x128.Idx) (c : dot_S1024x3072_S3072x128_S1024x128_1_0_0_1_n_n.contr.Idx) :
    (dot_S1024x3072_S3072x128_S1024x128_1_0_0_1_n_n.lhsIdx i c 1).val = (c ⟨0, by decide⟩).val :=
  dot_S1024x3072_S3072x128_S1024x128_1_0_0_1_n_n.lhsIdx_val_of_single rfl i c
/-- On its inner axis the right operand's index is the inner position. -/
theorem matmul_wide_rhs0 (i : S1024x128.Idx) (c : dot_S1024x3072_S3072x128_S1024x128_1_0_0_1_n_n.contr.Idx) :
    (dot_S1024x3072_S3072x128_S1024x128_1_0_0_1_n_n.rhsIdx i c 0).val = (c ⟨0, by decide⟩).val :=
  dot_S1024x3072_S3072x128_S1024x128_1_0_0_1_n_n.rhsIdx_val_of_single rfl i c
/-- On the columns' axis it is the entry's column. -/
theorem matmul_wide_rhs1 (i : S1024x128.Idx) (c : dot_S1024x3072_S3072x128_S1024x128_1_0_0_1_n_n.contr.Idx) :
    (dot_S1024x3072_S3072x128_S1024x128_1_0_0_1_n_n.rhsIdx i c 1).val = (i 1).val := by
  unfold DotDims.rhsIdx
  rw [dif_neg (show ¬(1 : Fin S3072x128.rank) ∈ dot_S1024x3072_S3072x128_S1024x128_1_0_0_1_n_n.rhsBatch by decide),
    dif_pos (show (1 : Fin S3072x128.rank) ∈ dot_S1024x3072_S3072x128_S1024x128_1_0_0_1_n_n.rhsNonContracting by decide)]
  rfl

/-- Entry (r, q) of a 1024 x 3072 matrix times a 3072 x 128 matrix, accumulated from zero, is the sum over the 3072 inner
    positions of the products of row r of the left factor with column q of the right factor. -/
theorem matmul_wide_apply {φ₁ φ₂ : FTy} (A : FVec Ideal S1024x3072 φ₁) (B : FVec Ideal S3072x128 φ₂) (r : Fin 1024) (q : Fin 128) :
    matmul dot_S1024x3072_S3072x128_S1024x128_1_0_0_1_n_n none A B (constant (F := Ideal) S1024x128 .f32 0x00000000#32) (ix2 r q)
      = ∑ f : Fin 3072, A (ix2 r f) * B (ix2 f q) := by
  refine (Ideal.matmul_constant_zero_apply dot_S1024x3072_S3072x128_S1024x128_1_0_0_1_n_n none A B (ix2 r q)).trans ?_
  rw [← Equiv.sum_comp (contrEquiv1 dot_S1024x3072_S3072x128_S1024x128_1_0_0_1_n_n 3072 rfl rfl).symm]
  refine Finset.sum_congr rfl fun f _ => ?_
  have hf := contrEquiv1_symm_val dot_S1024x3072_S3072x128_S1024x128_1_0_0_1_n_n 3072 rfl rfl f
  have el : dot_S1024x3072_S3072x128_S1024x128_1_0_0_1_n_n.lhsIdx (ix2 r q) ((contrEquiv1 dot_S1024x3072_S3072x128_S1024x128_1_0_0_1_n_n 3072 rfl rfl).symm f) = ix2 r f :=
    funext fun a => Fin.ext (by
      match a with
      | ⟨0, _⟩ => exact matmul_wide_lhs0 _ _
      | ⟨1, _⟩ => exact (matmul_wide_lhs1 _ _).trans hf)
  have er : dot_S1024x3072_S3072x128_S1024x128_1_0_0_1_n_n.rhsIdx (ix2 r q) ((contrEquiv1 dot_S1024x3072_S3072x128_S1024x128_1_0_0_1_n_n 3072 rfl rfl).symm f) = ix2 f q :=
    funext fun a => Fin.ext (by
      match a with
      | ⟨0, _⟩ => exact (matmul_wide_rhs0 _ _).trans hf
      | ⟨1, _⟩ => exact matmul_wide_rhs1 _ _)
  rw [el, er]

/-- On the rows' axis the left operand's index of a product's entry is the entry's row. -/
theorem matmul_square_lhs0 (i : S1024x128.Idx) (c : dot_S1024x128_S128x128_S1024x128_1_0_0_1_n_n.contr.Idx) :
    (dot_S1024x128_S128x128_S1024x128_1_0_0_1_n_n.lhsIdx i c 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
/-- On its inner axis it is the inner position. -/
theorem matmul_square_lhs1 (i : S1024x128.Idx) (c : dot_S1024x128_S128x128_S1024x128_1_0_0_1_n_n.contr.Idx) :
    (dot_S1024x128_S128x128_S1024x128_1_0_0_1_n_n.lhsIdx i c 1).val = (c ⟨0, by decide⟩).val :=
  dot_S1024x128_S128x128_S1024x128_1_0_0_1_n_n.lhsIdx_val_of_single rfl i c
/-- On its inner axis the right operand's index is the inner position. -/
theorem matmul_square_rhs0 (i : S1024x128.Idx) (c : dot_S1024x128_S128x128_S1024x128_1_0_0_1_n_n.contr.Idx) :
    (dot_S1024x128_S128x128_S1024x128_1_0_0_1_n_n.rhsIdx i c 0).val = (c ⟨0, by decide⟩).val :=
  dot_S1024x128_S128x128_S1024x128_1_0_0_1_n_n.rhsIdx_val_of_single rfl i c
/-- On the columns' axis it is the entry's column. -/
theorem matmul_square_rhs1 (i : S1024x128.Idx) (c : dot_S1024x128_S128x128_S1024x128_1_0_0_1_n_n.contr.Idx) :
    (dot_S1024x128_S128x128_S1024x128_1_0_0_1_n_n.rhsIdx i c 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl

/-- Entry (r, k) of a 1024 x 128 matrix times a 128 x 128 matrix, accumulated from zero, is the sum over the 128 inner
    positions of the products of row r of the left factor with column k of the right factor. -/
theorem matmul_square_apply {φ₁ φ₂ : FTy} (A : FVec Ideal S1024x128 φ₁) (B : FVec Ideal S128x128 φ₂) (r : Fin 1024) (q : Fin 128) :
    matmul dot_S1024x128_S128x128_S1024x128_1_0_0_1_n_n none A B (constant (F := Ideal) S1024x128 .f32 0x00000000#32) (ix2 r q)
      = ∑ f : Fin 128, A (ix2 r f) * B (ix2 f q) := by
  refine (Ideal.matmul_constant_zero_apply dot_S1024x128_S128x128_S1024x128_1_0_0_1_n_n none A B (ix2 r q)).trans ?_
  rw [← Equiv.sum_comp (contrEquiv1 dot_S1024x128_S128x128_S1024x128_1_0_0_1_n_n 128 rfl rfl).symm]
  refine Finset.sum_congr rfl fun f _ => ?_
  have hf := contrEquiv1_symm_val dot_S1024x128_S128x128_S1024x128_1_0_0_1_n_n 128 rfl rfl f
  have el : dot_S1024x128_S128x128_S1024x128_1_0_0_1_n_n.lhsIdx (ix2 r q) ((contrEquiv1 dot_S1024x128_S128x128_S1024x128_1_0_0_1_n_n 128 rfl rfl).symm f) = ix2 r f :=
    funext fun a => Fin.ext (by
      match a with
      | ⟨0, _⟩ => exact matmul_square_lhs0 _ _
      | ⟨1, _⟩ => exact (matmul_square_lhs1 _ _).trans hf)
  have er : dot_S1024x128_S128x128_S1024x128_1_0_0_1_n_n.rhsIdx (ix2 r q) ((contrEquiv1 dot_S1024x128_S128x128_S1024x128_1_0_0_1_n_n 128 rfl rfl).symm f) = ix2 f q :=
    funext fun a => Fin.ext (by
      match a with
      | ⟨0, _⟩ => exact (matmul_square_rhs0 _ _).trans hf
      | ⟨1, _⟩ => exact matmul_square_rhs1 _ _)
  rw [el, er]

/-! ## Two pointwise operations read at an entry -/

/-- The exponential of a tile, at an entry, is the exponential of the entry. -/
theorem exp_apply {s : Shape} {φ : FTy} (a : FVec Ideal s φ) (i : s.Idx) : exp a i = Ideal.exp (a i) := rfl
/-- The logistic function of a tile, at an entry, is the logistic function of the entry. -/
theorem logistic_apply {s : Shape} {φ : FTy} (a : FVec Ideal s φ) (i : s.Idx) : logistic a i = Ideal.logistic (a i) := rfl
/-- Zero minus an extended real is its negation. -/
theorem zero_sub_ereal (y : EReal) : (0 : EReal) - y = -y := by rw [sub_eq_add_neg, zero_add]

/-! ## The gated table, transposed -/

/-- Entry (f, q) of the transpose of a 128 x 3072 table passed through the logistic function and clipped to [0, 1]
    is the gate of the table's entry (q, f). -/
theorem gateT_apply (x : Vec Ideal S128x3072 .f32) (f : Fin 3072) (q : Fin 128) :
    transpose S3072x128 [1, 0]
        (truncf .bf16
          (minimumf (broadcast S128x3072 (FloatOps.ofBits (F := Ideal) .f32 0x3F800000#32))
            (maximumf (broadcast S128x3072 (FloatOps.ofBits (F := Ideal) .f32 0x00000000#32)) (logistic x)))
          bitsLt_bf16_f32)
        transposes_S128x3072_p1_0_S3072x128 (ix2 f q)
      = gate (x (ix2 q f)) := by
  refine (transpose_ix2_apply _ transposes_S128x3072_p1_0_S3072x128 f q).trans ?_
  show min (Ideal.ofBits .f32 0x3F800000#32) (max (Ideal.ofBits .f32 0x00000000#32) (Ideal.logistic (x (ix2 q f)))) = gate (x (ix2 q f))
  rw [one_f32, Ideal.ofBits_zero_f32]
  rfl

/-! ## The first launch's payloads -/

/-- Entry (r, q) of the first payload of the body: the exponential of minus the clipped value
    min 10 (max 0 ((sum_f (1 - x0[r,f]) * gate x1[q,f] + sum_f x0[r,f] * gate x2[q,f]) * s)), s the scale word; the two
    sums are the two matrix products against the transposed gated tables, and the literal words of one and zero are
    replaced by the numbers they denote. -/
theorem pay3_apply (x0 : Vec Ideal S1024x3072 .bf16) (x1 x2 : Vec Ideal S128x3072 .f32) (r : Fin 1024) (q : Fin 128) :
    k0_pay3 (F := Ideal) x0 x1 x2 (ix2 r q)
      = Ideal.exp (-(min tenW (max 0 (((∑ f : Fin 3072, (1 - x0 (ix2 r f)) * gate (x1 (ix2 q f)))
          + ∑ f : Fin 3072, x0 (ix2 r f) * gate (x2 (ix2 q f))) * scaleW)))) := by
  unfold k0_pay3
  simp only [shapeCast_self]
  simp only [exp_apply, subf_apply, minimumf_apply, maximumf_apply, mulf_apply, addf_apply, broadcast_apply,
    matmul_wide_apply]
  refine (congrArg (fun S : EReal => Ideal.exp (Ideal.ofBits .f32 0x00000000#32
      - min tenW (max (Ideal.ofBits .f32 0x00000000#32) (S * scaleW))))
    (congrArg₂ (· + ·)
      (Finset.sum_congr rfl fun f _ => congrArg₂ (· * ·) (congrArg (· - x0 (ix2 r f)) one_bf16) (gateT_apply x1 f q))
      (Finset.sum_congr rfl fun f _ => congrArg (x0 (ix2 r f) * ·) (gateT_apply x2 f q)))).trans ?_
  show Ideal.exp (Ideal.ofBits .f32 0x00000000#32 - _) = _
  rw [Ideal.ofBits_zero_f32, zero_sub_ereal]

/-- Entry (r, k) of the second payload: v44[r,k] + sum_{c'} (v34[r,c'] + v36[0,c']) * v41[c',k], the one-row array
    v36 being repeated over the rows before the matrix product. -/
theorem pay1_apply (v34 : FVec Ideal S1024x128 .f32) (v36 : Vec Ideal S1x128 .f32) (v41 : Vec Ideal S128x128 .f32)
    (v44 : Vec Ideal S1024x128 .f32) (r : Fin 1024) (k : Fin 128) :
    k0_pay1 (F := Ideal) v34 v36 v41 v44 (ix2 r k)
      = v44 (ix2 r k) + ∑ c' : Fin 128, (v34 (ix2 r c') + v36 (ix2 (0 : Fin 1) c')) * v41 (ix2 c' k) := by
  unfold k0_pay1
  simp only [shapeCast_self]
  refine (addf_apply _ _ _).trans ?_
  refine congrArg (v44 (ix2 r k) + ·) ?_
  refine (matmul_square_apply _ _ r k).trans ?_
  refine Finset.sum_congr rfl fun c' _ => ?_
  show (v34 (ix2 r c') + broadcastTo S1024x128 v36 broadcasts_S1x128_S1024x128 (ix2 r c')) * v41 (ix2 c' k) = _
  rw [broadcastTo_1b_ab_apply]

/-- The payload that is two casts of a tile to its own shape is the tile. -/
theorem pay2_eq (v53 : Vec Ideal S1024x128 .f32) : k0_pay2 (F := Ideal) v53 = v53 := by
  unfold k0_pay2
  exact (shapeCast_self _ _).trans (shapeCast_self _ _)

/-! ## The second launch's payloads: the same text -/

/-- Entry (r, q) of the first payload of the body: the exponential of minus the clipped value
    min 10 (max 0 ((sum_f (1 - x0[r,f]) * gate x1[q,f] + sum_f x0[r,f] * gate x2[q,f]) * s)), s the scale word; the two
    sums are the two matrix products against the transposed gated tables, and the literal words of one and zero are
    replaced by the numbers they denote. -/
theorem pay3_apply' (x0 : Vec Ideal S1024x3072 .bf16) (x1 x2 : Vec Ideal S128x3072 .f32) (r : Fin 1024) (q : Fin 128) :
    k1_pay3 (F := Ideal) x0 x1 x2 (ix2 r q)
      = Ideal.exp (-(min tenW (max 0 (((∑ f : Fin 3072, (1 - x0 (ix2 r f)) * gate (x1 (ix2 q f)))
          + ∑ f : Fin 3072, x0 (ix2 r f) * gate (x2 (ix2 q f))) * scaleW)))) := by
  unfold k1_pay3
  simp only [shapeCast_self]
  simp only [exp_apply, subf_apply, minimumf_apply, maximumf_apply, mulf_apply, addf_apply, broadcast_apply,
    matmul_wide_apply]
  refine (congrArg (fun S : EReal => Ideal.exp (Ideal.ofBits .f32 0x00000000#32
      - min tenW (max (Ideal.ofBits .f32 0x00000000#32) (S * scaleW))))
    (congrArg₂ (· + ·)
      (Finset.sum_congr rfl fun f _ => congrArg₂ (· * ·) (congrArg (· - x0 (ix2 r f)) one_bf16) (gateT_apply x1 f q))
      (Finset.sum_congr rfl fun f _ => congrArg (x0 (ix2 r f) * ·) (gateT_apply x2 f q)))).trans ?_
  show Ideal.exp (Ideal.ofBits .f32 0x00000000#32 - _) = _
  rw [Ideal.ofBits_zero_f32, zero_sub_ereal]

/-- Entry (r, k) of the second payload: v44[r,k] + sum_{c'} (v34[r,c'] + v36[0,c']) * v41[c',k], the one-row array
    v36 being repeated over the rows before the matrix product. -/
theorem pay1_apply' (v34 : FVec Ideal S1024x128 .f32) (v36 : Vec Ideal S1x128 .f32) (v41 : Vec Ideal S128x128 .f32)
    (v44 : Vec Ideal S1024x128 .f32) (r : Fin 1024) (k : Fin 128) :
    k1_pay1 (F := Ideal) v34 v36 v41 v44 (ix2 r k)
      = v44 (ix2 r k) + ∑ c' : Fin 128, (v34 (ix2 r c') + v36 (ix2 (0 : Fin 1) c')) * v41 (ix2 c' k) := by
  unfold k1_pay1
  simp only [shapeCast_self]
  refine (addf_apply _ _ _).trans ?_
  refine congrArg (v44 (ix2 r k) + ·) ?_
  refine (matmul_square_apply _ _ r k).trans ?_
  refine Finset.sum_congr rfl fun c' _ => ?_
  show (v34 (ix2 r c') + broadcastTo S1024x128 v36 broadcasts_S1x128_S1024x128 (ix2 r c')) * v41 (ix2 c' k) = _
  rw [broadcastTo_1b_ab_apply]

/-- The payload that is two casts of a tile to its own shape is the tile. -/
theorem pay2_eq' (v53 : Vec Ideal S1024x128 .f32) : k1_pay2 (F := Ideal) v53 = v53 := by
  unfold k1_pay2
  exact (shapeCast_self _ _).trans (shapeCast_self _ _)

end Cert.KernelIdeal.PayValue

end
-- ==== Proof.KiR0Arr.lean ====
/-
  Region 0 on the extended reals: its two result arrays as functions of the arrays it finds. A clause tile's entry
  is the bank's clause output on the tile's sample and clause; the accumulator after grid point 16 * i + j holds, at
  local row r and class k, the seed's entry plus the contributions of groups 0..j (by induction on the point: a point
  with j = 0 starts from the seed block, a later one adds its group to what the point before left); so the clause
  array ends as the clause outputs and the class-score array as the seed plus all sixteen groups' contributions.
-/
import proofs.«152184_j30227979829789_2_alg».proof.Proof.KiR0Pieces
import proofs.«152184_j30227979829789_2_alg».proof.Proof.KiR0Blk
import proofs.«152184_j30227979829789_2_alg».proof.Proof.PayValue
import Idealize.ShloMosaic.Lib.Pipeline.Value

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The arrays the region finds: samples, the bank's two tables, its bias row, its padded voting rows, the seed. -/
abbrev aX0 : Arr2 2048 3072 := V c main_v0
abbrev aTA0 : Arr2 2048 3072 := V c main_arg1
abbrev aTAI0 : Arr2 2048 3072 := V c main_arg3
abbrev aBR0 : Arr2 1 2048 := V c main_v2
abbrev aVP0 : Arr2 2048 128 := V c main_v6
abbrev aSD0 : Arr2 2048 128 := V c main_v9

/-- A clause tile's entry is the bank's clause output on the tile's sample and clause. -/
theorem tile0 (t : Fin cfg0.N) (r : Fin 1024) (q : Fin 128) :
    k0_pay3 (F := Ideal) (iblk0 V c 0 t) (iblk0 V c 1 t) (iblk0 V c 2 t) (ix2 r q)
      = clauseHalf (aX0 V c) (aTA0 V c) (aTAI0 V c) (rowOf t.val (hN0 t) r) (colOf t.val q) := by
  refine (PayValue.pay3_apply (iblk0 V c 0 t) (iblk0 V c 1 t) (iblk0 V c 2 t) r q).trans ?_
  unfold clauseHalf score
  simp only [iblk0_0_apply V c t, iblk0_1_apply V c t, iblk0_2_apply V c t]

/-- Group `j`'s contribution to class `k` on sample `b`: its 128 clauses, each output plus its bias, weighted. -/
def grpT0 (b : Fin 2048) (k : Fin 128) (j : ℕ) : EReal :=
  if h : j < 16 then
    ∑ c' : Fin 128, (clauseHalf (aX0 V c) (aTA0 V c) (aTAI0 V c) b (cidx ⟨j, h⟩ c') + aBR0 V c (ix2 (0 : Fin 1) (cidx ⟨j, h⟩ c')))
      * aVP0 V c (ix2 (cidx ⟨j, h⟩ c') k)
  else 0

/-- One update of the accumulator adds the point's group. -/
theorem upd0 (t : Fin cfg0.N) (prev : Vec Ideal S1024x128 .f32) (r : Fin 1024) (k : Fin 128) :
    k0_pay1 (F := Ideal) (k0_pay3 (iblk0 V c 0 t) (iblk0 V c 1 t) (iblk0 V c 2 t)) (iblk0 V c 3 t) (iblk0 V c 4 t) prev (ix2 r k)
      = prev (ix2 r k) + grpT0 V c (rowOf t.val (hN0 t) r) k (t.val % 16) := by
  refine (PayValue.pay1_apply (k0_pay3 (iblk0 V c 0 t) (iblk0 V c 1 t) (iblk0 V c 2 t)) (iblk0 V c 3 t) (iblk0 V c 4 t) prev r k).trans ?_
  unfold grpT0
  rw [dif_pos (Nat.mod_lt _ (by decide))]
  refine congrArg _ (Finset.sum_congr rfl fun c' _ => ?_)
  rw [tile0 V c t r c', iblk0_3_apply V c t, iblk0_4_apply V c t]
  rfl

/-- The accumulator after point `n`, at local row `r` and class `k`: the seed's entry plus groups 0..(n mod 16). -/
theorem acc0_closed : ∀ (n : ℕ) (h : n < cfg0.N) (r : Fin 1024) (k : Fin 128),
    (outsAt0 V c n h).2.2 (ix2 r k) = aSD0 V c (ix2 (rowOf n (hN0 ⟨n, h⟩) r) k)
      + ∑ j ∈ Finset.range (n % 16 + 1), grpT0 V c (rowOf n (hN0 ⟨n, h⟩) r) k j
  | 0, h, r, k => by
    have hs := step0_A V c ⟨0, h⟩ (Nat.zero_mod _) (by show ¬0 % 16 = 15; decide)
    have hs' : (outsAt0 V c 0 h).2.2 = _ := hs
    rw [hs', upd0 V c ⟨0, h⟩ _ r k, PayValue.pay2_eq, iblk0_5_apply V c ⟨0, h⟩]
    show _ + grpT0 V c _ k 0 = _ + ∑ j ∈ Finset.range 1, _
    rw [Finset.sum_range_one]
  | n + 1, h, r, k => by
    have hN : n + 1 < 32 := hN0 ⟨n + 1, h⟩
    by_cases h0 : (n + 1) % 16 = 0
    · have hs' : (outsAt0 V c (n + 1) h).2.2 = _ := step0_A V c ⟨n + 1, h⟩ h0 (by show ¬(n + 1) % 16 = 15; omega)
      rw [hs', upd0 V c ⟨n + 1, h⟩ _ r k, PayValue.pay2_eq, iblk0_5_apply V c ⟨n + 1, h⟩]
      show _ + grpT0 V c _ k ((n + 1) % 16) = _
      rw [h0, Finset.sum_range_one]
    · have hs' : (outsAt0 V c (n + 1) h).2.2
          = k0_pay1 (F := Ideal) (k0_pay3 (iblk0 V c 0 ⟨n + 1, h⟩) (iblk0 V c 1 ⟨n + 1, h⟩) (iblk0 V c 2 ⟨n + 1, h⟩)) (iblk0 V c 3 ⟨n + 1, h⟩) (iblk0 V c 4 ⟨n + 1, h⟩)
              (outsAt0 V c n (Nat.lt_of_succ_lt h)).2.2 := by
        by_cases h1 : (n + 1) % 16 = 15
        · exact step0_C V c ⟨n + 1, h⟩ h0 h1
        · exact step0_B V c ⟨n + 1, h⟩ h0 h1
      rw [hs', upd0 V c ⟨n + 1, h⟩ _ r k, acc0_closed n (Nat.lt_of_succ_lt h) r k]
      have e : rowOf (n + 1) hN r = rowOf n (by omega) r := Fin.ext (by simp only [rowOf_val]; omega)
      have e2 : (n + 1) % 16 = n % 16 + 1 := by omega
      show (_ + _) + grpT0 V c (rowOf (n + 1) hN r) k ((n + 1) % 16) = aSD0 V c (ix2 (rowOf (n + 1) hN r) k) + _
      rw [e, e2, add_assoc]
      conv_rhs => rw [Finset.sum_range_succ]

/-! ## The clause array -/

/-- The region's clause outputs, sample by clause. -/
def G6_0 : Arr2 2048 2048 := fun i =>
  clauseHalf (aX0 V c) (aTA0 V c) (aTAI0 V c) ⟨(i 0).val, (i 0).isLt⟩ ⟨(i 1).val, (i 1).isLt⟩

/-- What point `t` writes back into the clause array is block `t` of the clause outputs. -/
theorem flushed6_0 (t : Fin cfg0.N) :
    (dat0 V c).flushed 6 t = ((cfg0.win 6).blk t).view.read (Elt Ideal) (G6_0 V c) := by
  show (cfg0.win 6).cut (grid0.coords t) ((dat0 V c).after 6 t) = _
  rw [after0_6, outsAt0_clause V c t]
  funext y
  obtain ⟨r, q, rfl⟩ : ∃ (r : Fin 1024) (q : Fin 128), y = ix2 r q := ⟨y 0, y 1, eq_ix2 y⟩
  show k0_pay3 (F := Ideal) _ _ _ (ix2 r q) = G6_0 V c (((cfg0.win 6).blk t).view.emb (ix2 r q))
  rw [tile0 V c t r q]
  unfold G6_0
  have e0 : rowOf t.val (hN0 t) r = ⟨((((cfg0.win 6).blk t).view.emb (ix2 r q)) 0).val, ((((cfg0.win 6).blk t).view.emb (ix2 r q)) 0).isLt⟩ := by
    apply Fin.ext
    show 1024 * (t.val / 16) + r.val = win0_6.index t 0 * 1024 + 1 * r.val
    rw [(idx0_6 t).1]; omega
  have e1 : colOf t.val q = ⟨((((cfg0.win 6).blk t).view.emb (ix2 r q)) 1).val, ((((cfg0.win 6).blk t).view.emb (ix2 r q)) 1).isLt⟩ := by
    apply Fin.ext
    show 128 * (t.val % 16) + q.val = win0_6.index t 1 * 128 + 1 * q.val
    rw [(idx0_6 t).2]; omega
  rw [e0, e1]

theorem mem_blk6_0 (t : Fin cfg0.N) (i : S2048x2048.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v10_0).slice (win0_6.rect t)).set ↔ _
  rw [View.set_slice_whole, Rect.mem_set_unit]
  exact Iff.rfl

/-- Every entry of the clause array is in some point's block: sample b and clause q in the block of i = b / 1024, j = q / 128. -/
theorem cover6_0 (i : S2048x2048.Idx) : ∃ t : Fin cfg0.N, (cfg0.win 6).flush t = true ∧ i ∈ ((cfg0.win 6).blk t).view.set := by
  have h0 : (i 0).val < 2048 := (i 0).isLt
  have h1 : (i 1).val < 2048 := (i 1).isLt
  refine ⟨⟨16 * ((i 0).val / 1024) + (i 1).val / 128, by rw [show cfg0.N = 32 from N_0]; omega⟩, flush0_6 _, ?_⟩
  rw [mem_blk6_0]
  intro a
  match a with
  | ⟨0, _⟩ =>
    show win0_6.index _ 0 * 1024 ≤ (i 0).val ∧ (i 0).val < win0_6.index _ 0 * 1024 + 1024
    rw [(idx0_6 _).1]; dsimp only; omega
  | ⟨1, _⟩ =>
    show win0_6.index _ 1 * 128 ≤ (i 1).val ∧ (i 1).val < win0_6.index _ 1 * 128 + 128
    rw [(idx0_6 _).2]; dsimp only; omega

/-- The clause array ends holding the clause outputs. -/
theorem final6_0 : (dat0 V c).arrAt 6 cfg0.N = G6_0 V c :=
  (dat0 V c).arrAt_eq_of_cover 6 (G6_0 V c) (fun t _ => flushed6_0 V c t) (cover6_0)

/-! ## The class-score array -/

/-- The seed plus all sixteen groups' contributions. -/
def G7_0 : Arr2 2048 128 := fun i =>
  aSD0 V c i + ∑ j ∈ Finset.range 16, grpT0 V c ⟨(i 0).val, (i 0).isLt⟩ ⟨(i 1).val, (i 1).isLt⟩ j

/-- The one write-back per batch half, at j = 15, writes the accumulator: the seed plus groups 0..15. -/
theorem flushed7_0 (t : Fin cfg0.N) (hf : (cfg0.win 7).flush t = true) :
    (dat0 V c).flushed 7 t = ((cfg0.win 7).blk t).view.read (Elt Ideal) (G7_0 V c) := by
  have h15 : t.val % 16 = 15 := (flush0_7 t).mp hf
  show (cfg0.win 7).cut (grid0.coords t) ((dat0 V c).after 7 t) = _
  rw [after0_7, outsAt0_scores V c t h15]
  funext y
  obtain ⟨r, k, rfl⟩ : ∃ (r : Fin 1024) (k : Fin 128), y = ix2 r k := ⟨y 0, y 1, eq_ix2 y⟩
  show (outsAt0 V c t.val t.isLt).2.2 (ix2 r k) = G7_0 V c (((cfg0.win 7).blk t).view.emb (ix2 r k))
  rw [acc0_closed V c t.val t.isLt r k]
  have e : ((cfg0.win 7).blk t).view.emb (ix2 r k) = ix2 (rowOf t.val (hN0 t) r) k := by
    funext a; apply Fin.ext
    match a with
    | ⟨0, _⟩ => show win0_7.index t 0 * 1024 + 1 * r.val = 1024 * (t.val / 16) + r.val; rw [(idx0_7 t).1]; omega
    | ⟨1, _⟩ => show win0_7.index t 1 * 128 + 1 * k.val = k.val; rw [(idx0_7 t).2]; omega
  rw [e, h15]
  rfl

theorem mem_blk7_0 (t : Fin cfg0.N) (i : S2048x128.Idx) :
    i ∈ ((cfg0.win 7).blk t).view.set ↔ ∀ a : Fin 2, win0_7.index t a * S1024x128.size a ≤ (i a).val ∧ (i a).val < win0_7.index t a * S1024x128.size a + S1024x128.size a := by
  show i ∈ ((View.whole main_v10_1).slice (win0_7.rect t)).set ↔ _
  rw [View.set_slice_whole, Rect.mem_set_unit]
  exact Iff.rfl

/-- Every entry of the class-score array is in the block written at j = 15 of its batch half. -/
theorem cover7_0 (i : S2048x128.Idx) : ∃ t : Fin cfg0.N, (cfg0.win 7).flush t = true ∧ i ∈ ((cfg0.win 7).blk t).view.set := by
  have h0 : (i 0).val < 2048 := (i 0).isLt
  have h1 : (i 1).val < 128 := (i 1).isLt
  refine ⟨⟨16 * ((i 0).val / 1024) + 15, by rw [show cfg0.N = 32 from N_0]; omega⟩, (flush0_7 _).mpr (by dsimp only; omega), ?_⟩
  rw [mem_blk7_0]
  intro a
  match a with
  | ⟨0, _⟩ =>
    show win0_7.index _ 0 * 1024 ≤ (i 0).val ∧ (i 0).val < win0_7.index _ 0 * 1024 + 1024
    rw [(idx0_7 _).1]; dsimp only; omega
  | ⟨1, _⟩ =>
    show win0_7.index _ 1 * 128 ≤ (i 1).val ∧ (i 1).val < win0_7.index _ 1 * 128 + 128
    rw [(idx0_7 _).2]; omega

/-- The class-score array ends holding the seed plus all sixteen groups' contributions. -/
theorem final7_0 : (dat0 V c).arrAt 7 cfg0.N = G7_0 V c :=
  (dat0 V c).arrAt_eq_of_cover 7 (G7_0 V c) (fun t hf => flushed7_0 V c t hf) (cover7_0)

end Cert.KernelIdeal.Val

end
-- ==== Proof.KiR1Pieces.lean ====
/-
  Region 1: the buffers' contents after each point, as the body's arithmetic of the blocks. The clause-output buffer
  holds the clause tile of the point's three input blocks; the accumulator holds, at j = 0, the update of the seed block
  by the point's tile, and at j > 0 the update of what the point before left; at j = 15 the class-score buffer holds the
  accumulator. By induction on the point the accumulator is the chain of updates since the last point with j = 0.
-/
import proofs.«152184_j30227979829789_2_alg».proof.Proof.KiR1Dat
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

theorem out1_6_A_eq (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) :
    out1_6_A c i arg2 harg2 arg3 harg3 arg4 harg4 arg5 harg5 arg6 harg6 arg7 harg7 arg8 harg8 arg9 harg9 arg10 harg10 hc0 hc1 x0 x1 x2 x3 x4 x5 = k1_pay3 x0 x1 x2 := by
  unfold out1_6_A
  rw [View.read_writes_eq_canon _ _ _ (cover1_6_A c i arg2 harg2 arg3 harg3 arg4 harg4 arg5 harg5 arg6 harg6 arg7 harg7 arg8 harg8 arg9 harg9 arg10 harg10 hc0 hc1 x0 x1 x2 x3 x4 x5)]
  unfold kernelRun1_A
  dsimp only
  rw [View.canon_unit_zero hz1]
  simp only [View.readAt_eq_ld, harg2.read_unread, harg3.read_unread, harg4.read_unread, harg5.read_unread, harg6.read_unread, harg7.read_unread, harg10.read_unread, View.ld_unit_zero (S := S1024x3072) hz1, View.ld_unit_zero (S := S128x3072) hz1, View.ld_unit_zero (S := S1x128) hz1, View.ld_unit_zero (S := S128x128) hz1, View.ld_unit_zero (S := S1024x128) hz1]

theorem sout1_A_eq (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) :
    sout1_A c i arg2 harg2 arg3 harg3 arg4 harg4 arg5 harg5 arg6 harg6 arg7 harg7 arg8 harg8 arg9 harg9 arg10 harg10 hc0 hc1 x0 x1 x2 x3 x4 x5 = k1_pay1 (k1_pay3 x0 x1 x2) x3 x4 (k1_pay2 x5) := by
  unfold sout1_A
  rw [View.read_writes_eq_canon _ _ _ (scover1_A c i arg2 harg2 arg3 harg3 arg4 harg4 arg5 harg5 arg6 harg6 arg7 harg7 arg8 harg8 arg9 harg9 arg10 harg10 hc0 hc1 x0 x1 x2 x3 x4 x5)]
  unfold kernelRun1_A
  dsimp only
  sl_unfold_words
  rw [View.canon_cons_unit_zero (S := S1024x128) hz1, View.readCov_unit_zero (S := S1024x128) _ hz1]
  simp only [View.readAt_eq_ld, harg2.read_unread, harg3.read_unread, harg4.read_unread, harg5.read_unread, harg6.read_unread, harg7.read_unread, harg10.read_unread, View.ld_unit_zero (S := S1024x3072) hz1, View.ld_unit_zero (S := S128x3072) hz1, View.ld_unit_zero (S := S1x128) hz1, View.ld_unit_zero (S := S128x128) hz1, View.ld_unit_zero (S := S1024x128) hz1]

theorem out1_6_B_eq (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    out1_6_B c i arg2 harg2 arg3 harg3 arg4 harg4 arg5 harg5 arg6 harg6 arg7 harg7 arg8 harg8 arg9 harg9 arg10 harg10 hc0 hc1 x0 x1 x2 x3 x4 x5 xs = k1_pay3 x0 x1 x2 := by
  unfold out1_6_B
  rw [View.read_writes_eq_canon _ _ _ (cover1_6_B c i arg2 harg2 arg3 harg3 arg4 harg4 arg5 harg5 arg6 harg6 arg7 harg7 arg8 harg8 arg9 harg9 arg10 harg10 hc0 hc1 x0 x1 x2 x3 x4 x5 xs)]
  unfold kernelRun1_B
  dsimp only
  rw [View.canon_unit_zero hz1]
  simp only [View.readAt_eq_ld, harg2.read_unread, harg3.read_unread, harg4.read_unread, harg5.read_unread, harg6.read_unread, harg7.read_unread, harg10.read_unread, View.ld_unit_zero (S := S1024x3072) hz1, View.ld_unit_zero (S := S128x3072) hz1, View.ld_unit_zero (S := S1x128) hz1, View.ld_unit_zero (S := S128x128) hz1, View.ld_unit_zero (S := S1024x128) hz1]

theorem sout1_B_eq (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : ¬cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    sout1_B c i arg2 harg2 arg3 harg3 arg4 harg4 arg5 harg5 arg6 harg6 arg7 harg7 arg8 harg8 arg9 harg9 arg10 harg10 hc0 hc1 x0 x1 x2 x3 x4 x5 xs = k1_pay1 (k1_pay3 x0 x1 x2) x3 x4 xs := by
  unfold sout1_B
  rw [View.read_writes_eq_canon _ _ _ (scover1_B c i arg2 harg2 arg3 harg3 arg4 harg4 arg5 harg5 arg6 harg6 arg7 harg7 arg8 harg8 arg9 harg9 arg10 harg10 hc0 hc1 x0 x1 x2 x3 x4 x5 xs)]
  unfold kernelRun1_B
  dsimp only
  rw [View.canon_unit_zero hz1]
  simp only [View.readAt_eq_ld, harg2.read_unread, harg3.read_unread, harg4.read_unread, harg5.read_unread, harg6.read_unread, harg7.read_unread, harg10.read_unread, View.ld_unit_zero (S := S1024x3072) hz1, View.ld_unit_zero (S := S128x3072) hz1, View.ld_unit_zero (S := S1x128) hz1, View.ld_unit_zero (S := S128x128) hz1, View.ld_unit_zero (S := S1024x128) hz1]

theorem out1_6_C_eq (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    out1_6_C c i arg2 harg2 arg3 harg3 arg4 harg4 arg5 harg5 arg6 harg6 arg7 harg7 arg8 harg8 arg9 harg9 arg10 harg10 hc0 hc1 x0 x1 x2 x3 x4 x5 xs = k1_pay3 x0 x1 x2 := by
  unfold out1_6_C
  rw [View.read_writes_eq_canon _ _ _ (cover1_6_C c i arg2 harg2 arg3 harg3 arg4 harg4 arg5 harg5 arg6 harg6 arg7 harg7 arg8 harg8 arg9 harg9 arg10 harg10 hc0 hc1 x0 x1 x2 x3 x4 x5 xs)]
  unfold kernelRun1_C
  dsimp only
  rw [View.canon_unit_zero hz1]
  simp only [View.readAt_eq_ld, harg2.read_unread, harg3.read_unread, harg4.read_unread, harg5.read_unread, harg6.read_unread, harg7.read_unread, harg10.read_unread, View.ld_unit_zero (S := S1024x3072) hz1, View.ld_unit_zero (S := S128x3072) hz1, View.ld_unit_zero (S := S1x128) hz1, View.ld_unit_zero (S := S128x128) hz1, View.ld_unit_zero (S := S1024x128) hz1]

theorem sout1_C_eq (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    sout1_C c i arg2 harg2 arg3 harg3 arg4 harg4 arg5 harg5 arg6 harg6 arg7 harg7 arg8 harg8 arg9 harg9 arg10 harg10 hc0 hc1 x0 x1 x2 x3 x4 x5 xs = k1_pay1 (k1_pay3 x0 x1 x2) x3 x4 xs := by
  unfold sout1_C
  rw [View.read_writes_eq_canon _ _ _ (scover1_C c i arg2 harg2 arg3 harg3 arg4 harg4 arg5 harg5 arg6 harg6 arg7 harg7 arg8 harg8 arg9 harg9 arg10 harg10 hc0 hc1 x0 x1 x2 x3 x4 x5 xs)]
  unfold kernelRun1_C
  dsimp only
  sl_unfold_words
  rw [View.canon_unit_zero hz1]
  simp only [View.readAt_eq_ld, harg2.read_unread, harg3.read_unread, harg4.read_unread, harg5.read_unread, harg6.read_unread, harg7.read_unread, harg10.read_unread, View.ld_unit_zero (S := S1024x3072) hz1, View.ld_unit_zero (S := S128x3072) hz1, View.ld_unit_zero (S := S1x128) hz1, View.ld_unit_zero (S := S128x128) hz1, View.ld_unit_zero (S := S1024x128) hz1]

theorem out1_7_C_eq (c : Dev nD) (i : grid1.Coords) (arg2 : Memref sig .tc .vmem S1024x3072 .bf16) (harg2 : arg2.IsWhole) (arg3 : Memref sig .tc .vmem S128x3072 .f32) (harg3 : arg3.IsWhole) (arg4 : Memref sig .tc .vmem S128x3072 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole) (hc0 : ¬cond1_0 i) (hc1 : cond1_1 i)
    (x0 : Vec F S1024x3072 .bf16) (x1 : Vec F S128x3072 .f32) (x2 : Vec F S128x3072 .f32) (x3 : Vec F S1x128 .f32) (x4 : Vec F S128x128 .f32) (x5 : Vec F S1024x128 .f32) (xs : Vec F S1024x128 .f32) :
    out1_7_C c i arg2 harg2 arg3 harg3 arg4 harg4 arg5 harg5 arg6 harg6 arg7 harg7 arg8 harg8 arg9 harg9 arg10 harg10 hc0 hc1 x0 x1 x2 x3 x4 x5 xs = k1_pay1 (k1_pay3 x0 x1 x2) x3 x4 xs := by
  unfold out1_7_C
  rw [View.read_writes_eq_canon _ _ _ (cover1_7_C c i arg2 harg2 arg3 harg3 arg4 harg4 arg5 harg5 arg6 harg6 arg7 harg7 arg8 harg8 arg9 harg9 arg10 harg10 hc0 hc1 x0 x1 x2 x3 x4 x5 xs)]
  unfold kernelRun1_C
  dsimp only
  sl_unfold_words
  rw [View.canon_unit_zero hz1, View.readCov_unit_zero (S := S1024x128) _ hz1]
  simp only [View.readAt_eq_ld, harg2.read_unread, harg3.read_unread, harg4.read_unread, harg5.read_unread, harg6.read_unread, harg7.read_unread, harg10.read_unread, View.ld_unit_zero (S := S1024x3072) hz1, View.ld_unit_zero (S := S128x3072) hz1, View.ld_unit_zero (S := S1x128) hz1, View.ld_unit_zero (S := S128x128) hz1, View.ld_unit_zero (S := S1024x128) hz1]

section
variable (V : (c : Dev nD) → (b : Ref sig .tc) → Buf (Elt F) ((c : Thread nD τ).loc b))

/-- At j = 0 the accumulator is the seed block updated by the point's tile. -/
theorem step1_A (c : Dev nD) (t : Fin cfg1.N) (h0 : t.val % 16 = 0) (h1 : ¬t.val % 16 = 15) :
    (outsAt1 V c t.val t.isLt).2.2 = k1_pay1 (k1_pay3 (iblk1 V c 0 t) (iblk1 V c 1 t) (iblk1 V c 2 t)) (iblk1 V c 3 t) (iblk1 V c 4 t) (k1_pay2 (iblk1 V c 5 t)) := by
  rw [outsAt1_A V c t h0 h1, sout1_A_eq]

/-- At 0 < j < 15 it is what the point before left, updated by the point's tile. -/
theorem step1_B (c : Dev nD) (t : Fin cfg1.N) (h0 : ¬t.val % 16 = 0) (h1 : ¬t.val % 16 = 15) :
    (outsAt1 V c t.val t.isLt).2.2 = k1_pay1 (k1_pay3 (iblk1 V c 0 t) (iblk1 V c 1 t) (iblk1 V c 2 t)) (iblk1 V c 3 t) (iblk1 V c 4 t) (outsAt1 V c (t.val - 1) (Nat.lt_of_le_of_lt (Nat.sub_le _ _) t.isLt)).2.2 := by
  rw [outsAt1_B V c t h0 h1, sout1_B_eq]

/-- And at j = 15. -/
theorem step1_C (c : Dev nD) (t : Fin cfg1.N) (h0 : ¬t.val % 16 = 0) (h1 : t.val % 16 = 15) :
    (outsAt1 V c t.val t.isLt).2.2 = k1_pay1 (k1_pay3 (iblk1 V c 0 t) (iblk1 V c 1 t) (iblk1 V c 2 t)) (iblk1 V c 3 t) (iblk1 V c 4 t) (outsAt1 V c (t.val - 1) (Nat.lt_of_le_of_lt (Nat.sub_le _ _) t.isLt)).2.2 := by
  rw [outsAt1_C V c t h0 h1, sout1_C_eq]

/-- The clause-output buffer after any point: the clause tile of the point's blocks. -/
theorem outsAt1_clause (c : Dev nD) (t : Fin cfg1.N) :
    (outsAt1 V c t.val t.isLt).1 = k1_pay3 (iblk1 V c 0 t) (iblk1 V c 1 t) (iblk1 V c 2 t) := by
  by_cases h0 : t.val % 16 = 0
  · have h1 : ¬t.val % 16 = 15 := by omega
    rw [outsAt1_A V c t h0 h1, out1_6_A_eq]
  · by_cases h1 : t.val % 16 = 15
    · rw [outsAt1_C V c t h0 h1, out1_6_C_eq]
    · rw [outsAt1_B V c t h0 h1, out1_6_B_eq]

/-- At j = 15 the class-score buffer holds the accumulator. -/
theorem outsAt1_scores (c : Dev nD) (t : Fin cfg1.N) (h1 : t.val % 16 = 15) :
    (outsAt1 V c t.val t.isLt).2.1 = (outsAt1 V c t.val t.isLt).2.2 := by
  have h0 : ¬t.val % 16 = 0 := by omega
  rw [outsAt1_C V c t h0 h1, out1_7_C_eq, sout1_C_eq]

end

end Cert.KernelIdeal.Hand

end
-- ==== Proof.KiR1Blk.lean ====
/-
  Region 1: a window's block at a grid point, read at a local index, is its array read at the global index — the
  block index times the block size plus the local coordinate, along each axis. The block indices are decided over the grid.
-/
import proofs.«152184_j30227979829789_2_alg».proof.Proof.KiR1Kit
import proofs.«152184_j30227979829789_2_alg».proof.Proof.GridIdx
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Spec

theorem hN1 (t : Fin cfg1.N) : t.val < 32 := lt_of_lt_of_eq t.isLt (show cfg1.N = 32 from N_1)
theorem idx1_0 : ∀ t : Fin cfg1.N, win1_0.index t 0 = t.val / 16 ∧ win1_0.index t 1 = 0 :=
  (by decide +kernel : ∀ t : Fin grid1.N, win1_0.index t 0 = t.val / 16 ∧ win1_0.index t 1 = 0)
theorem idx1_1 : ∀ t : Fin cfg1.N, win1_1.index t 0 = t.val % 16 ∧ win1_1.index t 1 = 0 :=
  (by decide +kernel : ∀ t : Fin grid1.N, win1_1.index t 0 = t.val % 16 ∧ win1_1.index t 1 = 0)
theorem idx1_2 : ∀ t : Fin cfg1.N, win1_2.index t 0 = t.val % 16 ∧ win1_2.index t 1 = 0 :=
  (by decide +kernel : ∀ t : Fin grid1.N, win1_2.index t 0 = t.val % 16 ∧ win1_2.index t 1 = 0)
theorem idx1_3 : ∀ t : Fin cfg1.N, win1_3.index t 0 = 0 ∧ win1_3.index t 1 = t.val % 16 :=
  (by decide +kernel : ∀ t : Fin grid1.N, win1_3.index t 0 = 0 ∧ win1_3.index t 1 = t.val % 16)
theorem idx1_4 : ∀ t : Fin cfg1.N, win1_4.index t 0 = t.val % 16 ∧ win1_4.index t 1 = 0 :=
  (by decide +kernel : ∀ t : Fin grid1.N, win1_4.index t 0 = t.val % 16 ∧ win1_4.index t 1 = 0)
theorem idx1_5 : ∀ t : Fin cfg1.N, win1_5.index t 0 = t.val / 16 ∧ win1_5.index t 1 = 0 :=
  (by decide +kernel : ∀ t : Fin grid1.N, win1_5.index t 0 = t.val / 16 ∧ win1_5.index t 1 = 0)
theorem idx1_6 : ∀ t : Fin cfg1.N, win1_6.index t 0 = t.val / 16 ∧ win1_6.index t 1 = t.val % 16 :=
  (by decide +kernel : ∀ t : Fin grid1.N, win1_6.index t 0 = t.val / 16 ∧ win1_6.index t 1 = t.val % 16)
theorem idx1_7 : ∀ t : Fin cfg1.N, win1_7.index t 0 = t.val / 16 ∧ win1_7.index t 1 = 0 :=
  (by decide +kernel : ∀ t : Fin grid1.N, win1_7.index t 0 = t.val / 16 ∧ win1_7.index t 1 = 0)

section
variable (V : (c : Dev nD) → (b : Ref sig .tc) → Buf (Elt F) ((c : Thread nD τ).loc b))

theorem iblk1_0_apply (c : Dev nD) (t : Fin cfg1.N) (a : Fin 1024) (b : Fin 3072) :
    iblk1 V c 0 t (ix2 a b) = V c main_v0 (ix2 (rowOf t.val (hN1 t) a) b) := by
  unfold iblk1
  rw [View.read_apply]
  show V c main_v0 _ = V c main_v0 _
  refine congrArg _ ?_
  funext d
  apply Fin.ext
  match d with
  | ⟨0, _⟩ => show win1_0.index t 0 * 1024 + 1 * a.val = 1024 * (t.val / 16) + a.val; rw [(idx1_0 t).1]; omega
  | ⟨1, _⟩ => show win1_0.index t 1 * 3072 + 1 * b.val = b.val; rw [(idx1_0 t).2]; omega

theorem iblk1_1_apply (c : Dev nD) (t : Fin cfg1.N) (a : Fin 128) (b : Fin 3072) :
    iblk1 V c 1 t (ix2 a b) = V c main_arg2 (ix2 (colOf t.val a) b) := by
  unfold iblk1
  rw [View.read_apply]
  show V c main_arg2 _ = V c main_arg2 _
  refine congrArg _ ?_
  funext d
  apply Fin.ext
  match d with
  | ⟨0, _⟩ => show win1_1.index t 0 * 128 + 1 * a.val = 128 * (t.val % 16) + a.val; rw [(idx1_1 t).1]; omega
  | ⟨1, _⟩ => show win1_1.index t 1 * 3072 + 1 * b.val = b.val; rw [(idx1_1 t).2]; omega

theorem iblk1_2_apply (c : Dev nD) (t : Fin cfg1.N) (a : Fin 128) (b : Fin 3072) :
    iblk1 V c 2 t (ix2 a b) = V c main_arg4 (ix2 (colOf t.val a) b) := by
  unfold iblk1
  rw [View.read_apply]
  show V c main_arg4 _ = V c main_arg4 _
  refine congrArg _ ?_
  funext d
  apply Fin.ext
  match d with
  | ⟨0, _⟩ => show win1_2.index t 0 * 128 + 1 * a.val = 128 * (t.val % 16) + a.val; rw [(idx1_2 t).1]; omega
  | ⟨1, _⟩ => show win1_2.index t 1 * 3072 + 1 * b.val = b.val; rw [(idx1_2 t).2]; omega

theorem iblk1_3_apply (c : Dev nD) (t : Fin cfg1.N) (a : Fin 1) (b : Fin 128) :
    iblk1 V c 3 t (ix2 a b) = V c main_v4 (ix2 a (colOf t.val b)) := by
  unfold iblk1
  rw [View.read_apply]
  show V c main_v4 _ = V c main_v4 _
  refine congrArg _ ?_
  funext d
  apply Fin.ext
  match d with
  | ⟨0, _⟩ => show win1_3.index t 0 * 1 + 1 * a.val = a.val; rw [(idx1_3 t).1]; omega
  | ⟨1, _⟩ => show win1_3.index t 1 * 128 + 1 * b.val = 128 * (t.val % 16) + b.val; rw [(idx1_3 t).2]; omega

theorem iblk1_4_apply (c : Dev nD) (t : Fin cfg1.N) (a : Fin 128) (b : Fin 128) :
    iblk1 V c 4 t (ix2 a b) = V c main_v8 (ix2 (colOf t.val a) b) := by
  unfold iblk1
  rw [View.read_apply]
  show V c main_v8 _ = V c main_v8 _
  refine congrArg _ ?_
  funext d
  apply Fin.ext
  match d with
  | ⟨0, _⟩ => show win1_4.index t 0 * 128 + 1 * a.val = 128 * (t.val % 16) + a.val; rw [(idx1_4 t).1]; omega
  | ⟨1, _⟩ => show win1_4.index t 1 * 128 + 1 * b.val = b.val; rw [(idx1_4 t).2]; omega

theorem iblk1_5_apply (c : Dev nD) (t : Fin cfg1.N) (a : Fin 1024) (b : Fin 128) :
    iblk1 V c 5 t (ix2 a b) = V c main_v10_1 (ix2 (rowOf t.val (hN1 t) a) b) := by
  unfold iblk1
  rw [View.read_apply]
  show V c main_v10_1 _ = V c main_v10_1 _
  refine congrArg _ ?_
  funext d
  apply Fin.ext
  match d with
  | ⟨0, _⟩ => show win1_5.index t 0 * 1024 + 1 * a.val = 1024 * (t.val / 16) + a.val; rw [(idx1_5 t).1]; omega
  | ⟨1, _⟩ => show win1_5.index t 1 * 128 + 1 * b.val = b.val; rw [(idx1_5 t).2]; omega

end

end Cert.KernelIdeal.Hand

end
-- ==== Proof.KiR1Arr.lean ====
/-
  Region 1 on the extended reals: its two result arrays as functions of the arrays it finds. A clause tile's entry
  is the bank's clause output on the tile's sample and clause; the accumulator after grid point 16 * i + j holds, at
  local row r and class k, the seed's entry plus the contributions of groups 0..j (by induction on the point: a point
  with j = 0 starts from the seed block, a later one adds its group to what the point before left); so the clause
  array ends as the clause outputs and the class-score array as the seed plus all sixteen groups' contributions.
-/
import proofs.«152184_j30227979829789_2_alg».proof.Proof.KiR1Pieces
import proofs.«152184_j30227979829789_2_alg».proof.Proof.KiR1Blk
import proofs.«152184_j30227979829789_2_alg».proof.Proof.PayValue
import Idealize.ShloMosaic.Lib.Pipeline.Value

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The arrays the region finds: samples, the bank's two tables, its bias row, its padded voting rows, the seed. -/
abbrev aX1 : Arr2 2048 3072 := V c main_v0
abbrev aTA1 : Arr2 2048 3072 := V c main_arg2
abbrev aTAI1 : Arr2 2048 3072 := V c main_arg4
abbrev aBR1 : Arr2 1 2048 := V c main_v4
abbrev aVP1 : Arr2 2048 128 := V c main_v8
abbrev aSD1 : Arr2 2048 128 := V c main_v10_1

/-- A clause tile's entry is the bank's clause output on the tile's sample and clause. -/
theorem tile1 (t : Fin cfg1.N) (r : Fin 1024) (q : Fin 128) :
    k1_pay3 (F := Ideal) (iblk1 V c 0 t) (iblk1 V c 1 t) (iblk1 V c 2 t) (ix2 r q)
      = clauseHalf (aX1 V c) (aTA1 V c) (aTAI1 V c) (rowOf t.val (hN1 t) r) (colOf t.val q) := by
  refine (PayValue.pay3_apply' (iblk1 V c 0 t) (iblk1 V c 1 t) (iblk1 V c 2 t) r q).trans ?_
  unfold clauseHalf score
  simp only [iblk1_0_apply V c t, iblk1_1_apply V c t, iblk1_2_apply V c t]

/-- Group `j`'s contribution to class `k` on sample `b`: its 128 clauses, each output plus its bias, weighted. -/
def grpT1 (b : Fin 2048) (k : Fin 128) (j : ℕ) : EReal :=
  if h : j < 16 then
    ∑ c' : Fin 128, (clauseHalf (aX1 V c) (aTA1 V c) (aTAI1 V c) b (cidx ⟨j, h⟩ c') + aBR1 V c (ix2 (0 : Fin 1) (cidx ⟨j, h⟩ c')))
      * aVP1 V c (ix2 (cidx ⟨j, h⟩ c') k)
  else 0

/-- One update of the accumulator adds the point's group. -/
theorem upd1 (t : Fin cfg1.N) (prev : Vec Ideal S1024x128 .f32) (r : Fin 1024) (k : Fin 128) :
    k1_pay1 (F := Ideal) (k1_pay3 (iblk1 V c 0 t) (iblk1 V c 1 t) (iblk1 V c 2 t)) (iblk1 V c 3 t) (iblk1 V c 4 t) prev (ix2 r k)
      = prev (ix2 r k) + grpT1 V c (rowOf t.val (hN1 t) r) k (t.val % 16) := by
  refine (PayValue.pay1_apply' (k1_pay3 (iblk1 V c 0 t) (iblk1 V c 1 t) (iblk1 V c 2 t)) (iblk1 V c 3 t) (iblk1 V c 4 t) prev r k).trans ?_
  unfold grpT1
  rw [dif_pos (Nat.mod_lt _ (by decide))]
  refine congrArg _ (Finset.sum_congr rfl fun c' _ => ?_)
  rw [tile1 V c t r c', iblk1_3_apply V c t, iblk1_4_apply V c t]
  rfl

/-- The accumulator after point `n`, at local row `r` and class `k`: the seed's entry plus groups 0..(n mod 16). -/
theorem acc1_closed : ∀ (n : ℕ) (h : n < cfg1.N) (r : Fin 1024) (k : Fin 128),
    (outsAt1 V c n h).2.2 (ix2 r k) = aSD1 V c (ix2 (rowOf n (hN1 ⟨n, h⟩) r) k)
      + ∑ j ∈ Finset.range (n % 16 + 1), grpT1 V c (rowOf n (hN1 ⟨n, h⟩) r) k j
  | 0, h, r, k => by
    have hs := step1_A V c ⟨0, h⟩ (Nat.zero_mod _) (by show ¬0 % 16 = 15; decide)
    have hs' : (outsAt1 V c 0 h).2.2 = _ := hs
    rw [hs', upd1 V c ⟨0, h⟩ _ r k, PayValue.pay2_eq', iblk1_5_apply V c ⟨0, h⟩]
    show _ + grpT1 V c _ k 0 = _ + ∑ j ∈ Finset.range 1, _
    rw [Finset.sum_range_one]
  | n + 1, h, r, k => by
    have hN : n + 1 < 32 := hN1 ⟨n + 1, h⟩
    by_cases h0 : (n + 1) % 16 = 0
    · have hs' : (outsAt1 V c (n + 1) h).2.2 = _ := step1_A V c ⟨n + 1, h⟩ h0 (by show ¬(n + 1) % 16 = 15; omega)
      rw [hs', upd1 V c ⟨n + 1, h⟩ _ r k, PayValue.pay2_eq', iblk1_5_apply V c ⟨n + 1, h⟩]
      show _ + grpT1 V c _ k ((n + 1) % 16) = _
      rw [h0, Finset.sum_range_one]
    · have hs' : (outsAt1 V c (n + 1) h).2.2
          = k1_pay1 (F := Ideal) (k1_pay3 (iblk1 V c 0 ⟨n + 1, h⟩) (iblk1 V c 1 ⟨n + 1, h⟩) (iblk1 V c 2 ⟨n + 1, h⟩)) (iblk1 V c 3 ⟨n + 1, h⟩) (iblk1 V c 4 ⟨n + 1, h⟩)
              (outsAt1 V c n (Nat.lt_of_succ_lt h)).2.2 := by
        by_cases h1 : (n + 1) % 16 = 15
        · exact step1_C V c ⟨n + 1, h⟩ h0 h1
        · exact step1_B V c ⟨n + 1, h⟩ h0 h1
      rw [hs', upd1 V c ⟨n + 1, h⟩ _ r k, acc1_closed n (Nat.lt_of_succ_lt h) r k]
      have e : rowOf (n + 1) hN r = rowOf n (by omega) r := Fin.ext (by simp only [rowOf_val]; omega)
      have e2 : (n + 1) % 16 = n % 16 + 1 := by omega
      show (_ + _) + grpT1 V c (rowOf (n + 1) hN r) k ((n + 1) % 16) = aSD1 V c (ix2 (rowOf (n + 1) hN r) k) + _
      rw [e, e2, add_assoc]
      conv_rhs => rw [Finset.sum_range_succ]

/-! ## The clause array -/

/-- The region's clause outputs, sample by clause. -/
def G6_1 : Arr2 2048 2048 := fun i =>
  clauseHalf (aX1 V c) (aTA1 V c) (aTAI1 V c) ⟨(i 0).val, (i 0).isLt⟩ ⟨(i 1).val, (i 1).isLt⟩

/-- What point `t` writes back into the clause array is block `t` of the clause outputs. -/
theorem flushed6_1 (t : Fin cfg1.N) :
    (dat1 V c).flushed 6 t = ((cfg1.win 6).blk t).view.read (Elt Ideal) (G6_1 V c) := by
  show (cfg1.win 6).cut (grid1.coords t) ((dat1 V c).after 6 t) = _
  rw [after1_6, outsAt1_clause V c t]
  funext y
  obtain ⟨r, q, rfl⟩ : ∃ (r : Fin 1024) (q : Fin 128), y = ix2 r q := ⟨y 0, y 1, eq_ix2 y⟩
  show k1_pay3 (F := Ideal) _ _ _ (ix2 r q) = G6_1 V c (((cfg1.win 6).blk t).view.emb (ix2 r q))
  rw [tile1 V c t r q]
  unfold G6_1
  have e0 : rowOf t.val (hN1 t) r = ⟨((((cfg1.win 6).blk t).view.emb (ix2 r q)) 0).val, ((((cfg1.win 6).blk t).view.emb (ix2 r q)) 0).isLt⟩ := by
    apply Fin.ext
    show 1024 * (t.val / 16) + r.val = win1_6.index t 0 * 1024 + 1 * r.val
    rw [(idx1_6 t).1]; omega
  have e1 : colOf t.val q = ⟨((((cfg1.win 6).blk t).view.emb (ix2 r q)) 1).val, ((((cfg1.win 6).blk t).view.emb (ix2 r q)) 1).isLt⟩ := by
    apply Fin.ext
    show 128 * (t.val % 16) + q.val = win1_6.index t 1 * 128 + 1 * q.val
    rw [(idx1_6 t).2]; omega
  rw [e0, e1]

theorem mem_blk6_1 (t : Fin cfg1.N) (i : S2048x2048.Idx) :
    i ∈ ((cfg1.win 6).blk t).view.set ↔ ∀ a : Fin 2, win1_6.index t a * S1024x128.size a ≤ (i a).val ∧ (i a).val < win1_6.index t a * S1024x128.size a + S1024x128.size a := by
  show i ∈ ((View.whole main_v11_0).slice (win1_6.rect t)).set ↔ _
  rw [View.set_slice_whole, Rect.mem_set_unit]
  exact Iff.rfl

/-- Every entry of the clause array is in some point's block: sample b and clause q in the block of i = b / 1024, j = q / 128. -/
theorem cover6_1 (i : S2048x2048.Idx) : ∃ t : Fin cfg1.N, (cfg1.win 6).flush t = true ∧ i ∈ ((cfg1.win 6).blk t).view.set := by
  have h0 : (i 0).val < 2048 := (i 0).isLt
  have h1 : (i 1).val < 2048 := (i 1).isLt
  refine ⟨⟨16 * ((i 0).val / 1024) + (i 1).val / 128, by rw [show cfg1.N = 32 from N_1]; omega⟩, flush1_6 _, ?_⟩
  rw [mem_blk6_1]
  intro a
  match a with
  | ⟨0, _⟩ =>
    show win1_6.index _ 0 * 1024 ≤ (i 0).val ∧ (i 0).val < win1_6.index _ 0 * 1024 + 1024
    rw [(idx1_6 _).1]; dsimp only; omega
  | ⟨1, _⟩ =>
    show win1_6.index _ 1 * 128 ≤ (i 1).val ∧ (i 1).val < win1_6.index _ 1 * 128 + 128
    rw [(idx1_6 _).2]; dsimp only; omega

/-- The clause array ends holding the clause outputs. -/
theorem final6_1 : (dat1 V c).arrAt 6 cfg1.N = G6_1 V c :=
  (dat1 V c).arrAt_eq_of_cover 6 (G6_1 V c) (fun t _ => flushed6_1 V c t) (cover6_1)

/-! ## The class-score array -/

/-- The seed plus all sixteen groups' contributions. -/
def G7_1 : Arr2 2048 128 := fun i =>
  aSD1 V c i + ∑ j ∈ Finset.range 16, grpT1 V c ⟨(i 0).val, (i 0).isLt⟩ ⟨(i 1).val, (i 1).isLt⟩ j

/-- The one write-back per batch half, at j = 15, writes the accumulator: the seed plus groups 0..15. -/
theorem flushed7_1 (t : Fin cfg1.N) (hf : (cfg1.win 7).flush t = true) :
    (dat1 V c).flushed 7 t = ((cfg1.win 7).blk t).view.read (Elt Ideal) (G7_1 V c) := by
  have h15 : t.val % 16 = 15 := (flush1_7 t).mp hf
  show (cfg1.win 7).cut (grid1.coords t) ((dat1 V c).after 7 t) = _
  rw [after1_7, outsAt1_scores V c t h15]
  funext y
  obtain ⟨r, k, rfl⟩ : ∃ (r : Fin 1024) (k : Fin 128), y = ix2 r k := ⟨y 0, y 1, eq_ix2 y⟩
  show (outsAt1 V c t.val t.isLt).2.2 (ix2 r k) = G7_1 V c (((cfg1.win 7).blk t).view.emb (ix2 r k))
  rw [acc1_closed V c t.val t.isLt r k]
  have e : ((cfg1.win 7).blk t).view.emb (ix2 r k) = ix2 (rowOf t.val (hN1 t) r) k := by
    funext a; apply Fin.ext
    match a with
    | ⟨0, _⟩ => show win1_7.index t 0 * 1024 + 1 * r.val = 1024 * (t.val / 16) + r.val; rw [(idx1_7 t).1]; omega
    | ⟨1, _⟩ => show win1_7.index t 1 * 128 + 1 * k.val = k.val; rw [(idx1_7 t).2]; omega
  rw [e, h15]
  rfl

theorem mem_blk7_1 (t : Fin cfg1.N) (i : S2048x128.Idx) :
    i ∈ ((cfg1.win 7).blk t).view.set ↔ ∀ a : Fin 2, win1_7.index t a * S1024x128.size a ≤ (i a).val ∧ (i a).val < win1_7.index t a * S1024x128.size a + S1024x128.size a := by
  show i ∈ ((View.whole main_v11_1).slice (win1_7.rect t)).set ↔ _
  rw [View.set_slice_whole, Rect.mem_set_unit]
  exact Iff.rfl

/-- Every entry of the class-score array is in the block written at j = 15 of its batch half. -/
theorem cover7_1 (i : S2048x128.Idx) : ∃ t : Fin cfg1.N, (cfg1.win 7).flush t = true ∧ i ∈ ((cfg1.win 7).blk t).view.set := by
  have h0 : (i 0).val < 2048 := (i 0).isLt
  have h1 : (i 1).val < 128 := (i 1).isLt
  refine ⟨⟨16 * ((i 0).val / 1024) + 15, by rw [show cfg1.N = 32 from N_1]; omega⟩, (flush1_7 _).mpr (by dsimp only; omega), ?_⟩
  rw [mem_blk7_1]
  intro a
  match a with
  | ⟨0, _⟩ =>
    show win1_7.index _ 0 * 1024 ≤ (i 0).val ∧ (i 0).val < win1_7.index _ 0 * 1024 + 1024
    rw [(idx1_7 _).1]; dsimp only; omega
  | ⟨1, _⟩ =>
    show win1_7.index _ 1 * 128 ≤ (i 1).val ∧ (i 1).val < win1_7.index _ 1 * 128 + 128
    rw [(idx1_7 _).2]; omega

/-- The class-score array ends holding the seed plus all sixteen groups' contributions. -/
theorem final7_1 : (dat1 V c).arrAt 7 cfg1.N = G7_1 V c :=
  (dat1 V c).arrAt_eq_of_cover 7 (G7_1 V c) (fun t hf => flushed7_1 V c t hf) (cover7_1)

end Cert.KernelIdeal.Val

end
-- ==== Proof.HostValue.lean ====
/-
  What the host operations around the two launches compute, read at an index, on the extended reals (where a change
  of float format is the identity).

  Before the first launch: the features are narrowed (unchanged here); the bias vector of 4096 entries is cut into
  its two halves, each reshaped to one row of 2048; the voting matrix (4096 x 100) is cut into its two banks of
  2048 rows, each padded with zeros from 100 to 128 columns; and an accumulator of 2048 x 128 zeros is made.
  After the second launch: the two banks' clause outputs (2048 x 2048 each) are joined side by side into
  2048 x 4096, and the class scores are the first 100 of 128 columns.
-/
import proofs.«152184_j30227979829789_2_alg».proof.Proof.Gen.KernelIdeal.Launch
import proofs.«152184_j30227979829789_2_alg».proof.Proof.Gen.KernelIdeal.Regions
import proofs.«152184_j30227979829789_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

namespace Cert.KernelIdeal.HostValue

open Idealize.ShloMosaic Idealize.ShloMosaic.TcCoe Idealize.ShloMosaic.ValueIdx Idealize.SL.Sem Cert.KernelIdeal Cert.KernelIdeal.Gen Cert.Spec

variable (m : (l : Loc nD τ sig) → Buf (Elt Ideal) l) (c : Dev nD)

/-- The buffers' contents when the first launch is entered: the five stretches of host operations folded, in order,
    over the launch memory. -/
abbrev entry : Valuation τ sig (Elt Ideal) :=
  StableHlo.after hostOps0_4 (StableHlo.after hostOps0_3 (StableHlo.after hostOps0_2 (StableHlo.after hostOps0_1
    (StableHlo.after hostOps0 (fun b => m (c, b))))))

/-! ## Before the first launch -/

/-- The accumulator's seed: the broadcast of the constant whose word is that of 0.0. -/
theorem entry_v9 (b : Fin 2048) (k : Fin 128) : (entry m c main_v9 : Arr2 2048 128) (ix2 b k) = (0 : EReal) := by
  have e : (entry m c main_v9 : Arr2 2048 128)
      = broadcastInDim S2048x128 ![] bcast_S_S2048x128 (constant (F := Ideal) S_ .f32 0x00000000#32) := by
    dsimp only [entry, hostOps0_4]
    after_results
  rw [e, broadcastInDim_apply _ bcast_S_S2048x128 _ (ix2 b k) ix0 (fun a => a.elim0), constant_apply]
  exact Ideal.ofBits_zero_f32

/-- The features narrowed to the shorter float format: on the extended reals the narrowing changes nothing. -/
theorem entry_v0 (b : Fin 2048) (f : Fin 3072) :
    (entry m c main_v0 : Arr2 2048 3072) (ix2 b f) = (m ((c : Thread nD τ).loc main_arg0) : Arr2 2048 3072) (ix2 b f) := by
  have e : (entry m c main_v0 : Arr2 2048 3072)
      = (truncf (F := Ideal) .bf16 (m ((c : Thread nD τ).loc main_arg0) : FVec Ideal S2048x3072 .f32) bitsLt_bf16_f32
          : FVec Ideal S2048x3072 .bf16) := by
    dsimp only [entry, hostOps0, hostOps0_1, hostOps0_2, hostOps0_3, hostOps0_4]
    after_results
  rw [e]
  rfl

/-- The first half of the bias vector, as one row: entry q of the row is entry q of the vector. -/
theorem entry_v2 (q : Fin 2048) :
    (entry m c main_v2 : Arr2 1 2048) (ix2 (0 : Fin 1) q) = (m ((c : Thread nD τ).loc main_arg5) : Arr1 4096) (ix1 (lo q)) := by
  have e : (entry m c main_v2 : Arr2 1 2048)
      = shapeCast S1x2048 (extractStridedSlice S2048 ![0] (m ((c : Thread nD τ).loc main_arg5) : Arr1 4096) slices_S4096_S2048_0)
          shapeCasts_S2048_S1x2048 := by
    dsimp only [entry, hostOps0, hostOps0_1, hostOps0_2, hostOps0_3, hostOps0_4]
    after_results
    rfl
  rw [e, shapeCast_a_1a_apply]
  exact extractStridedSlice_apply _ _ slices_S4096_S2048_0 (ix1 q) (ix1 (lo q)) (fun a =>
    match a with
    | ⟨0, _⟩ => by show q.val = 0 + q.val; omega)

/-- The second half of the bias vector, as one row: entry q of the row is entry 2048 + q of the vector. -/
theorem entry_v4 (q : Fin 2048) :
    (entry m c main_v4 : Arr2 1 2048) (ix2 (0 : Fin 1) q) = (m ((c : Thread nD τ).loc main_arg5) : Arr1 4096) (ix1 (hi q)) := by
  have e : (entry m c main_v4 : Arr2 1 2048)
      = shapeCast S1x2048 (extractStridedSlice S2048 ![2048] (m ((c : Thread nD τ).loc main_arg5) : Arr1 4096) slices_S4096_S2048_2048)
          shapeCasts_S2048_S1x2048 := by
    dsimp only [entry, hostOps0, hostOps0_1, hostOps0_2, hostOps0_3, hostOps0_4]
    after_results
    rfl
  rw [e, shapeCast_a_1a_apply]
  exact extractStridedSlice_apply _ _ slices_S4096_S2048_2048 (ix1 q) (ix1 (hi q)) (fun a =>
    match a with
    | ⟨0, _⟩ => by show 2048 + q.val = 2048 + q.val; rfl)

/-- The first bank's voting rows, widened with zero columns: within the first 100 columns row q is row q of the matrix. -/
theorem entry_v6 (q : Fin 2048) (k : Fin 128) (hk : k.val < 100) :
    (entry m c main_v6 : Arr2 2048 128) (ix2 q k)
      = (m ((c : Thread nD τ).loc main_arg6) : Arr2 4096 100) (ix2 (lo q) ⟨k.val, hk⟩) := by
  have e : (entry m c main_v6 : Arr2 2048 128)
      = pad S2048x128 ![0, 0] ![0, 28] ![0, 0]
          (extractStridedSlice S2048x100 ![0, 0] (m ((c : Thread nD τ).loc main_arg6) : Arr2 4096 100) slices_S4096x100_S2048x100_0_0)
          (sitofp (F := Ideal) .f32 (constantI S_ 32 0#32)) pads_S2048x100_S2048x128_000_0280 h_S_ := by
    dsimp only [entry, hostOps0, hostOps0_1, hostOps0_2, hostOps0_3, hostOps0_4]
    after_results
    rfl
  rw [e]
  refine (pad_apply_of_inside _ _ _ _ _ pads_S2048x100_S2048x128_000_0280 h_S_ (ix2 q k) (ix2 q ⟨k.val, hk⟩) (fun a =>
    match a with
    | ⟨0, _⟩ => by show q.val = 0 + q.val * (0 + 1); omega
    | ⟨1, _⟩ => by show k.val = 0 + k.val * (0 + 1); omega)).trans ?_
  exact extractStridedSlice_apply _ _ slices_S4096x100_S2048x100_0_0 (ix2 q ⟨k.val, hk⟩) (ix2 (lo q) ⟨k.val, hk⟩) (fun a =>
    match a with
    | ⟨0, _⟩ => by show q.val = 0 + q.val; omega
    | ⟨1, _⟩ => by show k.val = 0 + k.val; omega)

/-- The second bank's voting rows, widened with zero columns: within the first 100 columns row q is row 2048 + q of
    the matrix. -/
theorem entry_v8 (q : Fin 2048) (k : Fin 128) (hk : k.val < 100) :
    (entry m c main_v8 : Arr2 2048 128) (ix2 q k)
      = (m ((c : Thread nD τ).loc main_arg6) : Arr2 4096 100) (ix2 (hi q) ⟨k.val, hk⟩) := by
  have e : (entry m c main_v8 : Arr2 2048 128)
      = pad S2048x128 ![0, 0] ![0, 28] ![0, 0]
          (extractStridedSlice S2048x100 ![2048, 0] (m ((c : Thread nD τ).loc main_arg6) : Arr2 4096 100) slices_S4096x100_S2048x100_2048_0)
          (sitofp (F := Ideal) .f32 (constantI S_ 32 0#32)) pads_S2048x100_S2048x128_000_0280 h_S_ := by
    dsimp only [entry, hostOps0, hostOps0_1, hostOps0_2, hostOps0_3, hostOps0_4]
    after_results
    rfl
  rw [e]
  refine (pad_apply_of_inside _ _ _ _ _ pads_S2048x100_S2048x128_000_0280 h_S_ (ix2 q k) (ix2 q ⟨k.val, hk⟩) (fun a =>
    match a with
    | ⟨0, _⟩ => by show q.val = 0 + q.val * (0 + 1); omega
    | ⟨1, _⟩ => by show k.val = 0 + k.val * (0 + 1); omega)).trans ?_
  exact extractStridedSlice_apply _ _ slices_S4096x100_S2048x100_2048_0 (ix2 q ⟨k.val, hk⟩) (ix2 (hi q) ⟨k.val, hk⟩) (fun a =>
    match a with
    | ⟨0, _⟩ => by show 2048 + q.val = 2048 + q.val; rfl
    | ⟨1, _⟩ => by show k.val = 0 + k.val; omega)

/-- A buffer none of the five stretches writes is entered as launched. -/
theorem entry_of (r : Ref sig .tc) (h0 : r ∉ hostOps0_W) (h1 : r ∉ hostOps0_1_W) (h2 : r ∉ hostOps0_2_W)
    (h3 : r ∉ hostOps0_3_W) (h4 : r ∉ hostOps0_4_W) : entry m c r = m ((c : Thread nD τ).loc r) :=
  (V5_of m c r h4).trans <| (V4_of m c r h3).trans <| (V3_of m c r h2).trans <| (V2_of m c r h1).trans <|
    (V1_of m c r h0).trans rfl

/-- No stretch writes an argument: each is entered as launched. -/
theorem entry_arg0 : entry m c main_arg0 = m ((c : Thread nD τ).loc main_arg0) :=
  entry_of m c main_arg0 (by decide) (by decide) (by decide) (by decide) (by decide)
theorem entry_arg1 : entry m c main_arg1 = m ((c : Thread nD τ).loc main_arg1) :=
  entry_of m c main_arg1 (by decide) (by decide) (by decide) (by decide) (by decide)
theorem entry_arg2 : entry m c main_arg2 = m ((c : Thread nD τ).loc main_arg2) :=
  entry_of m c main_arg2 (by decide) (by decide) (by decide) (by decide) (by decide)
theorem entry_arg3 : entry m c main_arg3 = m ((c : Thread nD τ).loc main_arg3) :=
  entry_of m c main_arg3 (by decide) (by decide) (by decide) (by decide) (by decide)
theorem entry_arg4 : entry m c main_arg4 = m ((c : Thread nD τ).loc main_arg4) :=
  entry_of m c main_arg4 (by decide) (by decide) (by decide) (by decide) (by decide)
theorem entry_arg5 : entry m c main_arg5 = m ((c : Thread nD τ).loc main_arg5) :=
  entry_of m c main_arg5 (by decide) (by decide) (by decide) (by decide) (by decide)
theorem entry_arg6 : entry m c main_arg6 = m ((c : Thread nD τ).loc main_arg6) :=
  entry_of m c main_arg6 (by decide) (by decide) (by decide) (by decide) (by decide)

/-! ## After the second launch

The closing stretch over any contents `W` the launches leave. -/

variable (W : Valuation τ sig (Elt Ideal))

/-- The class scores returned: the first 100 of the 128 columns the second launch leaves. -/
theorem exit_v13 (b : Fin 2048) (k : Fin 100) :
    (StableHlo.after hostOps2 W main_v13 : Arr2 2048 100) (ix2 b k)
      = (W main_v11_1 : Arr2 2048 128) (ix2 b ⟨k.val, by omega⟩) := by
  have e : (StableHlo.after hostOps2 W main_v13 : Arr2 2048 100)
      = extractStridedSlice S2048x100 ![0, 0] (W main_v11_1 : Arr2 2048 128) slices_S2048x128_S2048x100_0_0 := by
    dsimp only [hostOps2]
    after_results
  rw [e]
  exact extractStridedSlice_apply _ _ slices_S2048x128_S2048x100_0_0 (ix2 b k) (ix2 b ⟨k.val, by omega⟩) (fun a =>
    match a with
    | ⟨0, _⟩ => by show b.val = 0 + b.val; omega
    | ⟨1, _⟩ => by show k.val = 0 + k.val; omega)

/-- The clause outputs joined: a column of the first 2048 is the first launch's. -/
theorem exit_v12_lo (b : Fin 2048) (q : Fin 2048) :
    (StableHlo.after hostOps2 W main_v12 : Arr2 2048 4096) (ix2 b (lo q)) = (W main_v10_0 : Arr2 2048 2048) (ix2 b q) := by
  have e : (StableHlo.after hostOps2 W main_v12 : Arr2 2048 4096)
      = concatenate S2048x4096 1 [⟨S2048x2048, (W main_v10_0 : Arr2 2048 2048)⟩, ⟨S2048x2048, (W main_v11_0 : Arr2 2048 2048)⟩]
          concatenates_S2048x2048_S2048x2048_S2048x4096_d1 := by
    dsimp only [hostOps2]
    after_results
  rw [e]
  exact concatenate_pair_apply_left _ _ _ concatenates_S2048x2048_S2048x2048_S2048x4096_d1 (ix2 b (lo q)) rfl (ix2 b q) (fun a =>
    match a with
    | ⟨0, _⟩ => rfl
    | ⟨1, _⟩ => rfl)

/-- The clause outputs joined: column 2048 + q is column q of the second launch's. -/
theorem exit_v12_hi (b : Fin 2048) (q : Fin 2048) :
    (StableHlo.after hostOps2 W main_v12 : Arr2 2048 4096) (ix2 b (hi q)) = (W main_v11_0 : Arr2 2048 2048) (ix2 b q) := by
  have e : (StableHlo.after hostOps2 W main_v12 : Arr2 2048 4096)
      = concatenate S2048x4096 1 [⟨S2048x2048, (W main_v10_0 : Arr2 2048 2048)⟩, ⟨S2048x2048, (W main_v11_0 : Arr2 2048 2048)⟩]
          concatenates_S2048x2048_S2048x2048_S2048x4096_d1 := by
    dsimp only [hostOps2]
    after_results
  rw [e]
  exact concatenate_pair_apply_right _ _ _ concatenates_S2048x2048_S2048x2048_S2048x4096_d1 (ix2 b (hi q)) rfl rfl (ix2 b q)
    (fun a =>
      match a with
      | ⟨0, _⟩ => fun _ => rfl
      | ⟨1, _⟩ => fun h => absurd rfl h)
    (by show q.val + 2048 = 2048 + q.val; omega)

end Cert.KernelIdeal.HostValue
end
-- ==== Proof.KiValue.lean ====
/-
  The idealized kernel's two results as functions of the seven argument arrays. The clause outputs: the closing
  concatenation reads column c < 2048 from the first region's clause array and column 2048 + c from the second's, and
  each region's clause array holds its bank's clause outputs of the samples and of its two tables. The class scores:
  the second region's accumulator is seeded with the first region's result, which is seeded with zero, so the final
  array is 0 + (first bank's sixteen groups) + (second bank's sixteen groups); the bias row and the padded voting rows
  a region finds are the bank's slices of the bias vector and of the voting matrix, and only classes below 100 are kept.
-/
import proofs.«152184_j30227979829789_2_alg».proof.Proof.KiAsm
import proofs.«152184_j30227979829789_2_alg».proof.Proof.KiR0Arr
import proofs.«152184_j30227979829789_2_alg».proof.Proof.KiR1Arr
import proofs.«152184_j30227979829789_2_alg».proof.Proof.HostValue

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The argument arrays as the launch memory holds them. -/
abbrev mX : Arr2 2048 3072 := m ((c : Thread nD τ).loc main_arg0)
abbrev mTP : Arr2 2048 3072 := m ((c : Thread nD τ).loc main_arg1)
abbrev mTN : Arr2 2048 3072 := m ((c : Thread nD τ).loc main_arg2)
abbrev mTPI : Arr2 2048 3072 := m ((c : Thread nD τ).loc main_arg3)
abbrev mTNI : Arr2 2048 3072 := m ((c : Thread nD τ).loc main_arg4)
abbrev mB : Arr1 4096 := m ((c : Thread nD τ).loc main_arg5)
abbrev mV : Arr2 4096 100 := m ((c : Thread nD τ).loc main_arg6)

/-! ## What each region finds -/

theorem x0_eq : aX0 (E5 m) c = mX m c := by
  funext i
  obtain ⟨b, f, rfl⟩ : ∃ (b : Fin 2048) (f : Fin 3072), i = ix2 b f := ⟨i 0, i 1, eq_ix2 i⟩
  exact HostValue.entry_v0 m c b f
theorem ta0_eq : aTA0 (E5 m) c = mTP m c :=
  W5_keep m c main_arg1 (by decide) (by decide) (by decide) (by decide) (by decide)
theorem tai0_eq : aTAI0 (E5 m) c = mTPI m c :=
  W5_keep m c main_arg3 (by decide) (by decide) (by decide) (by decide) (by decide)
theorem x1_eq : aX1 (E6 m) c = mX m c := by
  have e : aX1 (E6 m) c = aX0 (E5 m) c :=
    (W6_arr m c 0).trans (((dat0 (E5 m) c).arrAt_in 0 rfl _).trans (A_eq0 (E5 m) c 0))
  rw [e, x0_eq]
theorem ta1_eq : aTA1 (E6 m) c = mTN m c :=
  (W6_of_ne m c main_arg2 (by decide)).trans (W5_keep m c main_arg2 (by decide) (by decide) (by decide) (by decide) (by decide))
theorem tai1_eq : aTAI1 (E6 m) c = mTNI m c :=
  (W6_of_ne m c main_arg4 (by decide)).trans (W5_keep m c main_arg4 (by decide) (by decide) (by decide) (by decide) (by decide))

/-- A group of the first bank, over what the first region finds, is the specification's group. -/
theorem grp0_eq (b : Fin 2048) (k : Fin 100) (j : Fin 16) :
    grpT0 (E5 m) c b ⟨k.val, by omega⟩ j.val = group (mX m c) (mTP m c) (mTPI m c) (mB m c) (mV m c) lo b k j := by
  unfold grpT0 group
  rw [dif_pos j.isLt, x0_eq, ta0_eq, tai0_eq]
  refine Finset.sum_congr rfl fun c' _ => ?_
  have e2 : aBR0 (E5 m) c (ix2 (0 : Fin 1) (cidx ⟨j.val, j.isLt⟩ c')) = mB m c (ix1 (lo (cidx j c'))) :=
    HostValue.entry_v2 m c (cidx j c')
  have e6 : aVP0 (E5 m) c (ix2 (cidx ⟨j.val, j.isLt⟩ c') ⟨k.val, by omega⟩) = mV m c (ix2 (lo (cidx j c')) k) :=
    HostValue.entry_v6 m c (cidx j c') ⟨k.val, by omega⟩ k.isLt
  rw [e2, e6]

/-- A group of the second bank, over what the second region finds, is the specification's group. -/
theorem grp1_eq (b : Fin 2048) (k : Fin 100) (j : Fin 16) :
    grpT1 (E6 m) c b ⟨k.val, by omega⟩ j.val = group (mX m c) (mTN m c) (mTNI m c) (mB m c) (mV m c) hi b k j := by
  unfold grpT1 group
  rw [dif_pos j.isLt, x1_eq, ta1_eq, tai1_eq]
  refine Finset.sum_congr rfl fun c' _ => ?_
  have e4 : aBR1 (E6 m) c (ix2 (0 : Fin 1) (cidx ⟨j.val, j.isLt⟩ c')) = mB m c (ix1 (hi (cidx j c'))) :=
    (congrFun (W6_of_ne m c main_v4 (by decide)) _).trans (HostValue.entry_v4 m c (cidx j c'))
  have e8 : aVP1 (E6 m) c (ix2 (cidx ⟨j.val, j.isLt⟩ c') ⟨k.val, by omega⟩) = mV m c (ix2 (hi (cidx j c')) k) :=
    (congrFun (W6_of_ne m c main_v8 (by decide)) _).trans (HostValue.entry_v8 m c (cidx j c') ⟨k.val, by omega⟩ k.isLt)
  rw [e4, e8]

/-! ## The results -/

/-- The class scores at the end. -/
theorem W8_scores : (W8 m c main_v13 : Arr2 2048 100) = logits (mX m c) (mTP m c) (mTN m c) (mTPI m c) (mTNI m c) (mB m c) (mV m c) := by
  funext i
  obtain ⟨b, k, rfl⟩ : ∃ (b : Fin 2048) (k : Fin 100), i = ix2 b k := ⟨i 0, i 1, eq_ix2 i⟩
  refine (HostValue.exit_v13 (W7 m c) b k).trans ?_
  have s1 : (W7 m c main_v11_1 : Arr2 2048 128) = G7_1 (E6 m) c := (W7_arr m c 7).trans (final7_1 (E6 m) c)
  have s0 : aSD1 (E6 m) c = G7_0 (E5 m) c := (W6_arr m c 7).trans (final7_0 (E5 m) c)
  rw [s1]
  show aSD1 (E6 m) c (ix2 b ⟨k.val, _⟩) + ∑ j ∈ Finset.range 16, grpT1 (E6 m) c b ⟨k.val, _⟩ j = _
  rw [s0]
  show (aSD0 (E5 m) c (ix2 b ⟨k.val, _⟩) + ∑ j ∈ Finset.range 16, grpT0 (E5 m) c b ⟨k.val, _⟩ j) + _ = _
  rw [show aSD0 (E5 m) c (ix2 b ⟨k.val, by omega⟩) = 0 from HostValue.entry_v9 m c b ⟨k.val, by omega⟩, zero_add,
    Finset.sum_range, Finset.sum_range]
  unfold logits
  refine congrArg₂ (· + ·) (Finset.sum_congr rfl fun j _ => ?_) (Finset.sum_congr rfl fun j _ => ?_)
  · exact grp0_eq m c b k j
  · exact grp1_eq m c b k j

/-- The clause outputs at the end. -/
theorem W8_clause : (W8 m c main_v12 : Arr2 2048 4096) = clause (mX m c) (mTP m c) (mTN m c) (mTPI m c) (mTNI m c) := by
  funext i
  obtain ⟨b, q, rfl⟩ : ∃ (b : Fin 2048) (q : Fin 4096), i = ix2 b q := ⟨i 0, i 1, eq_ix2 i⟩
  have s0 : (W7 m c main_v10_0 : Arr2 2048 2048) = G6_0 (E5 m) c :=
    (W7_of_ne m c main_v10_0 (by decide)).trans ((W6_arr m c 6).trans (final6_0 (E5 m) c))
  have s1 : (W7 m c main_v11_0 : Arr2 2048 2048) = G6_1 (E6 m) c := (W7_arr m c 6).trans (final6_1 (E6 m) c)
  by_cases hq : q.val < 2048
  · obtain ⟨q', rfl⟩ : ∃ q' : Fin 2048, q = lo q' := ⟨⟨q.val, hq⟩, Fin.ext rfl⟩
    refine (HostValue.exit_v12_lo (W7 m c) b q').trans ?_
    rw [s0]
    show clauseHalf (aX0 (E5 m) c) (aTA0 (E5 m) c) (aTAI0 (E5 m) c) b q' = _
    rw [x0_eq, ta0_eq, tai0_eq]
    unfold clause
    rw [dif_pos (show ((ix2 b (lo q') : (⟨2, ![2048, 4096]⟩ : Shape).Idx) 1).val < 2048 from q'.isLt)]
    rfl
  · have hq' : q.val - 2048 < 2048 := by have := q.isLt; omega
    obtain ⟨q', rfl⟩ : ∃ q' : Fin 2048, q = hi q' :=
      ⟨⟨q.val - 2048, hq'⟩, Fin.ext (by show q.val = 2048 + (q.val - 2048); omega)⟩
    refine (HostValue.exit_v12_hi (W7 m c) b q').trans ?_
    rw [s1]
    show clauseHalf (aX1 (E6 m) c) (aTA1 (E6 m) c) (aTAI1 (E6 m) c) b q' = _
    rw [x1_eq, ta1_eq, tai1_eq]
    unfold clause
    rw [dif_neg (show ¬((ix2 b (hi q') : (⟨2, ![2048, 4096]⟩ : Shape).Idx) 1).val < 2048 from by show ¬(2048 + q'.val < 2048); omega)]
    refine congrArg (clauseHalf _ _ _ _) (Fin.ext ?_)
    show q'.val = 2048 + q'.val - 2048
    omega

/-- The run, read: both results at the specification's functions of the launch memory, the arguments unchanged. -/
theorem ki_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13) = logits (mX m c) (mTP m c) (mTN m c) (mTPI m c) (mTNI m c) (mB m c) (mV m c)
      ∧ r.2.mem ((c.tc : Thread nD τ).loc main_v12) = clause (mX m c) (mTP m c) (mTN m c) (mTPI m c) (mTNI m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v13 (by decide))).trans (W8_scores m c),
     (h c _ (mem_uc main_v12 (by decide))).trans (W8_clause m c),
     (h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c)⟩) (run_all (F := Ideal) m ρ)

end Cert.KernelIdeal.Val

end
-- ==== Proof.SumLaws.lean ====
/-
  Regrouping laws for finite sums in a commutative additive monoid. Nothing here uses more than
  commutativity and associativity of addition: no order, no multiplication, no finiteness of the summands.

  * a sum over the first a + b naturals is the sum over the first a plus the sum over the next b;
  * a sum over the first n * m naturals is the sum over n consecutive groups of m;
  * the two together, at the sizes 4096 = 2048 + 2048 = 16 * 128 + 16 * 128 and 6144 = 3072 + 3072.
-/
import Mathlib.Algebra.BigOperators.Fin
import Mathlib.Data.Fintype.BigOperators
import Mathlib.Logic.Equiv.Fin.Basic

namespace Cert.SumLaws

variable {M : Type*} [AddCommMonoid M]

/-- A sum over `Fin N` with `N = a + b`: the first `a` terms, then the remaining `b` terms, each keeping its
    place. -/
theorem sum_split (a b N : Nat) (h : a + b = N) (f : Fin N → M) :
    ∑ k : Fin N, f k
      = (∑ i : Fin a, f ⟨i.val, by omega⟩) + ∑ i : Fin b, f ⟨a + i.val, by omega⟩ := by
  subst h
  rw [Fin.sum_univ_add]
  rfl

/-- A sum over `Fin N` with `N = n * m`: group `j` holds the `m` consecutive terms from `m * j` on. The
    bijection between pairs (group, place in group) and positions only relabels the terms. -/
theorem sum_groups (n m N : Nat) (h : n * m = N) (f : Fin N → M)
    (hb : ∀ (j : Fin n) (c : Fin m), m * j.val + c.val < N) :
    ∑ k : Fin N, f k = ∑ j : Fin n, ∑ c : Fin m, f ⟨m * j.val + c.val, hb j c⟩ := by
  subst h
  rw [← Equiv.sum_comp finProdFinEquiv f, Fintype.sum_prod_type]
  refine Finset.sum_congr rfl fun j _ => Finset.sum_congr rfl fun c _ => congrArg f (Fin.ext ?_)
  exact Nat.add_comm _ _

/-- 6144 terms are the first 3072 and the last 3072. -/
theorem sum_6144 (f : Fin 6144 → M) :
    ∑ k : Fin 6144, f k
      = (∑ i : Fin 3072, f ⟨i.val, by omega⟩) + ∑ i : Fin 3072, f ⟨3072 + i.val, by omega⟩ :=
  sum_split 3072 3072 6144 rfl f

/-- 2048 terms are sixteen groups of 128 consecutive terms. -/
theorem sum_2048 (f : Fin 2048 → M) :
    ∑ k : Fin 2048, f k = ∑ j : Fin 16, ∑ c : Fin 128, f ⟨128 * j.val + c.val, by omega⟩ :=
  sum_groups 16 128 2048 rfl f fun j c => by omega

/-- 4096 terms are two halves of 2048, each sixteen groups of 128 consecutive terms. -/
theorem sum_4096 (f : Fin 4096 → M) :
    ∑ k : Fin 4096, f k
      = (∑ j : Fin 16, ∑ c : Fin 128, f ⟨128 * j.val + c.val, by omega⟩)
        + ∑ j : Fin 16, ∑ c : Fin 128, f ⟨2048 + (128 * j.val + c.val), by omega⟩ := by
  rw [sum_split 2048 2048 4096 rfl f, sum_2048 fun c => f ⟨c.val, by omega⟩,
    sum_2048 fun c => f ⟨2048 + c.val, by omega⟩]

end Cert.SumLaws
-- ==== Proof.RefValue.lean ====
/-
  The reference program's two results, read index by index, are the specification's functions of the seven
  argument arrays.

  The reference joins, along the feature axis, the array 1 - x with x (6144 columns) and, for each bank of clauses,
  the gated table of literals with the gated table of negated literals; it stacks the two banks' joined tables
  (4096 rows), and takes ONE sum over the 6144 joined features for each sample and clause. A column below 3072 of a
  joined array is a column of its first piece and a column from 3072 on is a column of its second piece, so that one
  sum is the sum over the first 3072 features plus the sum over the last 3072: the specification's score. The class
  scores are ONE sum over all 4096 clauses; it is regrouped into the first bank's sixteen groups of 128 clauses and
  then the second bank's. Only commutativity and associativity of addition are used.
-/
import proofs.«152184_j30227979829789_2_alg».proof.Proof.Spec
import proofs.«152184_j30227979829789_2_alg».proof.Proof.SumLaws
import proofs.«152184_j30227979829789_2_alg».proof.Proof.Gen.ReferenceIdeal.Read

noncomputable section

namespace Cert.RefBridge

open Idealize.ShloMosaic Idealize.ShloMosaic.TcCoe Idealize.SL.Sem
open Idealize.ShloMosaic.ValueIdx
open Cert.ReferenceIdeal Cert.ReferenceIdeal.Gen Cert.ReferenceIdeal.Read

/-- A table of literals, a batch of samples: 2048 x 3072 extended reals. -/
abbrev Tab : Type := (⟨S2048x3072, .f32⟩ : BufTy).Contents (Elt Ideal)

/-! ## The clipped logistic of a table entry

Each of the four tables passes, entry by entry, through `1 / (1 + e^(-t))` spelt with a negation, an exponential, a
sum with 1 and a quotient of 1, and is then clipped below by 0 and above by 1: the specification's `gate`. -/

theorem gate_v6 (x1 : Tab) (i : S2048x3072.Idx) : val_main_v6 (F := Ideal) x1 i = Cert.Spec.gate (x1 i) := by
  rw [val_main_v6_apply, val_main_call0_v4_apply, val_main_call0_v3_apply, val_main_cst_2_apply,
    val_main_call0_v2_apply, val_main_call0_v1_apply, val_main_call0_v0_apply, val_main_cst_1_apply,
    val_main_v5_apply, val_main_v4_apply, val_main_cst_0_apply, val_main_v3_apply, val_main_v2_apply,
    val_main_cst_apply, val_main_v1_apply, val_main_v0_apply]
  simp only [Ideal.minimumf_def, Ideal.maximumf_def, Ideal.hostDivf_def, Ideal.addf_def, Ideal.hostUnary_exp_def,
    Ideal.hostNegf_def, Ideal.negf_def, Ideal.ofBits_def, Cert.Spec.one_f32, Ideal.ofBits_zero_f32]
  rfl

theorem gate_v13 (x2 : Tab) (i : S2048x3072.Idx) : val_main_v13 (F := Ideal) x2 i = Cert.Spec.gate (x2 i) := by
  rw [val_main_v13_apply, val_main_call1_v4_apply, val_main_call1_v3_apply, val_main_cst_6_apply,
    val_main_call1_v2_apply, val_main_call1_v1_apply, val_main_call1_v0_apply, val_main_cst_5_apply,
    val_main_v12_apply, val_main_v11_apply, val_main_cst_4_apply, val_main_v10_apply, val_main_v9_apply,
    val_main_cst_3_apply, val_main_v8_apply, val_main_v7_apply]
  simp only [Ideal.minimumf_def, Ideal.maximumf_def, Ideal.hostDivf_def, Ideal.addf_def, Ideal.hostUnary_exp_def,
    Ideal.hostNegf_def, Ideal.negf_def, Ideal.ofBits_def, Cert.Spec.one_f32, Ideal.ofBits_zero_f32]
  rfl

theorem gate_v20 (x3 : Tab) (i : S2048x3072.Idx) : val_main_v20 (F := Ideal) x3 i = Cert.Spec.gate (x3 i) := by
  rw [val_main_v20_apply, val_main_call2_v4_apply, val_main_call2_v3_apply, val_main_cst_10_apply,
    val_main_call2_v2_apply, val_main_call2_v1_apply, val_main_call2_v0_apply, val_main_cst_9_apply,
    val_main_v19_apply, val_main_v18_apply, val_main_cst_8_apply, val_main_v17_apply, val_main_v16_apply,
    val_main_cst_7_apply, val_main_v15_apply, val_main_v14_apply]
  simp only [Ideal.minimumf_def, Ideal.maximumf_def, Ideal.hostDivf_def, Ideal.addf_def, Ideal.hostUnary_exp_def,
    Ideal.hostNegf_def, Ideal.negf_def, Ideal.ofBits_def, Cert.Spec.one_f32, Ideal.ofBits_zero_f32]
  rfl

theorem gate_v27 (x4 : Tab) (i : S2048x3072.Idx) : val_main_v27 (F := Ideal) x4 i = Cert.Spec.gate (x4 i) := by
  rw [val_main_v27_apply, val_main_call3_v4_apply, val_main_call3_v3_apply, val_main_cst_14_apply,
    val_main_call3_v2_apply, val_main_call3_v1_apply, val_main_call3_v0_apply, val_main_cst_13_apply,
    val_main_v26_apply, val_main_v25_apply, val_main_cst_12_apply, val_main_v24_apply, val_main_v23_apply,
    val_main_cst_11_apply, val_main_v22_apply, val_main_v21_apply]
  simp only [Ideal.minimumf_def, Ideal.maximumf_def, Ideal.hostDivf_def, Ideal.addf_def, Ideal.hostUnary_exp_def,
    Ideal.hostNegf_def, Ideal.negf_def, Ideal.ofBits_def, Cert.Spec.one_f32, Ideal.ofBits_zero_f32]
  rfl

/-! ## The joined arrays at a column, the stacked table at a row

A column below 3072 of a join along the feature axis is that column of the first piece; column `3072 + f` is column
`f` of the second piece. A row below 2048 of the stacked table is that row of the first bank's joined table; row
`2048 + c` is row `c` of the second bank's. -/

/-- Columns below 3072 of the joined samples hold `1 - x`. -/
theorem v30_left (x0 : Tab) (b : Fin 2048) (f : Fin 3072) :
    val_main_v30 (F := Ideal) x0 (ix2 b (⟨f.val, by omega⟩ : Fin 6144)) = 1 - x0 (ix2 b f) := by
  unfold val_main_v30
  refine (concatenate_pair_apply_left (1 : Fin S2048x6144.rank) (val_main_v29 (F := Ideal) x0) x0
    concatenates_S2048x3072_S2048x3072_S2048x6144_d1 _ rfl (ix2 b f)
    (fun a => match a with | ⟨0, _⟩ => rfl | ⟨1, _⟩ => rfl)).trans ?_
  rw [val_main_v29_apply, val_main_v28_apply, val_main_cst_15_apply]
  simp only [Ideal.subf_def, Ideal.ofBits_def, Cert.Spec.one_f32]

/-- Columns from 3072 on of the joined samples hold `x`. -/
theorem v30_right (x0 : Tab) (b : Fin 2048) (f : Fin 3072) :
    val_main_v30 (F := Ideal) x0 (ix2 b (⟨3072 + f.val, by omega⟩ : Fin 6144)) = x0 (ix2 b f) := by
  unfold val_main_v30
  exact concatenate_pair_apply_right (1 : Fin S2048x6144.rank) (val_main_v29 (F := Ideal) x0) x0
    concatenates_S2048x3072_S2048x3072_S2048x6144_d1 _ rfl rfl (ix2 b f)
    (fun a ha => match a, ha with | ⟨0, _⟩, _ => rfl | ⟨1, _⟩, ha => absurd rfl ha)
    (by show f.val + 3072 = 3072 + f.val; omega)

/-- The first bank's joined table: gated literals, then gated negated literals. -/
theorem v31_left (x1 x3 : Tab) (c : Fin 2048) (f : Fin 3072) :
    val_main_v31 (F := Ideal) x1 x3 (ix2 c (⟨f.val, by omega⟩ : Fin 6144)) = Cert.Spec.gate (x1 (ix2 c f)) := by
  unfold val_main_v31
  refine (concatenate_pair_apply_left (1 : Fin S2048x6144.rank) (val_main_v6 (F := Ideal) x1) (val_main_v20 (F := Ideal) x3)
    concatenates_S2048x3072_S2048x3072_S2048x6144_d1 _ rfl (ix2 c f)
    (fun a => match a with | ⟨0, _⟩ => rfl | ⟨1, _⟩ => rfl)).trans ?_
  exact gate_v6 x1 _

theorem v31_right (x1 x3 : Tab) (c : Fin 2048) (f : Fin 3072) :
    val_main_v31 (F := Ideal) x1 x3 (ix2 c (⟨3072 + f.val, by omega⟩ : Fin 6144)) = Cert.Spec.gate (x3 (ix2 c f)) := by
  unfold val_main_v31
  refine (concatenate_pair_apply_right (1 : Fin S2048x6144.rank) (val_main_v6 (F := Ideal) x1) (val_main_v20 (F := Ideal) x3)
    concatenates_S2048x3072_S2048x3072_S2048x6144_d1 _ rfl rfl (ix2 c f)
    (fun a ha => match a, ha with | ⟨0, _⟩, _ => rfl | ⟨1, _⟩, ha => absurd rfl ha)
    (by show f.val + 3072 = 3072 + f.val; omega)).trans ?_
  exact gate_v20 x3 _

/-- The second bank's joined table. -/
theorem v32_left (x2 x4 : Tab) (c : Fin 2048) (f : Fin 3072) :
    val_main_v32 (F := Ideal) x2 x4 (ix2 c (⟨f.val, by omega⟩ : Fin 6144)) = Cert.Spec.gate (x2 (ix2 c f)) := by
  unfold val_main_v32
  refine (concatenate_pair_apply_left (1 : Fin S2048x6144.rank) (val_main_v13 (F := Ideal) x2) (val_main_v27 (F := Ideal) x4)
    concatenates_S2048x3072_S2048x3072_S2048x6144_d1 _ rfl (ix2 c f)
    (fun a => match a with | ⟨0, _⟩ => rfl | ⟨1, _⟩ => rfl)).trans ?_
  exact gate_v13 x2 _

theorem v32_right (x2 x4 : Tab) (c : Fin 2048) (f : Fin 3072) :
    val_main_v32 (F := Ideal) x2 x4 (ix2 c (⟨3072 + f.val, by omega⟩ : Fin 6144)) = Cert.Spec.gate (x4 (ix2 c f)) := by
  unfold val_main_v32
  refine (concatenate_pair_apply_right (1 : Fin S2048x6144.rank) (val_main_v13 (F := Ideal) x2) (val_main_v27 (F := Ideal) x4)
    concatenates_S2048x3072_S2048x3072_S2048x6144_d1 _ rfl rfl (ix2 c f)
    (fun a ha => match a, ha with | ⟨0, _⟩, _ => rfl | ⟨1, _⟩, ha => absurd rfl ha)
    (by show f.val + 3072 = 3072 + f.val; omega)).trans ?_
  exact gate_v27 x4 _

/-- Rows below 2048 of the stacked table are the first bank's rows. -/
theorem v33_lo (x1 x2 x3 x4 : Tab) (c : Fin 2048) (k : Fin 6144) :
    val_main_v33 (F := Ideal) x1 x2 x3 x4 (ix2 (Cert.Spec.lo c) k) = val_main_v31 (F := Ideal) x1 x3 (ix2 c k) := by
  unfold val_main_v33
  exact concatenate_pair_apply_left (0 : Fin S4096x6144.rank) (val_main_v31 (F := Ideal) x1 x3) (val_main_v32 (F := Ideal) x2 x4)
    concatenates_S2048x6144_S2048x6144_S4096x6144_d0 _ rfl (ix2 c k)
    (fun a => match a with | ⟨0, _⟩ => rfl | ⟨1, _⟩ => rfl)

/-- Rows from 2048 on of the stacked table are the second bank's rows. -/
theorem v33_hi (x1 x2 x3 x4 : Tab) (c : Fin 2048) (k : Fin 6144) :
    val_main_v33 (F := Ideal) x1 x2 x3 x4 (ix2 (Cert.Spec.hi c) k) = val_main_v32 (F := Ideal) x2 x4 (ix2 c k) := by
  unfold val_main_v33
  exact concatenate_pair_apply_right (0 : Fin S4096x6144.rank) (val_main_v31 (F := Ideal) x1 x3) (val_main_v32 (F := Ideal) x2 x4)
    concatenates_S2048x6144_S2048x6144_S4096x6144_d0 _ rfl rfl (ix2 c k)
    (fun a ha => match a, ha with | ⟨0, _⟩, ha => absurd rfl ha | ⟨1, _⟩, _ => rfl)
    (by show c.val + 2048 = 2048 + c.val; omega)

/-! ## A clause's score: one sum over the 6144 joined features

At sample `b` and row `cc` of the stacked table the reference sums, over the 6144 joined features `k`, the joined
sample at `(b, k)` times the stacked table at `(cc, k)` (the table is read transposed). The sum over 6144 is the
sum over the first 3072 plus the sum over the last 3072. -/

theorem lidx35 (b : Fin 2048) (cc : Fin 4096) (k : Fin 6144) : lidx_main_v35 (ix2 b cc) k = ix2 b k :=
  funext fun a => match a with | ⟨0, _⟩ => rfl | ⟨1, _⟩ => rfl

theorem ridx35 (b : Fin 2048) (cc : Fin 4096) (k : Fin 6144) :
    idx_main_v34 (ridx_main_v35 (ix2 b cc) k) = ix2 cc k :=
  funext fun a => match a with | ⟨0, _⟩ => rfl | ⟨1, _⟩ => rfl

theorem v35_at (x0 x1 x2 x3 x4 : Tab) (b : Fin 2048) (cc : Fin 4096) :
    val_main_v35 (F := Ideal) x0 x1 x2 x3 x4 (ix2 b cc)
      = (∑ f : Fin 3072, val_main_v30 (F := Ideal) x0 (ix2 b (⟨f.val, by omega⟩ : Fin 6144))
            * val_main_v33 (F := Ideal) x1 x2 x3 x4 (ix2 cc (⟨f.val, by omega⟩ : Fin 6144)))
        + ∑ f : Fin 3072, val_main_v30 (F := Ideal) x0 (ix2 b (⟨3072 + f.val, by omega⟩ : Fin 6144))
            * val_main_v33 (F := Ideal) x1 x2 x3 x4 (ix2 cc (⟨3072 + f.val, by omega⟩ : Fin 6144)) := by
  rw [val_main_v35_apply, Cert.SumLaws.sum_6144]
  simp only [val_main_v34_apply, lidx35, ridx35]

/-- The scaled sum at a clause of the first bank is the specification's score with that bank's tables. -/
theorem v37_lo (x0 x1 x2 x3 x4 : Tab) (b c : Fin 2048) :
    val_main_v37 (F := Ideal) x0 x1 x2 x3 x4 (ix2 b (Cert.Spec.lo c)) = Cert.Spec.score x0 x1 x3 b c := by
  rw [val_main_v37_apply, val_main_v36_apply, val_main_cst_16_apply, v35_at]
  simp only [v30_left, v30_right, v33_lo, v31_left, v31_right, Ideal.mulf_def, Ideal.ofBits_def]
  rfl

/-- The scaled sum at a clause of the second bank. -/
theorem v37_hi (x0 x1 x2 x3 x4 : Tab) (b c : Fin 2048) :
    val_main_v37 (F := Ideal) x0 x1 x2 x3 x4 (ix2 b (Cert.Spec.hi c)) = Cert.Spec.score x0 x2 x4 b c := by
  rw [val_main_v37_apply, val_main_v36_apply, val_main_cst_16_apply, v35_at]
  simp only [v30_left, v30_right, v33_hi, v32_left, v32_right, Ideal.mulf_def, Ideal.ofBits_def]
  rfl

/-! ## A clause's output: the score clipped to [0, 10], negated, exponentiated -/

theorem v40_of_v37 (x0 x1 x2 x3 x4 : Tab) (i : S2048x4096.Idx) :
    val_main_v40 (F := Ideal) x0 x1 x2 x3 x4 i
      = Ideal.exp (-(min Cert.Spec.tenW (max 0 (val_main_v37 (F := Ideal) x0 x1 x2 x3 x4 i)))) := by
  rw [val_main_v40_apply, val_main_v39_apply, val_main_v38_apply, val_main_call4_v4_apply, val_main_call4_v3_apply,
    val_main_cst_18_apply, val_main_call4_v2_apply, val_main_call4_v1_apply, val_main_call4_v0_apply,
    val_main_cst_17_apply]
  simp only [Ideal.hostUnary_exp_def, Ideal.hostNegf_def, Ideal.negf_def, Ideal.minimumf_def, Ideal.maximumf_def,
    Ideal.ofBits_def, Ideal.ofBits_zero_f32]

theorem v40_lo (x0 x1 x2 x3 x4 : Tab) (b c : Fin 2048) :
    val_main_v40 (F := Ideal) x0 x1 x2 x3 x4 (ix2 b (Cert.Spec.lo c)) = Cert.Spec.clauseHalf x0 x1 x3 b c := by
  rw [v40_of_v37, v37_lo]; rfl

theorem v40_hi (x0 x1 x2 x3 x4 : Tab) (b c : Fin 2048) :
    val_main_v40 (F := Ideal) x0 x1 x2 x3 x4 (ix2 b (Cert.Spec.hi c)) = Cert.Spec.clauseHalf x0 x2 x4 b c := by
  rw [v40_of_v37, v37_hi]; rfl

/-- The clause outputs, all 4096 columns: a column below 2048 is a clause of the first bank, a column from 2048 on
    a clause of the second. -/
theorem v40_eq_clause (x0 x1 x2 x3 x4 : Tab) :
    val_main_v40 (F := Ideal) x0 x1 x2 x3 x4 = Cert.Spec.clause x0 x1 x2 x3 x4 := by
  funext i
  obtain ⟨b, cc, rfl⟩ : ∃ (b : Fin 2048) (cc : Fin 4096), i = ix2 b cc := ⟨i 0, i 1, eq_ix2 i⟩
  show _ = dite (cc.val < 2048) (fun h => Cert.Spec.clauseHalf x0 x1 x3 b ⟨cc.val, h⟩)
      (fun h => Cert.Spec.clauseHalf x0 x2 x4 b ⟨cc.val - 2048, by have := cc.isLt; omega⟩)
  by_cases h : cc.val < 2048
  · rw [dif_pos h]
    have e : cc = Cert.Spec.lo ⟨cc.val, h⟩ := Fin.ext rfl
    exact (congrArg (fun z => val_main_v40 (F := Ideal) x0 x1 x2 x3 x4 (ix2 b z)) e).trans
      (v40_lo x0 x1 x2 x3 x4 b ⟨cc.val, h⟩)
  · rw [dif_neg h]
    have hc : cc.val - 2048 < 2048 := by have := cc.isLt; omega
    have e : cc = Cert.Spec.hi ⟨cc.val - 2048, hc⟩ :=
      Fin.ext (by show cc.val = 2048 + (cc.val - 2048); omega)
    exact (congrArg (fun z => val_main_v40 (F := Ideal) x0 x1 x2 x3 x4 (ix2 b z)) e).trans
      (v40_hi x0 x1 x2 x3 x4 b ⟨cc.val - 2048, hc⟩)

/-! ## The class scores: one sum over all 4096 clauses

At sample `b` and class `k` the reference sums, over all 4096 clauses `cc`, the clause's output plus its bias, times
the clause's vote for the class. The sum over 4096 is regrouped into the first 2048 clauses in sixteen groups of 128
and the last 2048 likewise. -/

/-- The clause biases: 4096 extended reals. -/
abbrev Bias : Type := (⟨S4096, .f32⟩ : BufTy).Contents (Elt Ideal)
/-- The voting matrix: 4096 x 100 extended reals. -/
abbrev Vot : Type := (⟨S4096x100, .f32⟩ : BufTy).Contents (Elt Ideal)

theorem lidx44 (b : Fin 2048) (k : Fin 100) (cc : Fin 4096) : lidx_main_v44 (ix2 b k) cc = ix2 b cc :=
  funext fun a => match a with | ⟨0, _⟩ => rfl | ⟨1, _⟩ => rfl

theorem ridx44 (b : Fin 2048) (k : Fin 100) (cc : Fin 4096) : ridx_main_v44 (ix2 b k) cc = ix2 cc k :=
  funext fun a => match a with | ⟨0, _⟩ => rfl | ⟨1, _⟩ => rfl

/-- The bias row, spread over the samples, read at a sample and a clause is the clause's bias. -/
theorem bias_idx (b : Fin 2048) (cc : Fin 4096) : idx_main_v41 (idx_main_v42 (ix2 b cc)) = ix1 cc :=
  funext fun a => match a with | ⟨0, _⟩ => rfl

theorem v43_at (x0 x1 x2 x3 x4 : Tab) (x5 : Bias) (b : Fin 2048) (cc : Fin 4096) :
    val_main_v43 (F := Ideal) x0 x1 x2 x3 x4 x5 (ix2 b cc)
      = val_main_v40 (F := Ideal) x0 x1 x2 x3 x4 (ix2 b cc) + x5 (ix1 cc) := by
  rw [val_main_v43_apply, val_main_v42_apply, val_main_v41_apply, bias_idx]
  rfl

/-- The class scores are the specification's: the first bank's sixteen groups, then the second bank's. -/
theorem v44_eq_logits (x0 x1 x2 x3 x4 : Tab) (x5 : Bias) (x6 : Vot) :
    val_main_v44 (F := Ideal) x0 x1 x2 x3 x4 x5 x6 = Cert.Spec.logits x0 x1 x2 x3 x4 x5 x6 := by
  funext i
  obtain ⟨b, k, rfl⟩ : ∃ (b : Fin 2048) (k : Fin 100), i = ix2 b k := ⟨i 0, i 1, eq_ix2 i⟩
  rw [val_main_v44_apply, Cert.SumLaws.sum_4096]
  simp only [lidx44, ridx44, v43_at]
  show (∑ j : Fin 16, ∑ c' : Fin 128,
          (val_main_v40 (F := Ideal) x0 x1 x2 x3 x4 (ix2 b (Cert.Spec.lo (Cert.Spec.cidx j c')))
              + x5 (ix1 (Cert.Spec.lo (Cert.Spec.cidx j c')))) * x6 (ix2 (Cert.Spec.lo (Cert.Spec.cidx j c')) k))
        + (∑ j : Fin 16, ∑ c' : Fin 128,
          (val_main_v40 (F := Ideal) x0 x1 x2 x3 x4 (ix2 b (Cert.Spec.hi (Cert.Spec.cidx j c')))
              + x5 (ix1 (Cert.Spec.hi (Cert.Spec.cidx j c')))) * x6 (ix2 (Cert.Spec.hi (Cert.Spec.cidx j c')) k))
      = _
  simp only [v40_lo, v40_hi]
  rfl

end Cert.RefBridge

end
-- ==== Proof.RefRun.lean ====
/-
  The reference program's run, stated with the specification: every execution ends with the class scores at the
  specification's `logits` of the seven argument arrays, the clause outputs at its `clause` of the first five, and
  the arguments unchanged. The run itself, with each result at the operations' composed term of the arguments, is the
  generated one; that each term is the specification's function is the index-by-index reading of the value module.
-/
import proofs.«152184_j30227979829789_2_alg».proof.Defs
import proofs.«152184_j30227979829789_2_alg».proof.Proof.RefValue
import proofs.«152184_j30227979829789_2_alg».proof.Proof.Gen.ReferenceIdeal
import proofs.«152184_j30227979829789_2_alg».proof.Proof.Gen.ReferenceIdeal.Run
import proofs.«152184_j30227979829789_2_alg».proof.Proof.Gen.ReferenceIdeal.Read
import proofs.«152184_j30227979829789_2_alg».proof.Proof.Gen.Pre_finite_inputs

noncomputable section

namespace Cert.RefBridge

open Idealize.ShloMosaic Idealize.ShloMosaic.TcCoe Idealize.SL.Sem

/-- Every execution of the reference ends with its two results at the specification's functions of the arguments'
    launch contents, and the arguments unchanged. -/
theorem ref_run (m : (l : Loc Cert.ReferenceIdeal.nD Cert.ReferenceIdeal.τ Cert.ReferenceIdeal.sig) → Buf (Elt Ideal) l)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v44)
          = Cert.Spec.logits (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v40)
          = Cert.Spec.clause (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run Cert.ReferenceIdeal.defs _ _).mono
    (fun _ h c =>
      ⟨(h c).1.trans ((Cert.ReferenceIdeal.Read.val_main_v44_eq (F := Ideal) _ _ _ _ _ _ _).trans
          (v44_eq_logits _ _ _ _ _ _ _)),
        (h c).2.1.trans ((Cert.ReferenceIdeal.Read.val_main_v40_eq (F := Ideal) _ _ _ _ _).trans
          (v40_eq_clause _ _ _ _ _)),
        (h c).2.2⟩)
    (Cert.ReferenceIdeal.Value.run (F := Ideal) m ρ)

/-- The reference runs and leaves its arguments unchanged. -/
theorem frame_ri : Cert.frame_ReferenceIdeal := fun m ρ _ =>
  (θ_run Cert.ReferenceIdeal.defs _ _).mono (fun _ h c => (h c).2.2) (Cert.ReferenceIdeal.Value.run (F := Ideal) m ρ)

end Cert.RefBridge

end
-- ==== Proof.lean ====
/-
  Two banks of 2048 clauses vote on 100 classes for each of 2048 samples. A clause's score on a sample is
  (sum over the 3072 features of (1 - x) * g(ta) + x * g(tai)) * s with g the clipped logistic of a table entry and s
  the single-precision word nearest 1/768; its output is exp (-(min 10 (max 0 score))); a class's score is the sum over
  all 4096 clauses of (output + bias) * vote. The kernel computes one bank per launch, 128 clauses at a time: the two
  feature sums as two matrix products, and the class scores by accumulating each group's 128 products into a buffer
  that is seeded with zero for the first bank and with the first bank's result for the second. The reference computes
  one sum over the 6144 concatenated features against a 4096-row concatenated table, and one sum over all 4096 clauses.
  On the extended reals the two agree: a sum over a concatenation is the sum of the two sums, a sum over 4096 clauses
  is the sum over the two banks' sixteen groups of 128, and 0 + a = a; only commutativity and associativity of
  addition are used, so the inputs' finiteness is never needed. The logistic the kernel applies as one operation is
  by definition the quotient 1 / (1 + e^(-t)) the reference spells out.

  The frames: each launch runs its 32 grid points to the end without a fault; the accumulator lives in a scratch
  buffer whose contents after each point are named, so that the next point's run starts from them; no item of the
  entry function writes an argument array. The ideal pass rewrote nothing, so the idealization is the kernel's own text.
-/
import proofs.«152184_j30227979829789_2_alg».proof.Defs
import proofs.«152184_j30227979829789_2_alg».proof.Proof.Gen.Kernel
import proofs.«152184_j30227979829789_2_alg».proof.Proof.Gen.KernelIdeal
import proofs.«152184_j30227979829789_2_alg».proof.Proof.Gen.ReferenceIdeal
import proofs.«152184_j30227979829789_2_alg».proof.Proof.Gen.Pre_finite_inputs
import proofs.«152184_j30227979829789_2_alg».proof.Proof.KbAsm
import proofs.«152184_j30227979829789_2_alg».proof.Proof.KiValue
import proofs.«152184_j30227979829789_2_alg».proof.Proof.RefRun

noncomputable section

namespace Cert.Proof

open Idealize.ShloMosaic Idealize.SL.Sem

/-- The word-level kernel runs and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- From memories agreeing on the arguments both idealized programs end with the specification's class scores and
    clause outputs of those arguments. -/
theorem algebraic : Cert.algebraic_KernelIdeal_ReferenceIdeal := by
  intro m ρ m' ρ' _ hagree
  refine ⟨fun c => Cert.Spec.logits (Cert.KernelIdeal.Val.mX m c) (Cert.KernelIdeal.Val.mTP m c) (Cert.KernelIdeal.Val.mTN m c)
      (Cert.KernelIdeal.Val.mTPI m c) (Cert.KernelIdeal.Val.mTNI m c) (Cert.KernelIdeal.Val.mB m c) (Cert.KernelIdeal.Val.mV m c),
    fun c => Cert.Spec.clause (Cert.KernelIdeal.Val.mX m c) (Cert.KernelIdeal.Val.mTP m c) (Cert.KernelIdeal.Val.mTN m c)
      (Cert.KernelIdeal.Val.mTPI m c) (Cert.KernelIdeal.Val.mTNI m c),
    Cert.KernelIdeal.Val.ki_run m ρ, ?_⟩
  refine (θ_run Cert.ReferenceIdeal.defs _ _).mono (fun _ h c => ?_) (Cert.RefBridge.ref_run m' ρ')
  obtain ⟨h1, h2, h3⟩ := h c
  obtain ⟨e0, e1, e2, e3, e4, e5, e6⟩ := hagree c
  refine ⟨h1.trans ?_, h2.trans ?_, h3⟩
  · rw [e0, e1, e2, e3, e4, e5, e6]
  · rw [e0, e1, e2, e3, e4]

theorem claim : Cert.Claim := ⟨Cert.Kernel.Gen.facts, Cert.KernelIdeal.Gen.facts, Cert.ReferenceIdeal.Gen.facts, Cert.Pre_finite_inputs.Gen.facts,
  frame_k, frame_ki, Cert.RefBridge.frame_ri, trivial, algebraic⟩

end Cert.Proof

end
